-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S1200x300 .f32 .bf16
  ∧ IdealRules.truncf_extf.Statement Cert.KernelIdeal.S300x1024 .f32 .bf16
  ∧ IdealRules.truncf_extf.Statement Cert.KernelIdeal.S1200x300 .f32 .bf16
  ∧ IdealRules.truncf_extf.Statement Cert.KernelIdeal.S300x1024 .f32 .bf16
  ∧ IdealRules.truncf_extf.Statement Cert.KernelIdeal.S1200x300 .f32 .bf16
  ∧ IdealRules.truncf_extf.Statement Cert.KernelIdeal.S300x1024 .f32 .bf16
  ∧ IdealRules.truncf_extf.Statement Cert.KernelIdeal.S1200x300 .f32 .bf16
  ∧ IdealRules.truncf_extf.Statement Cert.KernelIdeal.S300x1024 .f32 .bf16
  ∧ IdealRules.truncf_extf.Statement Cert.KernelIdeal.S1200x300 .f32 .bf16
  ∧ IdealRules.truncf_extf.Statement Cert.KernelIdeal.S300x1024 .f32 .bf16
  ∧ IdealRules.truncf_extf.Statement Cert.KernelIdeal.S1200x300 .f32 .bf16
  ∧ IdealRules.truncf_extf.Statement Cert.KernelIdeal.S300x1024 .f32 .bf16
  ∧ IdealRules.truncf_extf.Statement Cert.KernelIdeal.S1200x300 .f32 .bf16
  ∧ IdealRules.truncf_extf.Statement Cert.KernelIdeal.S300x1024 .f32 .bf16
  ∧ IdealRules.truncf_extf.Statement Cert.KernelIdeal.S1200x300 .f32 .bf16
  ∧ IdealRules.truncf_extf.Statement Cert.KernelIdeal.S300x1024 .f32 .bf16
  ∧ IdealRules.truncf_extf.Statement Cert.KernelIdeal.S1200x300 .f32 .bf16
  ∧ IdealRules.truncf_extf.Statement Cert.KernelIdeal.S300x1024 .f32 .bf16
  ∧ IdealRules.truncf_extf.Statement Cert.KernelIdeal.S1200x300 .f32 .bf16
  ∧ IdealRules.truncf_extf.Statement Cert.KernelIdeal.S300x1024 .f32 .bf16
  ∧ IdealRules.truncf_extf.Statement Cert.KernelIdeal.S1200x300 .f32 .bf16
  ∧ IdealRules.truncf_extf.Statement Cert.KernelIdeal.S300x1024 .f32 .bf16
  ∧ IdealRules.truncf_extf.Statement Cert.KernelIdeal.S1200x300 .f32 .bf16
  ∧ IdealRules.truncf_extf.Statement Cert.KernelIdeal.S300x1024 .f32 .bf16
  ∧ IdealRules.truncf_extf.Statement Cert.KernelIdeal.S1200x300 .f32 .bf16
  ∧ IdealRules.truncf_extf.Statement Cert.KernelIdeal.S300x1024 .f32 .bf16
  ∧ IdealRules.truncf_extf.Statement Cert.KernelIdeal.S1200x300 .f32 .bf16
  ∧ IdealRules.truncf_extf.Statement Cert.KernelIdeal.S300x1024 .f32 .bf16
  ∧ IdealRules.truncf_extf.Statement Cert.KernelIdeal.S1200x300 .f32 .bf16
  ∧ IdealRules.truncf_extf.Statement Cert.KernelIdeal.S300x1024 .f32 .bf16
  ∧ IdealRules.truncf_extf.Statement Cert.KernelIdeal.S1200x300 .f32 .bf16
  ∧ IdealRules.truncf_extf.Statement Cert.KernelIdeal.S300x1024 .f32 .bf16
  ∧ IdealRules.truncf_extf.Statement Cert.KernelIdeal.S1200x300 .f32 .bf16
  ∧ IdealRules.truncf_extf.Statement Cert.KernelIdeal.S300x1024 .f32 .bf16
  ∧ IdealRules.truncf_extf.Statement Cert.KernelIdeal.S1200x300 .f32 .bf16
  ∧ IdealRules.truncf_extf.Statement Cert.KernelIdeal.S300x1024 .f32 .bf16
  ∧ IdealRules.truncf_extf.Statement Cert.KernelIdeal.S24x300 .f32 .bf16
  ∧ IdealRules.truncf_extf.Statement Cert.KernelIdeal.S300x1024 .f32 .bf16
  ∧ IdealRules.truncf_extf.Statement Cert.KernelIdeal.S24x300 .f32 .bf16
  ∧ IdealRules.truncf_extf.Statement Cert.KernelIdeal.S300x1024 .f32 .bf16
  ∧ IdealRules.truncf_extf.Statement Cert.KernelIdeal.S24x300 .f32 .bf16
  ∧ IdealRules.truncf_extf.Statement Cert.KernelIdeal.S300x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v483) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024x3 : Shape := ⟨3, ![1024, 1024, 3]⟩
abbrev S24x300x300 : Shape := ⟨3, ![24, 300, 300]⟩
abbrev S24x300 : Shape := ⟨2, ![24, 300]⟩
abbrev S_ : Shape := ⟨0, ![]⟩

class Facts : Prop where
  bcast_S_S1024x1024x3 : S_.BroadcastsInDim S1024x1024x3 (![] : Fin 0 → Fin S1024x1024x3.rank)
  reducesTo_S1024x1024x3_S_d0_1_2 : S1024x1024x3.ReducesTo [0, 1, 2] S_
  h_S_ : 0 < S_.numel
  bcast_S_S24x300x300 : S_.BroadcastsInDim S24x300x300 (![] : Fin 0 → Fin S24x300x300.rank)
  reducesTo_S24x300x300_S_d0_1_2 : S24x300x300.ReducesTo [0, 1, 2] S_
  bcast_S_S24x300 : S_.BroadcastsInDim S24x300 (![] : Fin 0 → Fin S24x300.rank)
  reducesTo_S24x300_S_d0_1 : S24x300.ReducesTo [0, 1] S_

variable [Facts]

def fn_part1 {F : FTy → Type} [FloatOps F] (main_arg4 : FVec F S24x300 .f32) (main_arg5 : FVec F S24x300 .f32) (main_arg6 : FVec F S24x300 .f32) (main_v13 : IVec S_ 1) (main_v16 : IVec S24x300x300 1) : IVec S_ 1 :=
  let main_c_5 : IVec S_ 1 := constantI S_ 1 1#1
  let main_v17 : IVec S_ 1 := (fun x v => Host.reduce IntOp.andi x v reducesTo_S24x300x300_S_d0_1_2 h_S_) main_v16 main_c_5
  let main_v18 : IVec S_ 1 := andi main_v13 main_v17
  let main_v19 : FVec F S24x300 .f32 := Host.absf main_arg4
  let main_cst_6 : FVec F S_ .f32 := constant S_ .f32 0x7F800000#32
  let main_v20 : FVec F S24x300 .f32 := broadcastInDim S24x300 ![] bcast_S_S24x300 main_cst_6
  let main_v21 : IVec S24x300 1 := cmpf .olt main_v19 main_v20
  let main_c_7 : IVec S_ 1 := constantI S_ 1 1#1
  let main_v22 : IVec S_ 1 := (fun x v => Host.reduce IntOp.andi x v reducesTo_S24x300_S_d0_1 h_S_) main_v21 main_c_7
  let main_v23 : IVec S_ 1 := andi main_v18 main_v22
  let main_v24 : FVec F S24x300 .f32 := Host.absf main_arg5
  let main_cst_8 : FVec F S_ .f32 := constant S_ .f32 0x7F800000#32
  let main_v25 : FVec F S24x300 .f32 := broadcastInDim S24x300 ![] bcast_S_S24x300 main_cst_8
  let main_v26 : IVec S24x300 1 := cmpf .olt main_v24 main_v25
  let main_c_9 : IVec S_ 1 := constantI S_ 1 1#1
  let main_v27 : IVec S_ 1 := (fun x v => Host.reduce IntOp.andi x v reducesTo_S24x300_S_d0_1 h_S_) main_v26 main_c_9
  let main_v28 : IVec S_ 1 := andi main_v23 main_v27
  let main_v29 : FVec F S24x300 .f32 := Host.absf main_arg6
  let main_cst_10 : FVec F S_ .f32 := constant S_ .f32 0x7F800000#32
  let main_v30 : FVec F S24x300 .f32 := broadcastInDim S24x300 ![] bcast_S_S24x300 main_cst_10
  let main_v31 : IVec S24x300 1 := cmpf .olt main_v29 main_v30
  let main_c_11 : IVec S_ 1 := constantI S_ 1 1#1
  let main_v32 : IVec S_ 1 := (fun x v => Host.reduce IntOp.andi x v reducesTo_S24x300_S_d0_1 h_S_) main_v31 main_c_11
  let main_v33 : IVec S_ 1 := andi main_v28 main_v32
  main_v33

def fn {F : FTy → Type} [FloatOps F] (main_arg0 : FVec F S1024x1024x3 .f32) (main_arg1 : FVec F S24x300x300 .f32) (main_arg2 : FVec F S24x300x300 .f32) (main_arg3 : FVec F S24x300x300 .f32) (main_arg4 : FVec F S24x300 .f32) (main_arg5 : FVec F S24x300 .f32) (main_arg6 : FVec F S24x300 .f32) : IVec S_ 1 :=
  let main_v0 : FVec F S1024x1024x3 .f32 := Host.absf main_arg0
  let main_cst : FVec F S_ .f32 := constant S_ .f32 0x7F800000#32
  let main_v1 : FVec F S1024x1024x3 .f32 := broadcastInDim S1024x1024x3 ![] bcast_S_S1024x1024x3 main_cst
  let main_v2 : IVec S1024x1024x3 1 := cmpf .olt main_v0 main_v1
  let main_c : IVec S_ 1 := constantI S_ 1 1#1
  let main_v3 : IVec S_ 1 := (fun x v => Host.reduce IntOp.andi x v reducesTo_S1024x1024x3_S_d0_1_2 h_S_) main_v2 main_c
  let main_v4 : FVec F S24x300x300 .f32 := Host.absf main_arg1
  let main_cst_0 : FVec F S_ .f32 := constant S_ .f32 0x7F800000#32
  let main_v5 : FVec F S24x300x300 .f32 := broadcastInDim S24x300x300 ![] bcast_S_S24x300x300 main_cst_0
  let main_v6 : IVec S24x300x300 1 := cmpf .olt main_v4 main_v5
  let main_c_1 : IVec S_ 1 := constantI S_ 1 1#1
  let main_v7 : IVec S_ 1 := (fun x v => Host.reduce IntOp.andi x v reducesTo_S24x300x300_S_d0_1_2 h_S_) main_v6 main_c_1
  let main_v8 : IVec S_ 1 := andi main_v3 main_v7
  let main_v9 : FVec F S24x300x300 .f32 := Host.absf main_arg2
  let main_cst_2 : FVec F S_ .f32 := constant S_ .f32 0x7F800000#32
  let main_v10 : FVec F S24x300x300 .f32 := broadcastInDim S24x300x300 ![] bcast_S_S24x300x300 main_cst_2
  let main_v11 : IVec S24x300x300 1 := cmpf .olt main_v9 main_v10
  let main_c_3 : IVec S_ 1 := constantI S_ 1 1#1
  let main_v12 : IVec S_ 1 := (fun x v => Host.reduce IntOp.andi x v reducesTo_S24x300x300_S_d0_1_2 h_S_) main_v11 main_c_3
  let main_v13 : IVec S_ 1 := andi main_v8 main_v12
  let main_v14 : FVec F S24x300x300 .f32 := Host.absf main_arg3
  let main_cst_4 : FVec F S_ .f32 := constant S_ .f32 0x7F800000#32
  let main_v15 : FVec F S24x300x300 .f32 := broadcastInDim S24x300x300 ![] bcast_S_S24x300x300 main_cst_4
  let main_v16 : IVec S24x300x300 1 := cmpf .olt main_v14 main_v15
  fn_part1 (F := F) main_arg4 main_arg5 main_arg6 main_v13 main_v16
-- ==== Kernel.lean ====
abbrev S1024x1024x3 : Shape := ⟨3, ![1024, 1024, 3]⟩
abbrev S24x300x300 : Shape := ⟨3, ![24, 300, 300]⟩
abbrev S24x300 : Shape := ⟨2, ![24, 300]⟩
abbrev S1048576x3 : Shape := ⟨2, ![1048576, 3]⟩
abbrev S1048576 : Shape := ⟨1, ![1048576]⟩
abbrev S1024x3 : Shape := ⟨2, ![1024, 3]⟩
abbrev S1024 : Shape := ⟨1, ![1024]⟩
abbrev S1024x1 : Shape := ⟨2, ![1024, 1]⟩
abbrev S300x1024 : Shape := ⟨2, ![300, 1024]⟩
abbrev S1x1024 : Shape := ⟨2, ![1, 1024]⟩
abbrev S4x300x300 : Shape := ⟨3, ![4, 300, 300]⟩
abbrev S1200x300 : Shape := ⟨2, ![1200, 300]⟩
abbrev S1200x1024 : Shape := ⟨2, ![1200, 1024]⟩
abbrev S4x300x1024 : Shape := ⟨3, ![4, 300, 1024]⟩
abbrev S1x300x1024 : Shape := ⟨3, ![1, 300, 1024]⟩
abbrev S4x1024 : Shape := ⟨2, ![4, 1024]⟩
abbrev S24x1024 : Shape := ⟨2, ![24, 1024]⟩
abbrev S1024x1024 : Shape := ⟨2, ![1024, 1024]⟩

abbrev nBuf : Space → Nat
  | .hbm => 10
  | .vmem => 10
  | .smem => 0
  | _ => 0

abbrev bufTy : (tb : Table) → Fin (tcTables nBuf tb) → BufTy
  | .hbm, ⟨0, _⟩ => ⟨S1024x1024x3, .f32⟩
  | .hbm, ⟨1, _⟩ => ⟨S24x300x300, .f32⟩
  | .hbm, ⟨2, _⟩ => ⟨S24x300x300, .f32⟩
  | .hbm, ⟨3, _⟩ => ⟨S24x300x300, .f32⟩
  | .hbm, ⟨4, _⟩ => ⟨S24x300, .f32⟩
  | .hbm, ⟨5, _⟩ => ⟨S24x300, .f32⟩
  | .hbm, ⟨6, _⟩ => ⟨S24x300, .f32⟩
  | .hbm, ⟨7, _⟩ => ⟨S1048576x3, .f32⟩
  | .hbm, ⟨8, _⟩ => ⟨S1048576, .f32⟩
  | .hbm, ⟨9, _⟩ => ⟨S1024x1024, .f32⟩
  | .local _ .vmem, ⟨0, _⟩ => ⟨S1024x3, .f32⟩
  | .local _ .vmem, ⟨1, _⟩ => ⟨S1024x3, .f32⟩
  | .local _ .vmem, ⟨2, _⟩ => ⟨S24x300x300, .f32⟩
  | .local _ .vmem, ⟨3, _⟩ => ⟨S24x300x300, .f32⟩
  | .local _ .vmem, ⟨4, _⟩ => ⟨S24x300x300, .f32⟩
  | .local _ .vmem, ⟨5, _⟩ => ⟨S24x300, .f32⟩
  | .local _ .vmem, ⟨6, _⟩ => ⟨S24x300, .f32⟩
  | .local _ .vmem, ⟨7, _⟩ => ⟨S24x300, .f32⟩
  | .local _ .vmem, ⟨8, _⟩ => ⟨S1024, .f32⟩
  | .local _ .vmem, ⟨9, _⟩ => ⟨S1024, .f32⟩
  | _, _ => ⟨S1024x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x300x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S24x300x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S24x300x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S24x300 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S24x300 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x300 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S1024x1024x3_S1048576x3 : S1024x1024x3.ShapeCasts S1048576x3
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  slices_S1024x3_o0_0_S1024x1 : S1024x3.Slices ![0, 0] S1024x1
  shapeCasts_S1024x1_S1024 : S1024x1.ShapeCasts S1024
  slices_S1024x3_o0_1_S1024x1 : S1024x3.Slices ![0, 1] S1024x1
  slices_S1024x3_o0_2_S1024x1 : S1024x3.Slices ![0, 2] S1024x1
  iota_S300x1024_d0_w32 : S300x1024.Iotas .tc 32 [0]
  shapeCasts_S1024_S1x1024 : S1024.ShapeCasts S1x1024
  broadcasts_S1x1024_S300x1024 : S1x1024.Broadcasts S300x1024
  shapeCasts_S1x1024_S1x1024 : S1x1024.ShapeCasts S1x1024
  inb_S24x300x300_S4x300x300_0_0_0 : ∀ a, (![0, 0, 0] : Fin 3 → Nat) a + S4x300x300.size a ≤ S24x300x300.size a
  h_S4x300x300 : 0 < S4x300x300.numel
  shapeCasts_S4x300x300_S1200x300 : S4x300x300.ShapeCasts S1200x300
  bitsLt_bf16_f32 : FTy.bits .bf16 < FTy.bits .f32
  shapeCasts_S1200x1024_S4x300x1024 : S1200x1024.ShapeCasts S4x300x1024
  shapeCasts_S300x1024_S1x300x1024 : S300x1024.ShapeCasts S1x300x1024
  broadcasts_S1x300x1024_S4x300x1024 : S1x300x1024.Broadcasts S4x300x1024
  reduces_S4x300x1024_S4x1024 : S4x300x1024.Reduces [1] S4x1024
  inb_S24x300x300_S4x300x300_4_0_0 : ∀ a, (![4, 0, 0] : Fin 3 → Nat) a + S4x300x300.size a ≤ S24x300x300.size a
  inb_S24x300x300_S4x300x300_8_0_0 : ∀ a, (![8, 0, 0] : Fin 3 → Nat) a + S4x300x300.size a ≤ S24x300x300.size a
  inb_S24x300x300_S4x300x300_12_0_0 : ∀ a, (![12, 0, 0] : Fin 3 → Nat) a + S4x300x300.size a ≤ S24x300x300.size a
  inb_S24x300x300_S4x300x300_16_0_0 : ∀ a, (![16, 0, 0] : Fin 3 → Nat) a + S4x300x300.size a ≤ S24x300x300.size a
  inb_S24x300x300_S4x300x300_20_0_0 : ∀ a, (![20, 0, 0] : Fin 3 → Nat) a + S4x300x300.size a ≤ S24x300x300.size a
  concatenates_S4x1024_S4x1024_S4x1024_S4x1024_S4x1024_S4x1024_S24x1024_d0 : Shape.Concatenates [S4x1024, S4x1024, S4x1024, S4x1024, S4x1024, S4x1024] S24x1024 0
  inb_S24x300_S24x300_0_0 : ∀ a, (![0, 0] : Fin 2 → Nat) a + S24x300.size a ≤ S24x300.size a
  h_S24x300 : 0 < S24x300.numel
  reduces_S24x1024_S1024 : S24x1024.Reduces [0] S1024
  inb_S1024_S1024_0 : ∀ a, (![0] : Fin 1 → Nat) a + S1024.size a ≤ S1024.size a
  h_S1024 : 0 < S1024.numel
  shapeCasts_S1048576_S1024x1024 : S1048576.ShapeCasts S1024x1024
  dot_S1200x300_S300x1024_S1200x1024_1_0_0_1_n_n_wf : DotDims.WF S1200x300 S300x1024 S1200x1024 [1] [0] [0] [1] [] []
  dot_S24x300_S300x1024_S24x1024_1_0_0_1_n_n_wf : DotDims.WF S24x300 S300x1024 S24x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x3.size a ≤ S1048576x3.size a
  hwx0_0 : ∀ i : grid0.Coords, EltTy.bits .f32 = 32 ∨ (Rect.block (s := S1048576x3) S1024x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S24x300x300.size a ≤ S24x300x300.size a
  hwx0_1 : ∀ i : grid0.Coords, EltTy.bits .f32 = 32 ∨ (Rect.block (s := S24x300x300) S24x300x300.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S24x300x300.size a ≤ S24x300x300.size a
  hwx0_2 : ∀ i : grid0.Coords, EltTy.bits .f32 = 32 ∨ (Rect.block (s := S24x300x300) S24x300x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S24x300x300.size a ≤ S24x300x300.size a
  hwx0_3 : ∀ i : grid0.Coords, EltTy.bits .f32 = 32 ∨ (Rect.block (s := S24x300x300) S24x300x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S24x300.size a ≤ S24x300.size a
  hwx0_4 : ∀ i : grid0.Coords, EltTy.bits .f32 = 32 ∨ (Rect.block (s := S24x300) S24x300.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S24x300.size a ≤ S24x300.size a
  hwx0_5 : ∀ i : grid0.Coords, EltTy.bits .f32 = 32 ∨ (Rect.block (s := S24x300) S24x300.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S24x300.size a ≤ S24x300.size a
  hwx0_6 : ∀ i : grid0.Coords, EltTy.bits .f32 = 32 ∨ (Rect.block (s := S24x300) S24x300.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1048576.size a
  hwx0_7 : ∀ i : grid0.Coords, EltTy.bits .f32 = 32 ∨ (Rect.block (s := S1048576) S1024.size (cc0_transform_7 i) (hinb0_7 i)).WholeWords (EltTy.packing .f32)

variable [Facts₀]

def dot_S1200x300_S300x1024_S1200x1024_1_0_0_1_n_n : DotDims S1200x300 S300x1024 S1200x1024 where
  lhsContracting := [1]
  rhsContracting := [0]
  lhsNonContracting := [0]
  rhsNonContracting := [1]
  lhsBatch := []
  rhsBatch := []
  wf := dot_S1200x300_S300x1024_S1200x1024_1_0_0_1_n_n_wf
def dot_S24x300_S300x1024_S24x1024_1_0_0_1_n_n : DotDims S24x300 S300x1024 S24x1024 where
  lhsContracting := [1]
  rhsContracting := [0]
  lhsNonContracting := [0]
  rhsNonContracting := [1]
  lhsBatch := []
  rhsBatch := []
  wf := dot_S24x300_S300x1024_S24x1024_1_0_0_1_n_n_wf

abbrev win0_0 : Pipeline.Window sig grid0 :=
  Pipeline.Window.ofSpec (Memref.whole main_v0) S1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S24x300x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S24x300x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S24x300x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S24x300.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S24x300.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S24x300.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1024x1024x3 : Shape := ⟨3, ![1024, 1024, 3]⟩
abbrev S24x300x300 : Shape := ⟨3, ![24, 300, 300]⟩
abbrev S24x300 : Shape := ⟨2, ![24, 300]⟩
abbrev S1048576x3 : Shape := ⟨2, ![1048576, 3]⟩
abbrev S1048576x1 : Shape := ⟨2, ![1048576, 1]⟩
abbrev S1048576 : Shape := ⟨1, ![1048576]⟩
abbrev S_ : Shape := ⟨0, ![]⟩
abbrev S1048576x2 : Shape := ⟨2, ![1048576, 2]⟩
abbrev S24x1048576 : Shape := ⟨2, ![24, 1048576]⟩
abbrev S1x1048576 : Shape := ⟨2, ![1, 1048576]⟩
abbrev S1024x1024 : Shape := ⟨2, ![1024, 1024]⟩

abbrev nBuf : Space → Nat
  | .hbm => 731
  | .vmem => 0
  | .smem => 0
  | _ => 0

abbrev hbmTy0_0 (i : Nat) : BufTy := match i % 128 with
  | 0 => ⟨S1024x1024x3, .f32⟩
  | 1 => ⟨S24x300x300, .f32⟩
  | 2 => ⟨S24x300x300, .f32⟩
  | 3 => ⟨S24x300x300, .f32⟩
  | 4 => ⟨S24x300, .f32⟩
  | 5 => ⟨S24x300, .f32⟩
  | 6 => ⟨S24x300, .f32⟩
  | 7 => ⟨S1048576x3, .f32⟩
  | 8 => ⟨S1048576x1, .f32⟩
  | 9 => ⟨S1048576, .f32⟩
  | 10 => ⟨S1048576x1, .f32⟩
  | 11 => ⟨S1048576, .f32⟩
  | 12 => ⟨S1048576x1, .f32⟩
  | 13 => ⟨S1048576, .f32⟩
  | 14 => ⟨S_, .f32⟩
  | 15 => ⟨S1048576, .f32⟩
  | 16 => ⟨S1048576, .f32⟩
  | 17 => ⟨S_, .f32⟩
  | 18 => ⟨S1048576, .f32⟩
  | 19 => ⟨S1048576, .f32⟩
  | 20 => ⟨S_, .f32⟩
  | 21 => ⟨S1048576, .f32⟩
  | 22 => ⟨S1048576, .f32⟩
  | 23 => ⟨S_, .f32⟩
  | 24 => ⟨S1048576, .f32⟩
  | 25 => ⟨S1048576, .f32⟩
  | 26 => ⟨S_, .f32⟩
  | 27 => ⟨S1048576, .f32⟩
  | 28 => ⟨S1048576, .f32⟩
  | 29 => ⟨S_, .f32⟩
  | 30 => ⟨S1048576, .f32⟩
  | 31 => ⟨S1048576, .f32⟩
  | 32 => ⟨S1048576, .f32⟩
  | 33 => ⟨S1048576, .i32⟩
  | 34 => ⟨S_, .i32⟩
  | 35 => ⟨S_, .i32⟩
  | 36 => ⟨S_, .i32⟩
  | 37 => ⟨S1048576, .i32⟩
  | 38 => ⟨S1048576, .i32⟩
  | 39 => ⟨S_, .i32⟩
  | 40 => ⟨S1048576, .i32⟩
  | 41 => ⟨S1048576, .i32⟩
  | 42 => ⟨S1048576, .f32⟩
  | 43 => ⟨S1048576, .i32⟩
  | 44 => ⟨S_, .i32⟩
  | 45 => ⟨S_, .i32⟩
  | 46 => ⟨S_, .i32⟩
  | 47 => ⟨S1048576, .i32⟩
  | 48 => ⟨S1048576, .i32⟩
  | 49 => ⟨S_, .i32⟩
  | 50 => ⟨S1048576, .i32⟩
  | 51 => ⟨S1048576, .i32⟩
  | 52 => ⟨S_, .i32⟩
  | 53 => ⟨S1048576, .i32⟩
  | 54 => ⟨S1048576, .i32⟩
  | 55 => ⟨S_, .i32⟩
  | 56 => ⟨S_, .i32⟩
  | 57 => ⟨S_, .i32⟩
  | 58 => ⟨S1048576, .i32⟩
  | 59 => ⟨S1048576, .i32⟩
  | 60 => ⟨S_, .i32⟩
  | 61 => ⟨S1048576, .i32⟩
  | 62 => ⟨S1048576, .i32⟩
  | 63 => ⟨S_, .i32⟩
  | 64 => ⟨S1048576, .i32⟩
  | 65 => ⟨S1048576, .i32⟩
  | 66 => ⟨S_, .i32⟩
  | 67 => ⟨S_, .i32⟩
  | 68 => ⟨S_, .i32⟩
  | 69 => ⟨S1048576, .i32⟩
  | 70 => ⟨S1048576, .i32⟩
  | 71 => ⟨S_, .i32⟩
  | 72 => ⟨S1048576, .i32⟩
  | 73 => ⟨S1048576, .i32⟩
  | 74 => ⟨S1048576, .f32⟩
  | 75 => ⟨S1048576, .f32⟩
  | 76 => ⟨S1048576, .f32⟩
  | 77 => ⟨S1048576, .f32⟩
  | 78 => ⟨S_, .i32⟩
  | 79 => ⟨S1048576, .i32⟩
  | 80 => ⟨S1048576, .i1⟩
  | 81 => ⟨S_, .i32⟩
  | 82 => ⟨S1048576, .i32⟩
  | 83 => ⟨S1048576, .i32⟩
  | 84 => ⟨S1048576, .i32⟩
  | 85 => ⟨S_, .i32⟩
  | 86 => ⟨S1048576, .i32⟩
  | 87 => ⟨S1048576, .i1⟩
  | 88 => ⟨S_, .i32⟩
  | 89 => ⟨S1048576, .i32⟩
  | 90 => ⟨S1048576, .i32⟩
  | 91 => ⟨S1048576, .i32⟩
  | 92 => ⟨S1048576x1, .i32⟩
  | 93 => ⟨S1048576x1, .i32⟩
  | 94 => ⟨S1048576x2, .i32⟩
  | 95 => ⟨S24x1048576, .f32⟩
  | 96 => ⟨S_, .f32⟩
  | 97 => ⟨S1048576, .f32⟩
  | 98 => ⟨S1048576, .f32⟩
  | 99 => ⟨S1x1048576, .f32⟩
  | 100 => ⟨S24x1048576, .f32⟩
  | 101 => ⟨S24x1048576, .f32⟩
  | 102 => ⟨S_, .f32⟩
  | 103 => ⟨S1048576, .f32⟩
  | 104 => ⟨S1048576, .f32⟩
  | 105 => ⟨S1x1048576, .f32⟩
  | 106 => ⟨S24x1048576, .f32⟩
  | 107 => ⟨S24x1048576, .f32⟩
  | 108 => ⟨S_, .i32⟩
  | 109 => ⟨S1048576, .i32⟩
  | 110 => ⟨S1048576, .i1⟩
  | 111 => ⟨S_, .i32⟩
  | 112 => ⟨S1048576, .i32⟩
  | 113 => ⟨S1048576, .i32⟩
  | 114 => ⟨S1048576, .i32⟩
  | 115 => ⟨S_, .i32⟩
  | 116 => ⟨S1048576, .i32⟩
  | 117 => ⟨S1048576, .i1⟩
  | 118 => ⟨S_, .i32⟩
  | 119 => ⟨S1048576, .i32⟩
  | 120 => ⟨S1048576, .i32⟩
  | 121 => ⟨S1048576, .i32⟩
  | 122 => ⟨S1048576x1, .i32⟩
  | 123 => ⟨S1048576x1, .i32⟩
  | 124 => ⟨S1048576x2, .i32⟩
  | 125 => ⟨S24x1048576, .f32⟩
  | 126 => ⟨S1x1048576, .f32⟩
  | 127 => ⟨S24x1048576, .f32⟩
  | _ => ⟨S1024x1024x3, .f32⟩

abbrev hbmTy0_1 (i : Nat) : BufTy := match i % 128 with
  | 0 => ⟨S24x1048576, .f32⟩
  | 1 => ⟨S_, .f32⟩
  | 2 => ⟨S1048576, .f32⟩
  | 3 => ⟨S1048576, .f32⟩
  | 4 => ⟨S1x1048576, .f32⟩
  | 5 => ⟨S24x1048576, .f32⟩
  | 6 => ⟨S24x1048576, .f32⟩
  | 7 => ⟨S24x1048576, .f32⟩
  | 8 => ⟨S_, .i32⟩
  | 9 => ⟨S1048576, .i32⟩
  | 10 => ⟨S1048576, .i1⟩
  | 11 => ⟨S_, .i32⟩
  | 12 => ⟨S1048576, .i32⟩
  | 13 => ⟨S1048576, .i32⟩
  | 14 => ⟨S1048576, .i32⟩
  | 15 => ⟨S_, .i32⟩
  | 16 => ⟨S1048576, .i32⟩
  | 17 => ⟨S1048576, .i1⟩
  | 18 => ⟨S_, .i32⟩
  | 19 => ⟨S1048576, .i32⟩
  | 20 => ⟨S1048576, .i32⟩
  | 21 => ⟨S1048576, .i32⟩
  | 22 => ⟨S1048576x1, .i32⟩
  | 23 => ⟨S1048576x1, .i32⟩
  | 24 => ⟨S1048576x2, .i32⟩
  | 25 => ⟨S24x1048576, .f32⟩
  | 26 => ⟨S_, .f32⟩
  | 27 => ⟨S1048576, .f32⟩
  | 28 => ⟨S1048576, .f32⟩
  | 29 => ⟨S1x1048576, .f32⟩
  | 30 => ⟨S24x1048576, .f32⟩
  | 31 => ⟨S24x1048576, .f32⟩
  | 32 => ⟨S1x1048576, .f32⟩
  | 33 => ⟨S24x1048576, .f32⟩
  | 34 => ⟨S24x1048576, .f32⟩
  | 35 => ⟨S24x1048576, .f32⟩
  | 36 => ⟨S_, .i32⟩
  | 37 => ⟨S1048576, .i32⟩
  | 38 => ⟨S1048576, .i1⟩
  | 39 => ⟨S_, .i32⟩
  | 40 => ⟨S1048576, .i32⟩
  | 41 => ⟨S1048576, .i32⟩
  | 42 => ⟨S1048576, .i32⟩
  | 43 => ⟨S_, .i32⟩
  | 44 => ⟨S1048576, .i32⟩
  | 45 => ⟨S1048576, .i1⟩
  | 46 => ⟨S_, .i32⟩
  | 47 => ⟨S1048576, .i32⟩
  | 48 => ⟨S1048576, .i32⟩
  | 49 => ⟨S1048576, .i32⟩
  | 50 => ⟨S1048576x1, .i32⟩
  | 51 => ⟨S1048576x1, .i32⟩
  | 52 => ⟨S1048576x2, .i32⟩
  | 53 => ⟨S24x1048576, .f32⟩
  | 54 => ⟨S1x1048576, .f32⟩
  | 55 => ⟨S24x1048576, .f32⟩
  | 56 => ⟨S24x1048576, .f32⟩
  | 57 => ⟨S1x1048576, .f32⟩
  | 58 => ⟨S24x1048576, .f32⟩
  | 59 => ⟨S24x1048576, .f32⟩
  | 60 => ⟨S24x1048576, .f32⟩
  | 61 => ⟨S_, .f32⟩
  | 62 => ⟨S1048576, .f32⟩
  | 63 => ⟨S1048576, .f32⟩
  | 64 => ⟨S_, .f32⟩
  | 65 => ⟨S1048576, .f32⟩
  | 66 => ⟨S1048576, .f32⟩
  | 67 => ⟨S_, .f32⟩
  | 68 => ⟨S1048576, .f32⟩
  | 69 => ⟨S1048576, .f32⟩
  | 70 => ⟨S1048576, .f32⟩
  | 71 => ⟨S1048576, .i32⟩
  | 72 => ⟨S_, .i32⟩
  | 73 => ⟨S_, .i32⟩
  | 74 => ⟨S_, .i32⟩
  | 75 => ⟨S1048576, .i32⟩
  | 76 => ⟨S1048576, .i32⟩
  | 77 => ⟨S_, .i32⟩
  | 78 => ⟨S1048576, .i32⟩
  | 79 => ⟨S1048576, .i32⟩
  | 80 => ⟨S_, .i32⟩
  | 81 => ⟨S1048576, .i32⟩
  | 82 => ⟨S1048576, .i32⟩
  | 83 => ⟨S_, .i32⟩
  | 84 => ⟨S_, .i32⟩
  | 85 => ⟨S_, .i32⟩
  | 86 => ⟨S1048576, .i32⟩
  | 87 => ⟨S1048576, .i32⟩
  | 88 => ⟨S_, .i32⟩
  | 89 => ⟨S1048576, .i32⟩
  | 90 => ⟨S1048576, .i32⟩
  | 91 => ⟨S1048576, .f32⟩
  | 92 => ⟨S1048576, .f32⟩
  | 93 => ⟨S_, .i32⟩
  | 94 => ⟨S1048576, .i32⟩
  | 95 => ⟨S1048576, .i1⟩
  | 96 => ⟨S_, .i32⟩
  | 97 => ⟨S1048576, .i32⟩
  | 98 => ⟨S1048576, .i32⟩
  | 99 => ⟨S1048576, .i32⟩
  | 100 => ⟨S1048576x1, .i32⟩
  | 101 => ⟨S24x1048576, .f32⟩
  | 102 => ⟨S_, .f32⟩
  | 103 => ⟨S1048576, .f32⟩
  | 104 => ⟨S1048576, .f32⟩
  | 105 => ⟨S1x1048576, .f32⟩
  | 106 => ⟨S24x1048576, .f32⟩
  | 107 => ⟨S24x1048576, .f32⟩
  | 108 => ⟨S_, .i32⟩
  | 109 => ⟨S1048576, .i32⟩
  | 110 => ⟨S1048576, .i1⟩
  | 111 => ⟨S_, .i32⟩
  | 112 => ⟨S1048576, .i32⟩
  | 113 => ⟨S1048576, .i32⟩
  | 114 => ⟨S1048576, .i32⟩
  | 115 => ⟨S1048576x1, .i32⟩
  | 116 => ⟨S24x1048576, .f32⟩
  | 117 => ⟨S1x1048576, .f32⟩
  | 118 => ⟨S24x1048576, .f32⟩
  | 119 => ⟨S24x1048576, .f32⟩
  | 120 => ⟨S24x1048576, .f32⟩
  | 121 => ⟨S24x1048576, .f32⟩
  | 122 => ⟨S_, .f32⟩
  | 123 => ⟨S1048576, .f32⟩
  | 124 => ⟨S_, .f32⟩
  | 125 => ⟨S1048576, .f32⟩
  | 126 => ⟨S1048576, .f32⟩
  | 127 => ⟨S_, .f32⟩
  | _ => ⟨S1024x1024x3, .f32⟩

abbrev hbmTy0_2 (i : Nat) : BufTy := match i % 128 with
  | 0 => ⟨S1048576, .f32⟩
  | 1 => ⟨S1048576, .f32⟩
  | 2 => ⟨S_, .f32⟩
  | 3 => ⟨S1048576, .f32⟩
  | 4 => ⟨S1048576, .f32⟩
  | 5 => ⟨S_, .f32⟩
  | 6 => ⟨S1048576, .f32⟩
  | 7 => ⟨S1048576, .f32⟩
  | 8 => ⟨S_, .f32⟩
  | 9 => ⟨S1048576, .f32⟩
  | 10 => ⟨S1048576, .f32⟩
  | 11 => ⟨S_, .f32⟩
  | 12 => ⟨S1048576, .f32⟩
  | 13 => ⟨S1048576, .f32⟩
  | 14 => ⟨S1048576, .f32⟩
  | 15 => ⟨S1048576, .i32⟩
  | 16 => ⟨S_, .i32⟩
  | 17 => ⟨S_, .i32⟩
  | 18 => ⟨S_, .i32⟩
  | 19 => ⟨S1048576, .i32⟩
  | 20 => ⟨S1048576, .i32⟩
  | 21 => ⟨S_, .i32⟩
  | 22 => ⟨S1048576, .i32⟩
  | 23 => ⟨S1048576, .i32⟩
  | 24 => ⟨S1048576, .f32⟩
  | 25 => ⟨S1048576, .i32⟩
  | 26 => ⟨S_, .i32⟩
  | 27 => ⟨S_, .i32⟩
  | 28 => ⟨S_, .i32⟩
  | 29 => ⟨S1048576, .i32⟩
  | 30 => ⟨S1048576, .i32⟩
  | 31 => ⟨S_, .i32⟩
  | 32 => ⟨S1048576, .i32⟩
  | 33 => ⟨S1048576, .i32⟩
  | 34 => ⟨S_, .i32⟩
  | 35 => ⟨S1048576, .i32⟩
  | 36 => ⟨S1048576, .i32⟩
  | 37 => ⟨S_, .i32⟩
  | 38 => ⟨S_, .i32⟩
  | 39 => ⟨S_, .i32⟩
  | 40 => ⟨S1048576, .i32⟩
  | 41 => ⟨S1048576, .i32⟩
  | 42 => ⟨S_, .i32⟩
  | 43 => ⟨S1048576, .i32⟩
  | 44 => ⟨S1048576, .i32⟩
  | 45 => ⟨S_, .i32⟩
  | 46 => ⟨S1048576, .i32⟩
  | 47 => ⟨S1048576, .i32⟩
  | 48 => ⟨S_, .i32⟩
  | 49 => ⟨S_, .i32⟩
  | 50 => ⟨S_, .i32⟩
  | 51 => ⟨S1048576, .i32⟩
  | 52 => ⟨S1048576, .i32⟩
  | 53 => ⟨S_, .i32⟩
  | 54 => ⟨S1048576, .i32⟩
  | 55 => ⟨S1048576, .i32⟩
  | 56 => ⟨S1048576, .f32⟩
  | 57 => ⟨S1048576, .f32⟩
  | 58 => ⟨S1048576, .f32⟩
  | 59 => ⟨S1048576, .f32⟩
  | 60 => ⟨S_, .i32⟩
  | 61 => ⟨S1048576, .i32⟩
  | 62 => ⟨S1048576, .i1⟩
  | 63 => ⟨S_, .i32⟩
  | 64 => ⟨S1048576, .i32⟩
  | 65 => ⟨S1048576, .i32⟩
  | 66 => ⟨S1048576, .i32⟩
  | 67 => ⟨S_, .i32⟩
  | 68 => ⟨S1048576, .i32⟩
  | 69 => ⟨S1048576, .i1⟩
  | 70 => ⟨S_, .i32⟩
  | 71 => ⟨S1048576, .i32⟩
  | 72 => ⟨S1048576, .i32⟩
  | 73 => ⟨S1048576, .i32⟩
  | 74 => ⟨S1048576x1, .i32⟩
  | 75 => ⟨S1048576x1, .i32⟩
  | 76 => ⟨S1048576x2, .i32⟩
  | 77 => ⟨S24x1048576, .f32⟩
  | 78 => ⟨S_, .f32⟩
  | 79 => ⟨S1048576, .f32⟩
  | 80 => ⟨S1048576, .f32⟩
  | 81 => ⟨S1x1048576, .f32⟩
  | 82 => ⟨S24x1048576, .f32⟩
  | 83 => ⟨S24x1048576, .f32⟩
  | 84 => ⟨S_, .f32⟩
  | 85 => ⟨S1048576, .f32⟩
  | 86 => ⟨S1048576, .f32⟩
  | 87 => ⟨S1x1048576, .f32⟩
  | 88 => ⟨S24x1048576, .f32⟩
  | 89 => ⟨S24x1048576, .f32⟩
  | 90 => ⟨S_, .i32⟩
  | 91 => ⟨S1048576, .i32⟩
  | 92 => ⟨S1048576, .i1⟩
  | 93 => ⟨S_, .i32⟩
  | 94 => ⟨S1048576, .i32⟩
  | 95 => ⟨S1048576, .i32⟩
  | 96 => ⟨S1048576, .i32⟩
  | 97 => ⟨S_, .i32⟩
  | 98 => ⟨S1048576, .i32⟩
  | 99 => ⟨S1048576, .i1⟩
  | 100 => ⟨S_, .i32⟩
  | 101 => ⟨S1048576, .i32⟩
  | 102 => ⟨S1048576, .i32⟩
  | 103 => ⟨S1048576, .i32⟩
  | 104 => ⟨S1048576x1, .i32⟩
  | 105 => ⟨S1048576x1, .i32⟩
  | 106 => ⟨S1048576x2, .i32⟩
  | 107 => ⟨S24x1048576, .f32⟩
  | 108 => ⟨S1x1048576, .f32⟩
  | 109 => ⟨S24x1048576, .f32⟩
  | 110 => ⟨S24x1048576, .f32⟩
  | 111 => ⟨S_, .f32⟩
  | 112 => ⟨S1048576, .f32⟩
  | 113 => ⟨S1048576, .f32⟩
  | 114 => ⟨S1x1048576, .f32⟩
  | 115 => ⟨S24x1048576, .f32⟩
  | 116 => ⟨S24x1048576, .f32⟩
  | 117 => ⟨S24x1048576, .f32⟩
  | 118 => ⟨S_, .i32⟩
  | 119 => ⟨S1048576, .i32⟩
  | 120 => ⟨S1048576, .i1⟩
  | 121 => ⟨S_, .i32⟩
  | 122 => ⟨S1048576, .i32⟩
  | 123 => ⟨S1048576, .i32⟩
  | 124 => ⟨S1048576, .i32⟩
  | 125 => ⟨S_, .i32⟩
  | 126 => ⟨S1048576, .i32⟩
  | 127 => ⟨S1048576, .i1⟩
  | _ => ⟨S1024x1024x3, .f32⟩

abbrev hbmTy0_3 (i : Nat) : BufTy := match i % 128 with
  | 0 => ⟨S_, .i32⟩
  | 1 => ⟨S1048576, .i32⟩
  | 2 => ⟨S1048576, .i32⟩
  | 3 => ⟨S1048576, .i32⟩
  | 4 => ⟨S1048576x1, .i32⟩
  | 5 => ⟨S1048576x1, .i32⟩
  | 6 => ⟨S1048576x2, .i32⟩
  | 7 => ⟨S24x1048576, .f32⟩
  | 8 => ⟨S_, .f32⟩
  | 9 => ⟨S1048576, .f32⟩
  | 10 => ⟨S1048576, .f32⟩
  | 11 => ⟨S1x1048576, .f32⟩
  | 12 => ⟨S24x1048576, .f32⟩
  | 13 => ⟨S24x1048576, .f32⟩
  | 14 => ⟨S1x1048576, .f32⟩
  | 15 => ⟨S24x1048576, .f32⟩
  | 16 => ⟨S24x1048576, .f32⟩
  | 17 => ⟨S24x1048576, .f32⟩
  | 18 => ⟨S_, .i32⟩
  | 19 => ⟨S1048576, .i32⟩
  | 20 => ⟨S1048576, .i1⟩
  | 21 => ⟨S_, .i32⟩
  | 22 => ⟨S1048576, .i32⟩
  | 23 => ⟨S1048576, .i32⟩
  | 24 => ⟨S1048576, .i32⟩
  | 25 => ⟨S_, .i32⟩
  | 26 => ⟨S1048576, .i32⟩
  | 27 => ⟨S1048576, .i1⟩
  | 28 => ⟨S_, .i32⟩
  | 29 => ⟨S1048576, .i32⟩
  | 30 => ⟨S1048576, .i32⟩
  | 31 => ⟨S1048576, .i32⟩
  | 32 => ⟨S1048576x1, .i32⟩
  | 33 => ⟨S1048576x1, .i32⟩
  | 34 => ⟨S1048576x2, .i32⟩
  | 35 => ⟨S24x1048576, .f32⟩
  | 36 => ⟨S1x1048576, .f32⟩
  | 37 => ⟨S24x1048576, .f32⟩
  | 38 => ⟨S24x1048576, .f32⟩
  | 39 => ⟨S1x1048576, .f32⟩
  | 40 => ⟨S24x1048576, .f32⟩
  | 41 => ⟨S24x1048576, .f32⟩
  | 42 => ⟨S24x1048576, .f32⟩
  | 43 => ⟨S_, .f32⟩
  | 44 => ⟨S1048576, .f32⟩
  | 45 => ⟨S1048576, .f32⟩
  | 46 => ⟨S_, .f32⟩
  | 47 => ⟨S1048576, .f32⟩
  | 48 => ⟨S1048576, .f32⟩
  | 49 => ⟨S_, .f32⟩
  | 50 => ⟨S1048576, .f32⟩
  | 51 => ⟨S1048576, .f32⟩
  | 52 => ⟨S1048576, .f32⟩
  | 53 => ⟨S1048576, .i32⟩
  | 54 => ⟨S_, .i32⟩
  | 55 => ⟨S_, .i32⟩
  | 56 => ⟨S_, .i32⟩
  | 57 => ⟨S1048576, .i32⟩
  | 58 => ⟨S1048576, .i32⟩
  | 59 => ⟨S_, .i32⟩
  | 60 => ⟨S1048576, .i32⟩
  | 61 => ⟨S1048576, .i32⟩
  | 62 => ⟨S_, .i32⟩
  | 63 => ⟨S1048576, .i32⟩
  | 64 => ⟨S1048576, .i32⟩
  | 65 => ⟨S_, .i32⟩
  | 66 => ⟨S_, .i32⟩
  | 67 => ⟨S_, .i32⟩
  | 68 => ⟨S1048576, .i32⟩
  | 69 => ⟨S1048576, .i32⟩
  | 70 => ⟨S_, .i32⟩
  | 71 => ⟨S1048576, .i32⟩
  | 72 => ⟨S1048576, .i32⟩
  | 73 => ⟨S1048576, .f32⟩
  | 74 => ⟨S1048576, .f32⟩
  | 75 => ⟨S_, .i32⟩
  | 76 => ⟨S1048576, .i32⟩
  | 77 => ⟨S1048576, .i1⟩
  | 78 => ⟨S_, .i32⟩
  | 79 => ⟨S1048576, .i32⟩
  | 80 => ⟨S1048576, .i32⟩
  | 81 => ⟨S1048576, .i32⟩
  | 82 => ⟨S1048576x1, .i32⟩
  | 83 => ⟨S24x1048576, .f32⟩
  | 84 => ⟨S_, .f32⟩
  | 85 => ⟨S1048576, .f32⟩
  | 86 => ⟨S1048576, .f32⟩
  | 87 => ⟨S1x1048576, .f32⟩
  | 88 => ⟨S24x1048576, .f32⟩
  | 89 => ⟨S24x1048576, .f32⟩
  | 90 => ⟨S_, .i32⟩
  | 91 => ⟨S1048576, .i32⟩
  | 92 => ⟨S1048576, .i1⟩
  | 93 => ⟨S_, .i32⟩
  | 94 => ⟨S1048576, .i32⟩
  | 95 => ⟨S1048576, .i32⟩
  | 96 => ⟨S1048576, .i32⟩
  | 97 => ⟨S1048576x1, .i32⟩
  | 98 => ⟨S24x1048576, .f32⟩
  | 99 => ⟨S1x1048576, .f32⟩
  | 100 => ⟨S24x1048576, .f32⟩
  | 101 => ⟨S24x1048576, .f32⟩
  | 102 => ⟨S24x1048576, .f32⟩
  | 103 => ⟨S24x1048576, .f32⟩
  | 104 => ⟨S_, .f32⟩
  | 105 => ⟨S1048576, .f32⟩
  | 106 => ⟨S_, .f32⟩
  | 107 => ⟨S1048576, .f32⟩
  | 108 => ⟨S1048576, .f32⟩
  | 109 => ⟨S_, .f32⟩
  | 110 => ⟨S1048576, .f32⟩
  | 111 => ⟨S1048576, .f32⟩
  | 112 => ⟨S_, .f32⟩
  | 113 => ⟨S1048576, .f32⟩
  | 114 => ⟨S1048576, .f32⟩
  | 115 => ⟨S_, .f32⟩
  | 116 => ⟨S1048576, .f32⟩
  | 117 => ⟨S1048576, .f32⟩
  | 118 => ⟨S_, .f32⟩
  | 119 => ⟨S1048576, .f32⟩
  | 120 => ⟨S1048576, .f32⟩
  | 121 => ⟨S_, .f32⟩
  | 122 => ⟨S1048576, .f32⟩
  | 123 => ⟨S1048576, .f32⟩
  | 124 => ⟨S1048576, .f32⟩
  | 125 => ⟨S1048576, .i32⟩
  | 126 => ⟨S_, .i32⟩
  | 127 => ⟨S_, .i32⟩
  | _ => ⟨S1024x1024x3, .f32⟩

abbrev hbmTy0_4 (i : Nat) : BufTy := match i % 128 with
  | 0 => ⟨S_, .i32⟩
  | 1 => ⟨S1048576, .i32⟩
  | 2 => ⟨S1048576, .i32⟩
  | 3 => ⟨S_, .i32⟩
  | 4 => ⟨S1048576, .i32⟩
  | 5 => ⟨S1048576, .i32⟩
  | 6 => ⟨S1048576, .f32⟩
  | 7 => ⟨S1048576, .i32⟩
  | 8 => ⟨S_, .i32⟩
  | 9 => ⟨S_, .i32⟩
  | 10 => ⟨S_, .i32⟩
  | 11 => ⟨S1048576, .i32⟩
  | 12 => ⟨S1048576, .i32⟩
  | 13 => ⟨S_, .i32⟩
  | 14 => ⟨S1048576, .i32⟩
  | 15 => ⟨S1048576, .i32⟩
  | 16 => ⟨S_, .i32⟩
  | 17 => ⟨S1048576, .i32⟩
  | 18 => ⟨S1048576, .i32⟩
  | 19 => ⟨S_, .i32⟩
  | 20 => ⟨S_, .i32⟩
  | 21 => ⟨S_, .i32⟩
  | 22 => ⟨S1048576, .i32⟩
  | 23 => ⟨S1048576, .i32⟩
  | 24 => ⟨S_, .i32⟩
  | 25 => ⟨S1048576, .i32⟩
  | 26 => ⟨S1048576, .i32⟩
  | 27 => ⟨S_, .i32⟩
  | 28 => ⟨S1048576, .i32⟩
  | 29 => ⟨S1048576, .i32⟩
  | 30 => ⟨S_, .i32⟩
  | 31 => ⟨S_, .i32⟩
  | 32 => ⟨S_, .i32⟩
  | 33 => ⟨S1048576, .i32⟩
  | 34 => ⟨S1048576, .i32⟩
  | 35 => ⟨S_, .i32⟩
  | 36 => ⟨S1048576, .i32⟩
  | 37 => ⟨S1048576, .i32⟩
  | 38 => ⟨S1048576, .f32⟩
  | 39 => ⟨S1048576, .f32⟩
  | 40 => ⟨S1048576, .f32⟩
  | 41 => ⟨S1048576, .f32⟩
  | 42 => ⟨S_, .i32⟩
  | 43 => ⟨S1048576, .i32⟩
  | 44 => ⟨S1048576, .i1⟩
  | 45 => ⟨S_, .i32⟩
  | 46 => ⟨S1048576, .i32⟩
  | 47 => ⟨S1048576, .i32⟩
  | 48 => ⟨S1048576, .i32⟩
  | 49 => ⟨S_, .i32⟩
  | 50 => ⟨S1048576, .i32⟩
  | 51 => ⟨S1048576, .i1⟩
  | 52 => ⟨S_, .i32⟩
  | 53 => ⟨S1048576, .i32⟩
  | 54 => ⟨S1048576, .i32⟩
  | 55 => ⟨S1048576, .i32⟩
  | 56 => ⟨S1048576x1, .i32⟩
  | 57 => ⟨S1048576x1, .i32⟩
  | 58 => ⟨S1048576x2, .i32⟩
  | 59 => ⟨S24x1048576, .f32⟩
  | 60 => ⟨S_, .f32⟩
  | 61 => ⟨S1048576, .f32⟩
  | 62 => ⟨S1048576, .f32⟩
  | 63 => ⟨S1x1048576, .f32⟩
  | 64 => ⟨S24x1048576, .f32⟩
  | 65 => ⟨S24x1048576, .f32⟩
  | 66 => ⟨S_, .f32⟩
  | 67 => ⟨S1048576, .f32⟩
  | 68 => ⟨S1048576, .f32⟩
  | 69 => ⟨S1x1048576, .f32⟩
  | 70 => ⟨S24x1048576, .f32⟩
  | 71 => ⟨S24x1048576, .f32⟩
  | 72 => ⟨S_, .i32⟩
  | 73 => ⟨S1048576, .i32⟩
  | 74 => ⟨S1048576, .i1⟩
  | 75 => ⟨S_, .i32⟩
  | 76 => ⟨S1048576, .i32⟩
  | 77 => ⟨S1048576, .i32⟩
  | 78 => ⟨S1048576, .i32⟩
  | 79 => ⟨S_, .i32⟩
  | 80 => ⟨S1048576, .i32⟩
  | 81 => ⟨S1048576, .i1⟩
  | 82 => ⟨S_, .i32⟩
  | 83 => ⟨S1048576, .i32⟩
  | 84 => ⟨S1048576, .i32⟩
  | 85 => ⟨S1048576, .i32⟩
  | 86 => ⟨S1048576x1, .i32⟩
  | 87 => ⟨S1048576x1, .i32⟩
  | 88 => ⟨S1048576x2, .i32⟩
  | 89 => ⟨S24x1048576, .f32⟩
  | 90 => ⟨S1x1048576, .f32⟩
  | 91 => ⟨S24x1048576, .f32⟩
  | 92 => ⟨S24x1048576, .f32⟩
  | 93 => ⟨S_, .f32⟩
  | 94 => ⟨S1048576, .f32⟩
  | 95 => ⟨S1048576, .f32⟩
  | 96 => ⟨S1x1048576, .f32⟩
  | 97 => ⟨S24x1048576, .f32⟩
  | 98 => ⟨S24x1048576, .f32⟩
  | 99 => ⟨S24x1048576, .f32⟩
  | 100 => ⟨S_, .i32⟩
  | 101 => ⟨S1048576, .i32⟩
  | 102 => ⟨S1048576, .i1⟩
  | 103 => ⟨S_, .i32⟩
  | 104 => ⟨S1048576, .i32⟩
  | 105 => ⟨S1048576, .i32⟩
  | 106 => ⟨S1048576, .i32⟩
  | 107 => ⟨S_, .i32⟩
  | 108 => ⟨S1048576, .i32⟩
  | 109 => ⟨S1048576, .i1⟩
  | 110 => ⟨S_, .i32⟩
  | 111 => ⟨S1048576, .i32⟩
  | 112 => ⟨S1048576, .i32⟩
  | 113 => ⟨S1048576, .i32⟩
  | 114 => ⟨S1048576x1, .i32⟩
  | 115 => ⟨S1048576x1, .i32⟩
  | 116 => ⟨S1048576x2, .i32⟩
  | 117 => ⟨S24x1048576, .f32⟩
  | 118 => ⟨S_, .f32⟩
  | 119 => ⟨S1048576, .f32⟩
  | 120 => ⟨S1048576, .f32⟩
  | 121 => ⟨S1x1048576, .f32⟩
  | 122 => ⟨S24x1048576, .f32⟩
  | 123 => ⟨S24x1048576, .f32⟩
  | 124 => ⟨S1x1048576, .f32⟩
  | 125 => ⟨S24x1048576, .f32⟩
  | 126 => ⟨S24x1048576, .f32⟩
  | 127 => ⟨S24x1048576, .f32⟩
  | _ => ⟨S1024x1024x3, .f32⟩

abbrev hbmTy0_5 (i : Nat) : BufTy := match i % 128 with
  | 0 => ⟨S_, .i32⟩
  | 1 => ⟨S1048576, .i32⟩
  | 2 => ⟨S1048576, .i1⟩
  | 3 => ⟨S_, .i32⟩
  | 4 => ⟨S1048576, .i32⟩
  | 5 => ⟨S1048576, .i32⟩
  | 6 => ⟨S1048576, .i32⟩
  | 7 => ⟨S_, .i32⟩
  | 8 => ⟨S1048576, .i32⟩
  | 9 => ⟨S1048576, .i1⟩
  | 10 => ⟨S_, .i32⟩
  | 11 => ⟨S1048576, .i32⟩
  | 12 => ⟨S1048576, .i32⟩
  | 13 => ⟨S1048576, .i32⟩
  | 14 => ⟨S1048576x1, .i32⟩
  | 15 => ⟨S1048576x1, .i32⟩
  | 16 => ⟨S1048576x2, .i32⟩
  | 17 => ⟨S24x1048576, .f32⟩
  | 18 => ⟨S1x1048576, .f32⟩
  | 19 => ⟨S24x1048576, .f32⟩
  | 20 => ⟨S24x1048576, .f32⟩
  | 21 => ⟨S1x1048576, .f32⟩
  | 22 => ⟨S24x1048576, .f32⟩
  | 23 => ⟨S24x1048576, .f32⟩
  | 24 => ⟨S24x1048576, .f32⟩
  | 25 => ⟨S_, .f32⟩
  | 26 => ⟨S1048576, .f32⟩
  | 27 => ⟨S1048576, .f32⟩
  | 28 => ⟨S_, .f32⟩
  | 29 => ⟨S1048576, .f32⟩
  | 30 => ⟨S1048576, .f32⟩
  | 31 => ⟨S_, .f32⟩
  | 32 => ⟨S1048576, .f32⟩
  | 33 => ⟨S1048576, .f32⟩
  | 34 => ⟨S1048576, .f32⟩
  | 35 => ⟨S1048576, .i32⟩
  | 36 => ⟨S_, .i32⟩
  | 37 => ⟨S_, .i32⟩
  | 38 => ⟨S_, .i32⟩
  | 39 => ⟨S1048576, .i32⟩
  | 40 => ⟨S1048576, .i32⟩
  | 41 => ⟨S_, .i32⟩
  | 42 => ⟨S1048576, .i32⟩
  | 43 => ⟨S1048576, .i32⟩
  | 44 => ⟨S_, .i32⟩
  | 45 => ⟨S1048576, .i32⟩
  | 46 => ⟨S1048576, .i32⟩
  | 47 => ⟨S_, .i32⟩
  | 48 => ⟨S_, .i32⟩
  | 49 => ⟨S_, .i32⟩
  | 50 => ⟨S1048576, .i32⟩
  | 51 => ⟨S1048576, .i32⟩
  | 52 => ⟨S_, .i32⟩
  | 53 => ⟨S1048576, .i32⟩
  | 54 => ⟨S1048576, .i32⟩
  | 55 => ⟨S1048576, .f32⟩
  | 56 => ⟨S1048576, .f32⟩
  | 57 => ⟨S_, .i32⟩
  | 58 => ⟨S1048576, .i32⟩
  | 59 => ⟨S1048576, .i1⟩
  | 60 => ⟨S_, .i32⟩
  | 61 => ⟨S1048576, .i32⟩
  | 62 => ⟨S1048576, .i32⟩
  | 63 => ⟨S1048576, .i32⟩
  | 64 => ⟨S1048576x1, .i32⟩
  | 65 => ⟨S24x1048576, .f32⟩
  | 66 => ⟨S_, .f32⟩
  | 67 => ⟨S1048576, .f32⟩
  | 68 => ⟨S1048576, .f32⟩
  | 69 => ⟨S1x1048576, .f32⟩
  | 70 => ⟨S24x1048576, .f32⟩
  | 71 => ⟨S24x1048576, .f32⟩
  | 72 => ⟨S_, .i32⟩
  | 73 => ⟨S1048576, .i32⟩
  | 74 => ⟨S1048576, .i1⟩
  | 75 => ⟨S_, .i32⟩
  | 76 => ⟨S1048576, .i32⟩
  | 77 => ⟨S1048576, .i32⟩
  | 78 => ⟨S1048576, .i32⟩
  | 79 => ⟨S1048576x1, .i32⟩
  | 80 => ⟨S24x1048576, .f32⟩
  | 81 => ⟨S1x1048576, .f32⟩
  | 82 => ⟨S24x1048576, .f32⟩
  | 83 => ⟨S24x1048576, .f32⟩
  | 84 => ⟨S24x1048576, .f32⟩
  | 85 => ⟨S24x1048576, .f32⟩
  | 86 => ⟨S_, .f32⟩
  | 87 => ⟨S1048576, .f32⟩
  | 88 => ⟨S1048576, .f32⟩
  | 89 => ⟨S1048576, .f32⟩
  | 90 => ⟨S1024x1024, .f32⟩
  | _ => ⟨S1024x1024x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1024x1024x3, .f32⟩

abbrev bufTy : (tb : Table) → Fin (tcTables nBuf tb) → BufTy
  | .hbm, ⟨i, _⟩ => hbmTy i
  | _, _ => ⟨S1024x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_c_5 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_6 : Ref sig .tc := ⟨.hbm, 44, rfl⟩
abbrev main_c_7 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v24 : Ref sig .tc := ⟨.hbm, 51, rfl⟩
abbrev main_c_8 : Ref sig .tc := ⟨.hbm, 52, rfl⟩
abbrev main_v25 : Ref sig .tc := ⟨.hbm, 53, rfl⟩
abbrev main_v26 : Ref sig .tc := ⟨.hbm, 54, rfl⟩
abbrev main_c_9 : Ref sig .tc := ⟨.hbm, 55, rfl⟩
abbrev main_c_10 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v27 : Ref sig .tc := ⟨.hbm, 62, rfl⟩
abbrev main_c_11 : Ref sig .tc := ⟨.hbm, 63, rfl⟩
abbrev main_v28 : Ref sig .tc := ⟨.hbm, 64, rfl⟩
abbrev main_v29 : Ref sig .tc := ⟨.hbm, 65, rfl⟩
abbrev main_c_12 : Ref sig .tc := ⟨.hbm, 66, rfl⟩
abbrev main_c_13 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_call3_v3 : Ref sig .tc := ⟨.hbm, 71, rfl⟩
abbrev main_call3_v4 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_c_14 : Ref sig .tc := ⟨.hbm, 78, rfl⟩
abbrev main_v35 : Ref sig .tc := ⟨.hbm, 79, rfl⟩
abbrev main_v36 : Ref sig .tc := ⟨.hbm, 80, rfl⟩
abbrev main_c_15 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_c_16 : Ref sig .tc := ⟨.hbm, 85, rfl⟩
abbrev main_v40 : Ref sig .tc := ⟨.hbm, 86, rfl⟩
abbrev main_v41 : Ref sig .tc := ⟨.hbm, 87, rfl⟩
abbrev main_c_17 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_cst_18 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_19 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_c_20 : Ref sig .tc := ⟨.hbm, 108, rfl⟩
abbrev main_v59 : Ref sig .tc := ⟨.hbm, 109, rfl⟩
abbrev main_v60 : Ref sig .tc := ⟨.hbm, 110, rfl⟩
abbrev main_c_21 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_c_22 : Ref sig .tc := ⟨.hbm, 115, rfl⟩
abbrev main_v64 : Ref sig .tc := ⟨.hbm, 116, rfl⟩
abbrev main_v65 : Ref sig .tc := ⟨.hbm, 117, rfl⟩
abbrev main_c_23 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_cst_24 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_c_25 : Ref sig .tc := ⟨.hbm, 136, rfl⟩
abbrev main_v82 : Ref sig .tc := ⟨.hbm, 137, rfl⟩
abbrev main_v83 : Ref sig .tc := ⟨.hbm, 138, rfl⟩
abbrev main_c_26 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_c_27 : Ref sig .tc := ⟨.hbm, 143, rfl⟩
abbrev main_v87 : Ref sig .tc := ⟨.hbm, 144, rfl⟩
abbrev main_v88 : Ref sig .tc := ⟨.hbm, 145, rfl⟩
abbrev main_c_28 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_cst_29 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_c_30 : Ref sig .tc := ⟨.hbm, 164, rfl⟩
abbrev main_v105 : Ref sig .tc := ⟨.hbm, 165, rfl⟩
abbrev main_v106 : Ref sig .tc := ⟨.hbm, 166, rfl⟩
abbrev main_c_31 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_c_32 : Ref sig .tc := ⟨.hbm, 171, rfl⟩
abbrev main_v110 : Ref sig .tc := ⟨.hbm, 172, rfl⟩
abbrev main_v111 : Ref sig .tc := ⟨.hbm, 173, rfl⟩
abbrev main_c_33 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_cst_34 : Ref sig .tc := ⟨.hbm, 189, rfl⟩
abbrev main_v126 : Ref sig .tc := ⟨.hbm, 190, rfl⟩
abbrev main_v127 : Ref sig .tc := ⟨.hbm, 191, rfl⟩
abbrev main_cst_35 : Ref sig .tc := ⟨.hbm, 192, rfl⟩
abbrev main_v128 : Ref sig .tc := ⟨.hbm, 193, rfl⟩
abbrev main_v129 : Ref sig .tc := ⟨.hbm, 194, rfl⟩
abbrev main_cst_36 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_v133 : Ref sig .tc := ⟨.hbm, 199, rfl⟩
abbrev main_c_37 : Ref sig .tc := ⟨.hbm, 200, rfl⟩
abbrev main_c_38 : Ref sig .tc := ⟨.hbm, 201, rfl⟩
abbrev main_call4_v0 : Ref sig .tc := ⟨.hbm, 202, rfl⟩
abbrev main_call4_v1 : Ref sig .tc := ⟨.hbm, 203, rfl⟩
abbrev main_call4_v2 : Ref sig .tc := ⟨.hbm, 204, rfl⟩
abbrev main_call4_v3 : Ref sig .tc := ⟨.hbm, 205, rfl⟩
abbrev main_call4_v4 : Ref sig .tc := ⟨.hbm, 206, rfl⟩
abbrev main_v134 : Ref sig .tc := ⟨.hbm, 207, rfl⟩
abbrev main_c_39 : Ref sig .tc := ⟨.hbm, 208, rfl⟩
abbrev main_v135 : Ref sig .tc := ⟨.hbm, 209, rfl⟩
abbrev main_v136 : Ref sig .tc := ⟨.hbm, 210, rfl⟩
abbrev main_c_40 : Ref sig .tc := ⟨.hbm, 211, rfl⟩
abbrev main_c_41 : Ref sig .tc := ⟨.hbm, 212, rfl⟩
abbrev main_call5_v0 : Ref sig .tc := ⟨.hbm, 213, rfl⟩
abbrev main_call5_v1 : Ref sig .tc := ⟨.hbm, 214, rfl⟩
abbrev main_call5_v2 : Ref sig .tc := ⟨.hbm, 215, rfl⟩
abbrev main_call5_v3 : Ref sig .tc := ⟨.hbm, 216, rfl⟩
abbrev main_call5_v4 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_c_42 : Ref sig .tc := ⟨.hbm, 221, rfl⟩
abbrev main_v140 : Ref sig .tc := ⟨.hbm, 222, rfl⟩
abbrev main_v141 : Ref sig .tc := ⟨.hbm, 223, rfl⟩
abbrev main_c_43 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_cst_44 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_c_45 : Ref sig .tc := ⟨.hbm, 236, rfl⟩
abbrev main_v152 : Ref sig .tc := ⟨.hbm, 237, rfl⟩
abbrev main_v153 : Ref sig .tc := ⟨.hbm, 238, rfl⟩
abbrev main_c_46 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_cst_47 : Ref sig .tc := ⟨.hbm, 250, rfl⟩
abbrev main_v164 : Ref sig .tc := ⟨.hbm, 251, rfl⟩
abbrev main_cst_48 : Ref sig .tc := ⟨.hbm, 252, rfl⟩
abbrev main_v165 : Ref sig .tc := ⟨.hbm, 253, rfl⟩
abbrev main_v166 : Ref sig .tc := ⟨.hbm, 254, rfl⟩
abbrev main_cst_49 : Ref sig .tc := ⟨.hbm, 255, rfl⟩
abbrev main_v167 : Ref sig .tc := ⟨.hbm, 256, rfl⟩
abbrev main_v168 : Ref sig .tc := ⟨.hbm, 257, rfl⟩
abbrev main_cst_50 : Ref sig .tc := ⟨.hbm, 258, rfl⟩
abbrev main_v169 : Ref sig .tc := ⟨.hbm, 259, rfl⟩
abbrev main_v170 : Ref sig .tc := ⟨.hbm, 260, rfl⟩
abbrev main_cst_51 : Ref sig .tc := ⟨.hbm, 261, rfl⟩
abbrev main_v171 : Ref sig .tc := ⟨.hbm, 262, rfl⟩
abbrev main_v172 : Ref sig .tc := ⟨.hbm, 263, rfl⟩
abbrev main_cst_52 : Ref sig .tc := ⟨.hbm, 264, rfl⟩
abbrev main_v173 : Ref sig .tc := ⟨.hbm, 265, rfl⟩
abbrev main_v174 : Ref sig .tc := ⟨.hbm, 266, rfl⟩
abbrev main_cst_53 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_c_54 : Ref sig .tc := ⟨.hbm, 272, rfl⟩
abbrev main_c_55 : Ref sig .tc := ⟨.hbm, 273, rfl⟩
abbrev main_call6_v0 : Ref sig .tc := ⟨.hbm, 274, rfl⟩
abbrev main_call6_v1 : Ref sig .tc := ⟨.hbm, 275, rfl⟩
abbrev main_call6_v2 : Ref sig .tc := ⟨.hbm, 276, rfl⟩
abbrev main_call6_v3 : Ref sig .tc := ⟨.hbm, 277, rfl⟩
abbrev main_call6_v4 : Ref sig .tc := ⟨.hbm, 278, rfl⟩
abbrev main_v179 : Ref sig .tc := ⟨.hbm, 279, rfl⟩
abbrev main_v180 : Ref sig .tc := ⟨.hbm, 280, rfl⟩
abbrev main_v181 : Ref sig .tc := ⟨.hbm, 281, rfl⟩
abbrev main_c_56 : Ref sig .tc := ⟨.hbm, 282, rfl⟩
abbrev main_c_57 : Ref sig .tc := ⟨.hbm, 283, rfl⟩
abbrev main_call7_v0 : Ref sig .tc := ⟨.hbm, 284, rfl⟩
abbrev main_call7_v1 : Ref sig .tc := ⟨.hbm, 285, rfl⟩
abbrev main_call7_v2 : Ref sig .tc := ⟨.hbm, 286, rfl⟩
abbrev main_call7_v3 : Ref sig .tc := ⟨.hbm, 287, rfl⟩
abbrev main_call7_v4 : Ref sig .tc := ⟨.hbm, 288, rfl⟩
abbrev main_v182 : Ref sig .tc := ⟨.hbm, 289, rfl⟩
abbrev main_c_58 : Ref sig .tc := ⟨.hbm, 290, rfl⟩
abbrev main_v183 : Ref sig .tc := ⟨.hbm, 291, rfl⟩
abbrev main_v184 : Ref sig .tc := ⟨.hbm, 292, rfl⟩
abbrev main_c_59 : Ref sig .tc := ⟨.hbm, 293, rfl⟩
abbrev main_c_60 : Ref sig .tc := ⟨.hbm, 294, rfl⟩
abbrev main_call8_v0 : Ref sig .tc := ⟨.hbm, 295, rfl⟩
abbrev main_call8_v1 : Ref sig .tc := ⟨.hbm, 296, rfl⟩
abbrev main_call8_v2 : Ref sig .tc := ⟨.hbm, 297, rfl⟩
abbrev main_call8_v3 : Ref sig .tc := ⟨.hbm, 298, rfl⟩
abbrev main_call8_v4 : Ref sig .tc := ⟨.hbm, 299, rfl⟩
abbrev main_v185 : Ref sig .tc := ⟨.hbm, 300, rfl⟩
abbrev main_c_61 : Ref sig .tc := ⟨.hbm, 301, rfl⟩
abbrev main_v186 : Ref sig .tc := ⟨.hbm, 302, rfl⟩
abbrev main_v187 : Ref sig .tc := ⟨.hbm, 303, rfl⟩
abbrev main_c_62 : Ref sig .tc := ⟨.hbm, 304, rfl⟩
abbrev main_c_63 : Ref sig .tc := ⟨.hbm, 305, rfl⟩
abbrev main_call9_v0 : Ref sig .tc := ⟨.hbm, 306, rfl⟩
abbrev main_call9_v1 : Ref sig .tc := ⟨.hbm, 307, rfl⟩
abbrev main_call9_v2 : Ref sig .tc := ⟨.hbm, 308, rfl⟩
abbrev main_call9_v3 : Ref sig .tc := ⟨.hbm, 309, rfl⟩
abbrev main_call9_v4 : Ref sig .tc := ⟨.hbm, 310, rfl⟩
abbrev main_v188 : Ref sig .tc := ⟨.hbm, 311, rfl⟩
abbrev main_v189 : Ref sig .tc := ⟨.hbm, 312, rfl⟩
abbrev main_v190 : Ref sig .tc := ⟨.hbm, 313, rfl⟩
abbrev main_v191 : Ref sig .tc := ⟨.hbm, 314, rfl⟩
abbrev main_v192 : Ref sig .tc := ⟨.hbm, 315, rfl⟩
abbrev main_c_64 : Ref sig .tc := ⟨.hbm, 316, rfl⟩
abbrev main_v193 : Ref sig .tc := ⟨.hbm, 317, rfl⟩
abbrev main_v194 : Ref sig .tc := ⟨.hbm, 318, rfl⟩
abbrev main_c_65 : Ref sig .tc := ⟨.hbm, 319, rfl⟩
abbrev main_v195 : Ref sig .tc := ⟨.hbm, 320, rfl⟩
abbrev main_v196 : Ref sig .tc := ⟨.hbm, 321, rfl⟩
abbrev main_v197 : Ref sig .tc := ⟨.hbm, 322, rfl⟩
abbrev main_c_66 : Ref sig .tc := ⟨.hbm, 323, rfl⟩
abbrev main_v198 : Ref sig .tc := ⟨.hbm, 324, rfl⟩
abbrev main_v199 : Ref sig .tc := ⟨.hbm, 325, rfl⟩
abbrev main_c_67 : Ref sig .tc := ⟨.hbm, 326, rfl⟩
abbrev main_v200 : Ref sig .tc := ⟨.hbm, 327, rfl⟩
abbrev main_v201 : Ref sig .tc := ⟨.hbm, 328, rfl⟩
abbrev main_v202 : Ref sig .tc := ⟨.hbm, 329, rfl⟩
abbrev main_v203 : Ref sig .tc := ⟨.hbm, 330, rfl⟩
abbrev main_v204 : Ref sig .tc := ⟨.hbm, 331, rfl⟩
abbrev main_v205 : Ref sig .tc := ⟨.hbm, 332, rfl⟩
abbrev main_v206 : Ref sig .tc := ⟨.hbm, 333, rfl⟩
abbrev main_cst_68 : Ref sig .tc := ⟨.hbm, 334, rfl⟩
abbrev main_v207 : Ref sig .tc := ⟨.hbm, 335, rfl⟩
abbrev main_v208 : Ref sig .tc := ⟨.hbm, 336, rfl⟩
abbrev main_v209 : Ref sig .tc := ⟨.hbm, 337, rfl⟩
abbrev main_v210 : Ref sig .tc := ⟨.hbm, 338, rfl⟩
abbrev main_v211 : Ref sig .tc := ⟨.hbm, 339, rfl⟩
abbrev main_cst_69 : Ref sig .tc := ⟨.hbm, 340, rfl⟩
abbrev main_v212 : Ref sig .tc := ⟨.hbm, 341, rfl⟩
abbrev main_v213 : Ref sig .tc := ⟨.hbm, 342, rfl⟩
abbrev main_v214 : Ref sig .tc := ⟨.hbm, 343, rfl⟩
abbrev main_v215 : Ref sig .tc := ⟨.hbm, 344, rfl⟩
abbrev main_v216 : Ref sig .tc := ⟨.hbm, 345, rfl⟩
abbrev main_c_70 : Ref sig .tc := ⟨.hbm, 346, rfl⟩
abbrev main_v217 : Ref sig .tc := ⟨.hbm, 347, rfl⟩
abbrev main_v218 : Ref sig .tc := ⟨.hbm, 348, rfl⟩
abbrev main_c_71 : Ref sig .tc := ⟨.hbm, 349, rfl⟩
abbrev main_v219 : Ref sig .tc := ⟨.hbm, 350, rfl⟩
abbrev main_v220 : Ref sig .tc := ⟨.hbm, 351, rfl⟩
abbrev main_v221 : Ref sig .tc := ⟨.hbm, 352, rfl⟩
abbrev main_c_72 : Ref sig .tc := ⟨.hbm, 353, rfl⟩
abbrev main_v222 : Ref sig .tc := ⟨.hbm, 354, rfl⟩
abbrev main_v223 : Ref sig .tc := ⟨.hbm, 355, rfl⟩
abbrev main_c_73 : Ref sig .tc := ⟨.hbm, 356, rfl⟩
abbrev main_v224 : Ref sig .tc := ⟨.hbm, 357, rfl⟩
abbrev main_v225 : Ref sig .tc := ⟨.hbm, 358, rfl⟩
abbrev main_v226 : Ref sig .tc := ⟨.hbm, 359, rfl⟩
abbrev main_v227 : Ref sig .tc := ⟨.hbm, 360, rfl⟩
abbrev main_v228 : Ref sig .tc := ⟨.hbm, 361, rfl⟩
abbrev main_v229 : Ref sig .tc := ⟨.hbm, 362, rfl⟩
abbrev main_v230 : Ref sig .tc := ⟨.hbm, 363, rfl⟩
abbrev main_v231 : Ref sig .tc := ⟨.hbm, 364, rfl⟩
abbrev main_v232 : Ref sig .tc := ⟨.hbm, 365, rfl⟩
abbrev main_v233 : Ref sig .tc := ⟨.hbm, 366, rfl⟩
abbrev main_cst_74 : Ref sig .tc := ⟨.hbm, 367, rfl⟩
abbrev main_v234 : Ref sig .tc := ⟨.hbm, 368, rfl⟩
abbrev main_v235 : Ref sig .tc := ⟨.hbm, 369, rfl⟩
abbrev main_v236 : Ref sig .tc := ⟨.hbm, 370, rfl⟩
abbrev main_v237 : Ref sig .tc := ⟨.hbm, 371, rfl⟩
abbrev main_v238 : Ref sig .tc := ⟨.hbm, 372, rfl⟩
abbrev main_v239 : Ref sig .tc := ⟨.hbm, 373, rfl⟩
abbrev main_c_75 : Ref sig .tc := ⟨.hbm, 374, rfl⟩
abbrev main_v240 : Ref sig .tc := ⟨.hbm, 375, rfl⟩
abbrev main_v241 : Ref sig .tc := ⟨.hbm, 376, rfl⟩
abbrev main_c_76 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_c_77 : Ref sig .tc := ⟨.hbm, 381, rfl⟩
abbrev main_v245 : Ref sig .tc := ⟨.hbm, 382, rfl⟩
abbrev main_v246 : Ref sig .tc := ⟨.hbm, 383, rfl⟩
abbrev main_c_78 : Ref sig .tc := ⟨.hbm, 384, rfl⟩
abbrev main_v247 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_v251 : Ref sig .tc := ⟨.hbm, 389, rfl⟩
abbrev main_v252 : Ref sig .tc := ⟨.hbm, 390, rfl⟩
abbrev main_v253 : Ref sig .tc := ⟨.hbm, 391, rfl⟩
abbrev main_cst_79 : Ref sig .tc := ⟨.hbm, 392, rfl⟩
abbrev main_v254 : Ref sig .tc := ⟨.hbm, 393, rfl⟩
abbrev main_v255 : Ref sig .tc := ⟨.hbm, 394, rfl⟩
abbrev main_v256 : Ref sig .tc := ⟨.hbm, 395, rfl⟩
abbrev main_v257 : Ref sig .tc := ⟨.hbm, 396, rfl⟩
abbrev main_v258 : Ref sig .tc := ⟨.hbm, 397, rfl⟩
abbrev main_v259 : Ref sig .tc := ⟨.hbm, 398, rfl⟩
abbrev main_v260 : Ref sig .tc := ⟨.hbm, 399, rfl⟩
abbrev main_v261 : Ref sig .tc := ⟨.hbm, 400, rfl⟩
abbrev main_v262 : Ref sig .tc := ⟨.hbm, 401, rfl⟩
abbrev main_c_80 : Ref sig .tc := ⟨.hbm, 402, rfl⟩
abbrev main_v263 : Ref sig .tc := ⟨.hbm, 403, rfl⟩
abbrev main_v264 : Ref sig .tc := ⟨.hbm, 404, rfl⟩
abbrev main_c_81 : Ref sig .tc := ⟨.hbm, 405, rfl⟩
abbrev main_v265 : Ref sig .tc := ⟨.hbm, 406, rfl⟩
abbrev main_v266 : Ref sig .tc := ⟨.hbm, 407, rfl⟩
abbrev main_v267 : Ref sig .tc := ⟨.hbm, 408, rfl⟩
abbrev main_c_82 : Ref sig .tc := ⟨.hbm, 409, rfl⟩
abbrev main_v268 : Ref sig .tc := ⟨.hbm, 410, rfl⟩
abbrev main_v269 : Ref sig .tc := ⟨.hbm, 411, rfl⟩
abbrev main_c_83 : Ref sig .tc := ⟨.hbm, 412, rfl⟩
abbrev main_v270 : Ref sig .tc := ⟨.hbm, 413, rfl⟩
abbrev main_v271 : Ref sig .tc := ⟨.hbm, 414, rfl⟩
abbrev main_v272 : Ref sig .tc := ⟨.hbm, 415, rfl⟩
abbrev main_v273 : Ref sig .tc := ⟨.hbm, 416, rfl⟩
abbrev main_v274 : Ref sig .tc := ⟨.hbm, 417, rfl⟩
abbrev main_v275 : Ref sig .tc := ⟨.hbm, 418, rfl⟩
abbrev main_v276 : Ref sig .tc := ⟨.hbm, 419, rfl⟩
abbrev main_v277 : Ref sig .tc := ⟨.hbm, 420, rfl⟩
abbrev main_v278 : Ref sig .tc := ⟨.hbm, 421, rfl⟩
abbrev main_v279 : Ref sig .tc := ⟨.hbm, 422, rfl⟩
abbrev main_v280 : Ref sig .tc := ⟨.hbm, 423, rfl⟩
abbrev main_v281 : Ref sig .tc := ⟨.hbm, 424, rfl⟩
abbrev main_v282 : Ref sig .tc := ⟨.hbm, 425, rfl⟩
abbrev main_v283 : Ref sig .tc := ⟨.hbm, 426, rfl⟩
abbrev main_cst_84 : Ref sig .tc := ⟨.hbm, 427, rfl⟩
abbrev main_v284 : Ref sig .tc := ⟨.hbm, 428, rfl⟩
abbrev main_v285 : Ref sig .tc := ⟨.hbm, 429, rfl⟩
abbrev main_cst_85 : Ref sig .tc := ⟨.hbm, 430, rfl⟩
abbrev main_v286 : Ref sig .tc := ⟨.hbm, 431, rfl⟩
abbrev main_v287 : Ref sig .tc := ⟨.hbm, 432, rfl⟩
abbrev main_cst_86 : Ref sig .tc := ⟨.hbm, 433, rfl⟩
abbrev main_v288 : Ref sig .tc := ⟨.hbm, 434, rfl⟩
abbrev main_v289 : Ref sig .tc := ⟨.hbm, 435, rfl⟩
abbrev main_v290 : Ref sig .tc := ⟨.hbm, 436, rfl⟩
abbrev main_v291 : Ref sig .tc := ⟨.hbm, 437, rfl⟩
abbrev main_c_87 : Ref sig .tc := ⟨.hbm, 438, rfl⟩
abbrev main_c_88 : Ref sig .tc := ⟨.hbm, 439, rfl⟩
abbrev main_call10_v0 : Ref sig .tc := ⟨.hbm, 440, rfl⟩
abbrev main_call10_v1 : Ref sig .tc := ⟨.hbm, 441, rfl⟩
abbrev main_call10_v2 : Ref sig .tc := ⟨.hbm, 442, rfl⟩
abbrev main_call10_v3 : Ref sig .tc := ⟨.hbm, 443, rfl⟩
abbrev main_call10_v4 : Ref sig .tc := ⟨.hbm, 444, rfl⟩
abbrev main_v292 : Ref sig .tc := ⟨.hbm, 445, rfl⟩
abbrev main_c_89 : Ref sig .tc := ⟨.hbm, 446, rfl⟩
abbrev main_v293 : Ref sig .tc := ⟨.hbm, 447, rfl⟩
abbrev main_v294 : Ref sig .tc := ⟨.hbm, 448, rfl⟩
abbrev main_c_90 : Ref sig .tc := ⟨.hbm, 449, rfl⟩
abbrev main_c_91 : Ref sig .tc := ⟨.hbm, 450, rfl⟩
abbrev main_call11_v0 : Ref sig .tc := ⟨.hbm, 451, rfl⟩
abbrev main_call11_v1 : Ref sig .tc := ⟨.hbm, 452, rfl⟩
abbrev main_call11_v2 : Ref sig .tc := ⟨.hbm, 453, rfl⟩
abbrev main_call11_v3 : Ref sig .tc := ⟨.hbm, 454, rfl⟩
abbrev main_call11_v4 : Ref sig .tc := ⟨.hbm, 455, rfl⟩
abbrev main_v295 : Ref sig .tc := ⟨.hbm, 456, rfl⟩
abbrev main_v296 : Ref sig .tc := ⟨.hbm, 457, rfl⟩
abbrev main_v297 : Ref sig .tc := ⟨.hbm, 458, rfl⟩
abbrev main_c_92 : Ref sig .tc := ⟨.hbm, 459, rfl⟩
abbrev main_v298 : Ref sig .tc := ⟨.hbm, 460, rfl⟩
abbrev main_v299 : Ref sig .tc := ⟨.hbm, 461, rfl⟩
abbrev main_c_93 : Ref sig .tc := ⟨.hbm, 462, rfl⟩
abbrev main_v300 : Ref sig .tc := ⟨.hbm, 463, rfl⟩
abbrev main_v301 : Ref sig .tc := ⟨.hbm, 464, rfl⟩
abbrev main_v302 : Ref sig .tc := ⟨.hbm, 465, rfl⟩
abbrev main_v303 : Ref sig .tc := ⟨.hbm, 466, rfl⟩
abbrev main_v304 : Ref sig .tc := ⟨.hbm, 467, rfl⟩
abbrev main_cst_94 : Ref sig .tc := ⟨.hbm, 468, rfl⟩
abbrev main_v305 : Ref sig .tc := ⟨.hbm, 469, rfl⟩
abbrev main_v306 : Ref sig .tc := ⟨.hbm, 470, rfl⟩
abbrev main_v307 : Ref sig .tc := ⟨.hbm, 471, rfl⟩
abbrev main_v308 : Ref sig .tc := ⟨.hbm, 472, rfl⟩
abbrev main_v309 : Ref sig .tc := ⟨.hbm, 473, rfl⟩
abbrev main_c_95 : Ref sig .tc := ⟨.hbm, 474, rfl⟩
abbrev main_v310 : Ref sig .tc := ⟨.hbm, 475, rfl⟩
abbrev main_v311 : Ref sig .tc := ⟨.hbm, 476, rfl⟩
abbrev main_c_96 : Ref sig .tc := ⟨.hbm, 477, rfl⟩
abbrev main_v312 : Ref sig .tc := ⟨.hbm, 478, rfl⟩
abbrev main_v313 : Ref sig .tc := ⟨.hbm, 479, rfl⟩
abbrev main_v314 : Ref sig .tc := ⟨.hbm, 480, rfl⟩
abbrev main_v315 : Ref sig .tc := ⟨.hbm, 481, rfl⟩
abbrev main_v316 : Ref sig .tc := ⟨.hbm, 482, rfl⟩
abbrev main_v317 : Ref sig .tc := ⟨.hbm, 483, rfl⟩
abbrev main_v318 : Ref sig .tc := ⟨.hbm, 484, rfl⟩
abbrev main_v319 : Ref sig .tc := ⟨.hbm, 485, rfl⟩
abbrev main_v320 : Ref sig .tc := ⟨.hbm, 486, rfl⟩
abbrev main_v321 : Ref sig .tc := ⟨.hbm, 487, rfl⟩
abbrev main_cst_97 : Ref sig .tc := ⟨.hbm, 488, rfl⟩
abbrev main_v322 : Ref sig .tc := ⟨.hbm, 489, rfl⟩
abbrev main_cst_98 : Ref sig .tc := ⟨.hbm, 490, rfl⟩
abbrev main_v323 : Ref sig .tc := ⟨.hbm, 491, rfl⟩
abbrev main_v324 : Ref sig .tc := ⟨.hbm, 492, rfl⟩
abbrev main_cst_99 : Ref sig .tc := ⟨.hbm, 493, rfl⟩
abbrev main_v325 : Ref sig .tc := ⟨.hbm, 494, rfl⟩
abbrev main_v326 : Ref sig .tc := ⟨.hbm, 495, rfl⟩
abbrev main_cst_100 : Ref sig .tc := ⟨.hbm, 496, rfl⟩
abbrev main_v327 : Ref sig .tc := ⟨.hbm, 497, rfl⟩
abbrev main_v328 : Ref sig .tc := ⟨.hbm, 498, rfl⟩
abbrev main_cst_101 : Ref sig .tc := ⟨.hbm, 499, rfl⟩
abbrev main_v329 : Ref sig .tc := ⟨.hbm, 500, rfl⟩
abbrev main_v330 : Ref sig .tc := ⟨.hbm, 501, rfl⟩
abbrev main_cst_102 : Ref sig .tc := ⟨.hbm, 502, rfl⟩
abbrev main_v331 : Ref sig .tc := ⟨.hbm, 503, rfl⟩
abbrev main_v332 : Ref sig .tc := ⟨.hbm, 504, rfl⟩
abbrev main_cst_103 : Ref sig .tc := ⟨.hbm, 505, rfl⟩
abbrev main_v333 : Ref sig .tc := ⟨.hbm, 506, rfl⟩
abbrev main_v334 : Ref sig .tc := ⟨.hbm, 507, rfl⟩
abbrev main_v335 : Ref sig .tc := ⟨.hbm, 508, rfl⟩
abbrev main_v336 : Ref sig .tc := ⟨.hbm, 509, rfl⟩
abbrev main_c_104 : Ref sig .tc := ⟨.hbm, 510, rfl⟩
abbrev main_c_105 : Ref sig .tc := ⟨.hbm, 511, rfl⟩
abbrev main_call12_v0 : Ref sig .tc := ⟨.hbm, 512, rfl⟩
abbrev main_call12_v1 : Ref sig .tc := ⟨.hbm, 513, rfl⟩
abbrev main_call12_v2 : Ref sig .tc := ⟨.hbm, 514, rfl⟩
abbrev main_call12_v3 : Ref sig .tc := ⟨.hbm, 515, rfl⟩
abbrev main_call12_v4 : Ref sig .tc := ⟨.hbm, 516, rfl⟩
abbrev main_v337 : Ref sig .tc := ⟨.hbm, 517, rfl⟩
abbrev main_v338 : Ref sig .tc := ⟨.hbm, 518, rfl⟩
abbrev main_v339 : Ref sig .tc := ⟨.hbm, 519, rfl⟩
abbrev main_c_106 : Ref sig .tc := ⟨.hbm, 520, rfl⟩
abbrev main_c_107 : Ref sig .tc := ⟨.hbm, 521, rfl⟩
abbrev main_call13_v0 : Ref sig .tc := ⟨.hbm, 522, rfl⟩
abbrev main_call13_v1 : Ref sig .tc := ⟨.hbm, 523, rfl⟩
abbrev main_call13_v2 : Ref sig .tc := ⟨.hbm, 524, rfl⟩
abbrev main_call13_v3 : Ref sig .tc := ⟨.hbm, 525, rfl⟩
abbrev main_call13_v4 : Ref sig .tc := ⟨.hbm, 526, rfl⟩
abbrev main_v340 : Ref sig .tc := ⟨.hbm, 527, rfl⟩
abbrev main_c_108 : Ref sig .tc := ⟨.hbm, 528, rfl⟩
abbrev main_v341 : Ref sig .tc := ⟨.hbm, 529, rfl⟩
abbrev main_v342 : Ref sig .tc := ⟨.hbm, 530, rfl⟩
abbrev main_c_109 : Ref sig .tc := ⟨.hbm, 531, rfl⟩
abbrev main_c_110 : Ref sig .tc := ⟨.hbm, 532, rfl⟩
abbrev main_call14_v0 : Ref sig .tc := ⟨.hbm, 533, rfl⟩
abbrev main_call14_v1 : Ref sig .tc := ⟨.hbm, 534, rfl⟩
abbrev main_call14_v2 : Ref sig .tc := ⟨.hbm, 535, rfl⟩
abbrev main_call14_v3 : Ref sig .tc := ⟨.hbm, 536, rfl⟩
abbrev main_call14_v4 : Ref sig .tc := ⟨.hbm, 537, rfl⟩
abbrev main_v343 : Ref sig .tc := ⟨.hbm, 538, rfl⟩
abbrev main_c_111 : Ref sig .tc := ⟨.hbm, 539, rfl⟩
abbrev main_v344 : Ref sig .tc := ⟨.hbm, 540, rfl⟩
abbrev main_v345 : Ref sig .tc := ⟨.hbm, 541, rfl⟩
abbrev main_c_112 : Ref sig .tc := ⟨.hbm, 542, rfl⟩
abbrev main_c_113 : Ref sig .tc := ⟨.hbm, 543, rfl⟩
abbrev main_call15_v0 : Ref sig .tc := ⟨.hbm, 544, rfl⟩
abbrev main_call15_v1 : Ref sig .tc := ⟨.hbm, 545, rfl⟩
abbrev main_call15_v2 : Ref sig .tc := ⟨.hbm, 546, rfl⟩
abbrev main_call15_v3 : Ref sig .tc := ⟨.hbm, 547, rfl⟩
abbrev main_call15_v4 : Ref sig .tc := ⟨.hbm, 548, rfl⟩
abbrev main_v346 : Ref sig .tc := ⟨.hbm, 549, rfl⟩
abbrev main_v347 : Ref sig .tc := ⟨.hbm, 550, rfl⟩
abbrev main_v348 : Ref sig .tc := ⟨.hbm, 551, rfl⟩
abbrev main_v349 : Ref sig .tc := ⟨.hbm, 552, rfl⟩
abbrev main_v350 : Ref sig .tc := ⟨.hbm, 553, rfl⟩
abbrev main_c_114 : Ref sig .tc := ⟨.hbm, 554, rfl⟩
abbrev main_v351 : Ref sig .tc := ⟨.hbm, 555, rfl⟩
abbrev main_v352 : Ref sig .tc := ⟨.hbm, 556, rfl⟩
abbrev main_c_115 : Ref sig .tc := ⟨.hbm, 557, rfl⟩
abbrev main_v353 : Ref sig .tc := ⟨.hbm, 558, rfl⟩
abbrev main_v354 : Ref sig .tc := ⟨.hbm, 559, rfl⟩
abbrev main_v355 : Ref sig .tc := ⟨.hbm, 560, rfl⟩
abbrev main_c_116 : Ref sig .tc := ⟨.hbm, 561, rfl⟩
abbrev main_v356 : Ref sig .tc := ⟨.hbm, 562, rfl⟩
abbrev main_v357 : Ref sig .tc := ⟨.hbm, 563, rfl⟩
abbrev main_c_117 : Ref sig .tc := ⟨.hbm, 564, rfl⟩
abbrev main_v358 : Ref sig .tc := ⟨.hbm, 565, rfl⟩
abbrev main_v359 : Ref sig .tc := ⟨.hbm, 566, rfl⟩
abbrev main_v360 : Ref sig .tc := ⟨.hbm, 567, rfl⟩
abbrev main_v361 : Ref sig .tc := ⟨.hbm, 568, rfl⟩
abbrev main_v362 : Ref sig .tc := ⟨.hbm, 569, rfl⟩
abbrev main_v363 : Ref sig .tc := ⟨.hbm, 570, rfl⟩
abbrev main_v364 : Ref sig .tc := ⟨.hbm, 571, rfl⟩
abbrev main_cst_118 : Ref sig .tc := ⟨.hbm, 572, rfl⟩
abbrev main_v365 : Ref sig .tc := ⟨.hbm, 573, rfl⟩
abbrev main_v366 : Ref sig .tc := ⟨.hbm, 574, rfl⟩
abbrev main_v367 : Ref sig .tc := ⟨.hbm, 575, rfl⟩
abbrev main_v368 : Ref sig .tc := ⟨.hbm, 576, rfl⟩
abbrev main_v369 : Ref sig .tc := ⟨.hbm, 577, rfl⟩
abbrev main_cst_119 : Ref sig .tc := ⟨.hbm, 578, rfl⟩
abbrev main_v370 : Ref sig .tc := ⟨.hbm, 579, rfl⟩
abbrev main_v371 : Ref sig .tc := ⟨.hbm, 580, rfl⟩
abbrev main_v372 : Ref sig .tc := ⟨.hbm, 581, rfl⟩
abbrev main_v373 : Ref sig .tc := ⟨.hbm, 582, rfl⟩
abbrev main_v374 : Ref sig .tc := ⟨.hbm, 583, rfl⟩
abbrev main_c_120 : Ref sig .tc := ⟨.hbm, 584, rfl⟩
abbrev main_v375 : Ref sig .tc := ⟨.hbm, 585, rfl⟩
abbrev main_v376 : Ref sig .tc := ⟨.hbm, 586, rfl⟩
abbrev main_c_121 : Ref sig .tc := ⟨.hbm, 587, rfl⟩
abbrev main_v377 : Ref sig .tc := ⟨.hbm, 588, rfl⟩
abbrev main_v378 : Ref sig .tc := ⟨.hbm, 589, rfl⟩
abbrev main_v379 : Ref sig .tc := ⟨.hbm, 590, rfl⟩
abbrev main_c_122 : Ref sig .tc := ⟨.hbm, 591, rfl⟩
abbrev main_v380 : Ref sig .tc := ⟨.hbm, 592, rfl⟩
abbrev main_v381 : Ref sig .tc := ⟨.hbm, 593, rfl⟩
abbrev main_c_123 : Ref sig .tc := ⟨.hbm, 594, rfl⟩
abbrev main_v382 : Ref sig .tc := ⟨.hbm, 595, rfl⟩
abbrev main_v383 : Ref sig .tc := ⟨.hbm, 596, rfl⟩
abbrev main_v384 : Ref sig .tc := ⟨.hbm, 597, rfl⟩
abbrev main_v385 : Ref sig .tc := ⟨.hbm, 598, rfl⟩
abbrev main_v386 : Ref sig .tc := ⟨.hbm, 599, rfl⟩
abbrev main_v387 : Ref sig .tc := ⟨.hbm, 600, rfl⟩
abbrev main_v388 : Ref sig .tc := ⟨.hbm, 601, rfl⟩
abbrev main_v389 : Ref sig .tc := ⟨.hbm, 602, rfl⟩
abbrev main_v390 : Ref sig .tc := ⟨.hbm, 603, rfl⟩
abbrev main_v391 : Ref sig .tc := ⟨.hbm, 604, rfl⟩
abbrev main_cst_124 : Ref sig .tc := ⟨.hbm, 605, rfl⟩
abbrev main_v392 : Ref sig .tc := ⟨.hbm, 606, rfl⟩
abbrev main_v393 : Ref sig .tc := ⟨.hbm, 607, rfl⟩
abbrev main_v394 : Ref sig .tc := ⟨.hbm, 608, rfl⟩
abbrev main_v395 : Ref sig .tc := ⟨.hbm, 609, rfl⟩
abbrev main_v396 : Ref sig .tc := ⟨.hbm, 610, rfl⟩
abbrev main_v397 : Ref sig .tc := ⟨.hbm, 611, rfl⟩
abbrev main_c_125 : Ref sig .tc := ⟨.hbm, 612, rfl⟩
abbrev main_v398 : Ref sig .tc := ⟨.hbm, 613, rfl⟩
abbrev main_v399 : Ref sig .tc := ⟨.hbm, 614, rfl⟩
abbrev main_c_126 : Ref sig .tc := ⟨.hbm, 615, rfl⟩
abbrev main_v400 : Ref sig .tc := ⟨.hbm, 616, rfl⟩
abbrev main_v401 : Ref sig .tc := ⟨.hbm, 617, rfl⟩
abbrev main_v402 : Ref sig .tc := ⟨.hbm, 618, rfl⟩
abbrev main_c_127 : Ref sig .tc := ⟨.hbm, 619, rfl⟩
abbrev main_v403 : Ref sig .tc := ⟨.hbm, 620, rfl⟩
abbrev main_v404 : Ref sig .tc := ⟨.hbm, 621, rfl⟩
abbrev main_c_128 : Ref sig .tc := ⟨.hbm, 622, rfl⟩
abbrev main_v405 : Ref sig .tc := ⟨.hbm, 623, rfl⟩
abbrev main_v406 : Ref sig .tc := ⟨.hbm, 624, rfl⟩
abbrev main_v407 : Ref sig .tc := ⟨.hbm, 625, rfl⟩
abbrev main_v408 : Ref sig .tc := ⟨.hbm, 626, rfl⟩
abbrev main_v409 : Ref sig .tc := ⟨.hbm, 627, rfl⟩
abbrev main_v410 : Ref sig .tc := ⟨.hbm, 628, rfl⟩
abbrev main_v411 : Ref sig .tc := ⟨.hbm, 629, rfl⟩
abbrev main_cst_129 : Ref sig .tc := ⟨.hbm, 630, rfl⟩
abbrev main_v412 : Ref sig .tc := ⟨.hbm, 631, rfl⟩
abbrev main_v413 : Ref sig .tc := ⟨.hbm, 632, rfl⟩
abbrev main_v414 : Ref sig .tc := ⟨.hbm, 633, rfl⟩
abbrev main_v415 : Ref sig .tc := ⟨.hbm, 634, rfl⟩
abbrev main_v416 : Ref sig .tc := ⟨.hbm, 635, rfl⟩
abbrev main_v417 : Ref sig .tc := ⟨.hbm, 636, rfl⟩
abbrev main_v418 : Ref sig .tc := ⟨.hbm, 637, rfl⟩
abbrev main_v419 : Ref sig .tc := ⟨.hbm, 638, rfl⟩
abbrev main_v420 : Ref sig .tc := ⟨.hbm, 639, rfl⟩
abbrev main_c_130 : Ref sig .tc := ⟨.hbm, 640, rfl⟩
abbrev main_v421 : Ref sig .tc := ⟨.hbm, 641, rfl⟩
abbrev main_v422 : Ref sig .tc := ⟨.hbm, 642, rfl⟩
abbrev main_c_131 : Ref sig .tc := ⟨.hbm, 643, rfl⟩
abbrev main_v423 : Ref sig .tc := ⟨.hbm, 644, rfl⟩
abbrev main_v424 : Ref sig .tc := ⟨.hbm, 645, rfl⟩
abbrev main_v425 : Ref sig .tc := ⟨.hbm, 646, rfl⟩
abbrev main_c_132 : Ref sig .tc := ⟨.hbm, 647, rfl⟩
abbrev main_v426 : Ref sig .tc := ⟨.hbm, 648, rfl⟩
abbrev main_v427 : Ref sig .tc := ⟨.hbm, 649, rfl⟩
abbrev main_c_133 : Ref sig .tc := ⟨.hbm, 650, rfl⟩
abbrev main_v428 : Ref sig .tc := ⟨.hbm, 651, rfl⟩
abbrev main_v429 : Ref sig .tc := ⟨.hbm, 652, rfl⟩
abbrev main_v430 : Ref sig .tc := ⟨.hbm, 653, rfl⟩
abbrev main_v431 : Ref sig .tc := ⟨.hbm, 654, rfl⟩
abbrev main_v432 : Ref sig .tc := ⟨.hbm, 655, rfl⟩
abbrev main_v433 : Ref sig .tc := ⟨.hbm, 656, rfl⟩
abbrev main_v434 : Ref sig .tc := ⟨.hbm, 657, rfl⟩
abbrev main_v435 : Ref sig .tc := ⟨.hbm, 658, rfl⟩
abbrev main_v436 : Ref sig .tc := ⟨.hbm, 659, rfl⟩
abbrev main_v437 : Ref sig .tc := ⟨.hbm, 660, rfl⟩
abbrev main_v438 : Ref sig .tc := ⟨.hbm, 661, rfl⟩
abbrev main_v439 : Ref sig .tc := ⟨.hbm, 662, rfl⟩
abbrev main_v440 : Ref sig .tc := ⟨.hbm, 663, rfl⟩
abbrev main_v441 : Ref sig .tc := ⟨.hbm, 664, rfl⟩
abbrev main_cst_134 : Ref sig .tc := ⟨.hbm, 665, rfl⟩
abbrev main_v442 : Ref sig .tc := ⟨.hbm, 666, rfl⟩
abbrev main_v443 : Ref sig .tc := ⟨.hbm, 667, rfl⟩
abbrev main_cst_135 : Ref sig .tc := ⟨.hbm, 668, rfl⟩
abbrev main_v444 : Ref sig .tc := ⟨.hbm, 669, rfl⟩
abbrev main_v445 : Ref sig .tc := ⟨.hbm, 670, rfl⟩
abbrev main_cst_136 : Ref sig .tc := ⟨.hbm, 671, rfl⟩
abbrev main_v446 : Ref sig .tc := ⟨.hbm, 672, rfl⟩
abbrev main_v447 : Ref sig .tc := ⟨.hbm, 673, rfl⟩
abbrev main_v448 : Ref sig .tc := ⟨.hbm, 674, rfl⟩
abbrev main_v449 : Ref sig .tc := ⟨.hbm, 675, rfl⟩
abbrev main_c_137 : Ref sig .tc := ⟨.hbm, 676, rfl⟩
abbrev main_c_138 : Ref sig .tc := ⟨.hbm, 677, rfl⟩
abbrev main_call16_v0 : Ref sig .tc := ⟨.hbm, 678, rfl⟩
abbrev main_call16_v1 : Ref sig .tc := ⟨.hbm, 679, rfl⟩
abbrev main_call16_v2 : Ref sig .tc := ⟨.hbm, 680, rfl⟩
abbrev main_call16_v3 : Ref sig .tc := ⟨.hbm, 681, rfl⟩
abbrev main_call16_v4 : Ref sig .tc := ⟨.hbm, 682, rfl⟩
abbrev main_v450 : Ref sig .tc := ⟨.hbm, 683, rfl⟩
abbrev main_c_139 : Ref sig .tc := ⟨.hbm, 684, rfl⟩
abbrev main_v451 : Ref sig .tc := ⟨.hbm, 685, rfl⟩
abbrev main_v452 : Ref sig .tc := ⟨.hbm, 686, rfl⟩
abbrev main_c_140 : Ref sig .tc := ⟨.hbm, 687, rfl⟩
abbrev main_c_141 : Ref sig .tc := ⟨.hbm, 688, rfl⟩
abbrev main_call17_v0 : Ref sig .tc := ⟨.hbm, 689, rfl⟩
abbrev main_call17_v1 : Ref sig .tc := ⟨.hbm, 690, rfl⟩
abbrev main_call17_v2 : Ref sig .tc := ⟨.hbm, 691, rfl⟩
abbrev main_call17_v3 : Ref sig .tc := ⟨.hbm, 692, rfl⟩
abbrev main_call17_v4 : Ref sig .tc := ⟨.hbm, 693, rfl⟩
abbrev main_v453 : Ref sig .tc := ⟨.hbm, 694, rfl⟩
abbrev main_v454 : Ref sig .tc := ⟨.hbm, 695, rfl⟩
abbrev main_v455 : Ref sig .tc := ⟨.hbm, 696, rfl⟩
abbrev main_c_142 : Ref sig .tc := ⟨.hbm, 697, rfl⟩
abbrev main_v456 : Ref sig .tc := ⟨.hbm, 698, rfl⟩
abbrev main_v457 : Ref sig .tc := ⟨.hbm, 699, rfl⟩
abbrev main_c_143 : Ref sig .tc := ⟨.hbm, 700, rfl⟩
abbrev main_v458 : Ref sig .tc := ⟨.hbm, 701, rfl⟩
abbrev main_v459 : Ref sig .tc := ⟨.hbm, 702, rfl⟩
abbrev main_v460 : Ref sig .tc := ⟨.hbm, 703, rfl⟩
abbrev main_v461 : Ref sig .tc := ⟨.hbm, 704, rfl⟩
abbrev main_v462 : Ref sig .tc := ⟨.hbm, 705, rfl⟩
abbrev main_cst_144 : Ref sig .tc := ⟨.hbm, 706, rfl⟩
abbrev main_v463 : Ref sig .tc := ⟨.hbm, 707, rfl⟩
abbrev main_v464 : Ref sig .tc := ⟨.hbm, 708, rfl⟩
abbrev main_v465 : Ref sig .tc := ⟨.hbm, 709, rfl⟩
abbrev main_v466 : Ref sig .tc := ⟨.hbm, 710, rfl⟩
abbrev main_v467 : Ref sig .tc := ⟨.hbm, 711, rfl⟩
abbrev main_c_145 : Ref sig .tc := ⟨.hbm, 712, rfl⟩
abbrev main_v468 : Ref sig .tc := ⟨.hbm, 713, rfl⟩
abbrev main_v469 : Ref sig .tc := ⟨.hbm, 714, rfl⟩
abbrev main_c_146 : Ref sig .tc := ⟨.hbm, 715, rfl⟩
abbrev main_v470 : Ref sig .tc := ⟨.hbm, 716, rfl⟩
abbrev main_v471 : Ref sig .tc := ⟨.hbm, 717, rfl⟩
abbrev main_v472 : Ref sig .tc := ⟨.hbm, 718, rfl⟩
abbrev main_v473 : Ref sig .tc := ⟨.hbm, 719, rfl⟩
abbrev main_v474 : Ref sig .tc := ⟨.hbm, 720, rfl⟩
abbrev main_v475 : Ref sig .tc := ⟨.hbm, 721, rfl⟩
abbrev main_v476 : Ref sig .tc := ⟨.hbm, 722, rfl⟩
abbrev main_v477 : Ref sig .tc := ⟨.hbm, 723, rfl⟩
abbrev main_v478 : Ref sig .tc := ⟨.hbm, 724, rfl⟩
abbrev main_v479 : Ref sig .tc := ⟨.hbm, 725, rfl⟩
abbrev main_cst_147 : Ref sig .tc := ⟨.hbm, 726, rfl⟩
abbrev main_v480 : Ref sig .tc := ⟨.hbm, 727, rfl⟩
abbrev main_v481 : Ref sig .tc := ⟨.hbm, 728, rfl⟩
abbrev main_v482 : Ref sig .tc := ⟨.hbm, 729, rfl⟩
abbrev main_v483 : Ref sig .tc := ⟨.hbm, 730, rfl⟩

abbrev nD : Nat := 1
abbrev τ : Topo := Topo.v7x

variable {F : FTy → Type} [FloatOps F]

class Facts₀ : Prop where
  shapeCasts_S1024x1024x3_S1048576x3 : S1024x1024x3.ShapeCasts S1048576x3
  slices_S1048576x3_S1048576x1_0_0 : S1048576x3.Slices ![0, 0] S1048576x1
  shapeCasts_S1048576x1_S1048576 : S1048576x1.ShapeCasts S1048576
  slices_S1048576x3_S1048576x1_0_1 : S1048576x3.Slices ![0, 1] S1048576x1
  slices_S1048576x3_S1048576x1_0_2 : S1048576x3.Slices ![0, 2] S1048576x1
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  bcast_S1048576_S1x1048576_1 : S1048576.BroadcastsInDim S1x1048576 (![1] : Fin 1 → Fin S1x1048576.rank)
  bcast_S1x1048576_S24x1048576_0_1 : S1x1048576.BroadcastsInDim S24x1048576 (![0, 1] : Fin 2 → Fin S24x1048576.rank)
  reducesTo_S24x1048576_S1048576_d0 : S24x1048576.ReducesTo [0] S1048576
  h_S_ : 0 < S_.numel
  shapeCasts_S1048576_S1024x1024 : S1048576.ShapeCasts S1024x1024
  gather_S24x300x300_S1048576x2_S24x1048576_0_12_n_n_12_1_2411_wf : GatherDims.WF S24x300x300 S1048576x2 S24x1048576 [0] [1, 2] [] [1, 2] [] 1 ![24, 1, 1]
  gather_S24x300_S1048576x1_S24x1048576_0_1_n_n_1_1_241_wf : GatherDims.WF S24x300 S1048576x1 S24x1048576 [0] [1] [] [1] [] 1 ![24, 1]

variable [Facts₀]

def gather_S24x300x300_S1048576x2_S24x1048576_0_12_n_n_12_1_2411 : GatherDims S24x300x300 S1048576x2 S24x1048576 where
  offsetDims := [0]
  collapsedSliceDims := [1, 2]
  operandBatchingDims := []
  startIndicesBatchingDims := []
  startIndexMap := [1, 2]
  indexVectorDim := 1
  sliceSizes := ![24, 1, 1]
  wf := gather_S24x300x300_S1048576x2_S24x1048576_0_12_n_n_12_1_2411_wf
def gather_S24x300_S1048576x1_S24x1048576_0_1_n_n_1_1_241 : GatherDims S24x300 S1048576x1 S24x1048576 where
  offsetDims := [0]
  collapsedSliceDims := [1]
  operandBatchingDims := []
  startIndicesBatchingDims := []
  startIndexMap := [1]
  indexVectorDim := 1
  sliceSizes := ![24, 1]
  wf := gather_S24x300_S1048576x1_S24x1048576_0_1_n_n_1_1_241_wf

class Facts : Prop extends Facts₀ where

variable [Facts]
-- ==== Proof.Spec.lean ====
/-
  The two sides of the comparison as functions of ONE sample point, at the extended reals.

  A sample point has three coordinates. A coordinate `t` is sent to the grid position `pos t = (t + 1) · ½ · 299`
  of a table axis of 300 cells; `lo t` is the cell below it (the floor, as a signed word, clamped to 0 … 299),
  `hi t` the next cell (clamped again), and `frac t = pos t − lo t` the weight of the upper cell.

  One side reads a table at the two cells and blends the two entries with the weights `1 − frac` and `frac`
  (`rLine`, and `rPlane` on two axes at once: four entries). The other side multiplies the whole table row by the
  weight vector `oh t`, which is `1 − frac t` at `lo t`, `frac t` at `hi t` (both added where the two cells
  coincide) and zero elsewhere, and does each product three times — once plainly, once with the second factor
  replaced by its difference with itself, once with the first factor so replaced (`dot3`): `kLine`, `kPlane`.
  On finite numbers a difference of a number with itself is zero and the weighted sum over all cells is the blend.
-/
import Idealize.ShloMosaic.PureOps.Ideal
import Idealize.ShloMosaic.PureOps.Ideal.Laws
import Idealize.ShloMosaic.Lib.ValueIdx

noncomputable section

namespace Cert.TriVM

open Idealize.ShloMosaic Idealize.ShloMosaic.ValueIdx

/-- The shape of a plane table (channel, row cell, column cell) and of a line table (channel, cell). -/
abbrev SP : Shape := ⟨3, ![24, 300, 300]⟩
abbrev SL : Shape := ⟨2, ![24, 300]⟩

/-- The four float literals of both programs: 1, ½, 299 and 0. -/
def one : EReal := Ideal.ofBits .f32 0x3F800000#32
def half : EReal := Ideal.ofBits .f32 0x3F000000#32
def span : EReal := Ideal.ofBits .f32 0x43958000#32
def zer : EReal := Ideal.ofBits .f32 0x00000000#32

/-- The grid position of a coordinate. -/
def pos (t : EReal) : EReal := (t + one) * half * span
/-- The cell below the position: its floor as a signed 32-bit word, clamped to 0 … 299. -/
def lo (t : EReal) : BitVec 32 :=
  IntOp.minsi 299#32 (IntOp.maxsi 0#32 (Ideal.fptosi 32 (Ideal.liftRound Int.floor (pos t))))
/-- The next cell, clamped to 0 … 299 again. -/
def hi (t : EReal) : BitVec 32 := IntOp.minsi 299#32 (IntOp.maxsi 0#32 (IntOp.addi (lo t) 1#32))
/-- The weight of the upper cell. -/
def frac (t : EReal) : EReal := pos t - (((lo t).toInt : ℝ) : EReal)

/-- A word read as a signed integer and clamped into the 300 cells of an axis. -/
def cell (a : BitVec 32) : Fin 300 := ⟨(max 0 (min a.toInt 299)).toNat, by omega⟩

/-! ## Reading the tables at the two cells -/

def rPlane (P : SP.Idx → EReal) (u v : EReal) (c : Fin 24) : EReal :=
  (((P (ix3 c (cell (lo v)) (cell (lo u))) * (one - frac u)) * (one - frac v)
      + (P (ix3 c (cell (lo v)) (cell (hi u))) * frac u) * (one - frac v))
    + (P (ix3 c (cell (hi v)) (cell (lo u))) * (one - frac u)) * frac v)
  + (P (ix3 c (cell (hi v)) (cell (hi u))) * frac u) * frac v

def rLine (L : SL.Idx → EReal) (t : EReal) (c : Fin 24) : EReal :=
  L (ix2 c (cell (lo t))) * (one - frac t) + L (ix2 c (cell (hi t))) * frac t

/-! ## Multiplying the tables by the weight vectors -/

/-- The weight vector of a coordinate over the 300 cells. -/
def oh (t : EReal) (g : Fin 300) : EReal :=
  Scalar.select (IntOp.cmpi .eq (BitVec.ofNat 32 g.val) (lo t)) (one - frac t) zer
    + Scalar.select (IntOp.cmpi .eq (BitVec.ofNat 32 g.val) (hi t)) (frac t) zer

/-- A product of two vectors taken three times. -/
def dot3 {K : ℕ} (a b : Fin K → EReal) : EReal :=
  ((∑ k, a k * b k) + ∑ k, a k * (b k - b k)) + ∑ k, (a k - a k) * b k

def kPlane (P : SP.Idx → EReal) (u v : EReal) (c : Fin 24) : EReal :=
  ∑ h : Fin 300, dot3 (fun w => P (ix3 c h w)) (oh u) * oh v h

def kLine (L : SL.Idx → EReal) (t : EReal) (c : Fin 24) : EReal :=
  dot3 (fun l => L (ix2 c l)) (oh t)

/-! ## One output element, on either side: three terms, each a sum over the 24 channels of plane value times line value -/

def rTerm (P : SP.Idx → EReal) (L : SL.Idx → EReal) (u v t : EReal) : EReal :=
  zer + ∑ c : Fin 24, rPlane P u v c * rLine L t c

def rOut (x y z : EReal) (P1 P2 P3 : SP.Idx → EReal) (L1 L2 L3 : SL.Idx → EReal) : EReal :=
  (rTerm P1 L1 x y z + rTerm P2 L2 x z y) + rTerm P3 L3 y z x

def kTerm (P : SP.Idx → EReal) (L : SL.Idx → EReal) (u v t : EReal) : EReal :=
  ∑ c : Fin 24, kPlane P u v c * kLine L t c

def kOut (x y z : EReal) (P1 P2 P3 : SP.Idx → EReal) (L1 L2 L3 : SL.Idx → EReal) : EReal :=
  (kTerm P1 L1 x y z + kTerm P2 L2 x z y) + kTerm P3 L3 y z x

end Cert.TriVM

end
-- ==== Proof.LibGatherCells.lean ====
/-
  Table look-ups at computed cells, at any element type.

  A table P : [C, H, W] gathered at N pairs of start indices (a matrix [N, 2] whose column 0 holds the cell on the
  table's axis 1 and column 1 the cell on axis 2), one whole channel column per pair, has at (c, n) the entry
  P(c, r n, s n), where r n and s n are the two start indices of pair n read as signed integers and clamped into
  [0, H - 1] and [0, W - 1]: a slice of extent 1 fits an axis of extent H exactly at the starts 0 … H - 1.
  A table L : [C, K] gathered at a column [N, 1] of start indices has at (c, n) the entry L(c, r n) in the same way.
  Two index columns [N, 1] joined along axis 1 give the matrix [N, 2] whose entry (n, 0) is the first column's and
  whose entry (n, 1) is the second's.
  A signed word clipped between two bounds lies between them, and replacing a word that is not negative by another
  word "where it is negative" changes nothing.
  Imports only the library.
-/
import Idealize.ShloMosaic.PureOps.Ideal.Laws
import Idealize.ShloMosaic.Lib.ValueIdx
import Idealize.ShloMosaic.Lib.Pipeline.Value

noncomputable section

namespace Cert.LibGatherCells

open Idealize.ShloMosaic Idealize.ShloMosaic.ValueIdx

/-! ## A start index read signed and clamped into an axis -/

/-- A start-index word read as a signed integer and clamped into [0, N - 1]. -/
def clampCell (N : Nat) (hN : 0 < N) {w : Nat} (v : BitVec w) : Fin N :=
  ⟨min v.toInt.toNat (N - 1), by have := Nat.min_le_right v.toInt.toNat (N - 1); omega⟩

theorem clampCell_val (N : Nat) (hN : 0 < N) {w : Nat} (v : BitVec w) :
    (clampCell N hN v).val = min v.toInt.toNat (N - 1) := rfl

/-! ## A plane table gathered at pairs of cells -/

/-- The dimension numbers of P[:, r, s] for a table [C, H, W] and a matrix [N, 2] of start-index pairs: the channel
    axis is the one offset axis, the two cell axes are collapsed and are the ones the pair indexes, in order. -/
abbrev planeGather (C H W N : Nat)
    (wf : GatherDims.WF ⟨3, ![C, H, W]⟩ ⟨2, ![N, 2]⟩ ⟨2, ![C, N]⟩ [0] [1, 2] [] [1, 2] [] 1 ![C, 1, 1]) :
    GatherDims ⟨3, ![C, H, W]⟩ ⟨2, ![N, 2]⟩ ⟨2, ![C, N]⟩ where
  offsetDims := [0]
  collapsedSliceDims := [1, 2]
  operandBatchingDims := []
  startIndicesBatchingDims := []
  startIndexMap := [1, 2]
  indexVectorDim := 1
  sliceSizes := ![C, 1, 1]
  wf := wf

/-- The gathered plane at (c, n) is the table at channel c and the two clamped start indices of pair n. -/
theorem planeGather_apply {α : Type} {C H W N w : Nat} (hH : 0 < H) (hW : 0 < W)
    (wf : GatherDims.WF ⟨3, ![C, H, W]⟩ ⟨2, ![N, 2]⟩ ⟨2, ![C, N]⟩ [0] [1, 2] [] [1, 2] [] 1 ![C, 1, 1])
    (x : (⟨3, ![C, H, W]⟩ : Shape).Idx → α) (idx : IVec ⟨2, ![N, 2]⟩ w) (c : Fin C) (n : Fin N) :
    Host.gather (planeGather C H W N wf) x idx (ix2 c n)
      = x (ix3 c (clampCell H hH (idx (ix2 n (0 : Fin 2)))) (clampCell W hW (idx (ix2 n (1 : Fin 2))))) := by
  -- the channel coordinate: no start, no batch part, the result's own channel
  have h0 : (planeGather C H W N wf).start (ix2 c n) idx (0 : Fin 3) + (planeGather C H W N wf).batchCoord (ix2 c n) (0 : Fin 3)
      + (planeGather C H W N wf).offCoord (ix2 c n) (0 : Fin 3) = c.val := by
    have hs : (planeGather C H W N wf).start (ix2 c n) idx (0 : Fin 3) = 0 := by
      unfold GatherDims.start
      exact dif_neg (show ¬ (0 : Fin 3) ∈ ([1, 2] : List (Fin 3)) by decide)
    have hk : (0 : Fin 3) ∈ (planeGather C H W N wf).sKept :=
      (GatherDims.mem_sKept _ _).mpr ⟨(show ¬ (0 : Fin 3) ∈ ([1, 2] : List (Fin 3)) by decide), List.not_mem_nil⟩
    rw [hs, GatherDims.batchCoord_eq_zero _ _ _ List.not_mem_nil, Nat.add_zero, Nat.zero_add]
    unfold GatherDims.offCoord
    rw [dif_pos hk]
    rfl
  -- the row cell: the clamped first start index of the pair, no batch and no offset part
  have h1 : (planeGather C H W N wf).start (ix2 c n) idx (1 : Fin 3) + (planeGather C H W N wf).batchCoord (ix2 c n) (1 : Fin 3)
      + (planeGather C H W N wf).offCoord (ix2 c n) (1 : Fin 3) = (clampCell H hH (idx (ix2 n (0 : Fin 2)))).val := by
    have hm : (1 : Fin 3) ∈ (planeGather C H W N wf).startIndexMap := (show (1 : Fin 3) ∈ ([1, 2] : List (Fin 3)) by decide)
    rw [GatherDims.batchCoord_eq_zero _ _ _ List.not_mem_nil, Nat.add_zero,
      GatherDims.offCoord_eq_zero _ _ _ (fun h => ((GatherDims.mem_sKept _ _).mp h).1 (show (1 : Fin 3) ∈ ([1, 2] : List (Fin 3)) by decide)),
      Nat.add_zero]
    unfold GatherDims.start
    rw [dif_pos hm]
    have hsi : (planeGather C H W N wf).siIdx (ix2 c n) ⟨List.idxOf (1 : Fin 3) (planeGather C H W N wf).startIndexMap,
        List.idxOf_lt_length_iff.2 hm⟩ = ix2 n (0 : Fin 2) := by
      funext b; refine Fin.ext ?_
      match b with
      | ⟨0, _⟩ => rfl
      | ⟨1, _⟩ => rfl
    rw [hsi]
    rfl
  -- the column cell: the clamped second start index of the pair
  have h2 : (planeGather C H W N wf).start (ix2 c n) idx (2 : Fin 3) + (planeGather C H W N wf).batchCoord (ix2 c n) (2 : Fin 3)
      + (planeGather C H W N wf).offCoord (ix2 c n) (2 : Fin 3) = (clampCell W hW (idx (ix2 n (1 : Fin 2)))).val := by
    have hm : (2 : Fin 3) ∈ (planeGather C H W N wf).startIndexMap := (show (2 : Fin 3) ∈ ([1, 2] : List (Fin 3)) by decide)
    rw [GatherDims.batchCoord_eq_zero _ _ _ List.not_mem_nil, Nat.add_zero,
      GatherDims.offCoord_eq_zero _ _ _ (fun h => ((GatherDims.mem_sKept _ _).mp h).1 (show (2 : Fin 3) ∈ ([1, 2] : List (Fin 3)) by decide)),
      Nat.add_zero]
    unfold GatherDims.start
    rw [dif_pos hm]
    have hsi : (planeGather C H W N wf).siIdx (ix2 c n) ⟨List.idxOf (2 : Fin 3) (planeGather C H W N wf).startIndexMap,
        List.idxOf_lt_length_iff.2 hm⟩ = ix2 n (1 : Fin 2) := by
      funext b; refine Fin.ext ?_
      match b with
      | ⟨0, _⟩ => rfl
      | ⟨1, _⟩ => rfl
    rw [hsi]
    rfl
  unfold Host.gather
  refine congrArg x (funext fun a => Fin.ext ?_)
  match a with
  | ⟨0, _⟩ => exact h0
  | ⟨1, _⟩ => exact h1
  | ⟨2, _⟩ => exact h2

/-! ## A line table gathered at a column of cells -/

/-- The dimension numbers of L[:, r] for a table [C, K] and a column [N, 1] of start indices. -/
abbrev lineGather (C K N : Nat)
    (wf : GatherDims.WF ⟨2, ![C, K]⟩ ⟨2, ![N, 1]⟩ ⟨2, ![C, N]⟩ [0] [1] [] [1] [] 1 ![C, 1]) :
    GatherDims ⟨2, ![C, K]⟩ ⟨2, ![N, 1]⟩ ⟨2, ![C, N]⟩ where
  offsetDims := [0]
  collapsedSliceDims := [1]
  operandBatchingDims := []
  startIndicesBatchingDims := []
  startIndexMap := [1]
  indexVectorDim := 1
  sliceSizes := ![C, 1]
  wf := wf

/-- The gathered line at (c, n) is the table at channel c and the clamped start index of n. -/
theorem lineGather_apply {α : Type} {C K N w : Nat} (hK : 0 < K)
    (wf : GatherDims.WF ⟨2, ![C, K]⟩ ⟨2, ![N, 1]⟩ ⟨2, ![C, N]⟩ [0] [1] [] [1] [] 1 ![C, 1])
    (x : (⟨2, ![C, K]⟩ : Shape).Idx → α) (idx : IVec ⟨2, ![N, 1]⟩ w) (c : Fin C) (n : Fin N) :
    Host.gather (lineGather C K N wf) x idx (ix2 c n) = x (ix2 c (clampCell K hK (idx (ix2 n (0 : Fin 1))))) := by
  have h0 : (lineGather C K N wf).start (ix2 c n) idx (0 : Fin 2) + (lineGather C K N wf).batchCoord (ix2 c n) (0 : Fin 2)
      + (lineGather C K N wf).offCoord (ix2 c n) (0 : Fin 2) = c.val := by
    have hs : (lineGather C K N wf).start (ix2 c n) idx (0 : Fin 2) = 0 := by
      unfold GatherDims.start
      exact dif_neg (show ¬ (0 : Fin 2) ∈ ([1] : List (Fin 2)) by decide)
    have hk : (0 : Fin 2) ∈ (lineGather C K N wf).sKept :=
      (GatherDims.mem_sKept _ _).mpr ⟨(show ¬ (0 : Fin 2) ∈ ([1] : List (Fin 2)) by decide), List.not_mem_nil⟩
    rw [hs, GatherDims.batchCoord_eq_zero _ _ _ List.not_mem_nil, Nat.add_zero, Nat.zero_add]
    unfold GatherDims.offCoord
    rw [dif_pos hk]
    rfl
  have h1 : (lineGather C K N wf).start (ix2 c n) idx (1 : Fin 2) + (lineGather C K N wf).batchCoord (ix2 c n) (1 : Fin 2)
      + (lineGather C K N wf).offCoord (ix2 c n) (1 : Fin 2) = (clampCell K hK (idx (ix2 n (0 : Fin 1)))).val := by
    have hm : (1 : Fin 2) ∈ (lineGather C K N wf).startIndexMap := (show (1 : Fin 2) ∈ ([1] : List (Fin 2)) by decide)
    rw [GatherDims.batchCoord_eq_zero _ _ _ List.not_mem_nil, Nat.add_zero,
      GatherDims.offCoord_eq_zero _ _ _ (fun h => ((GatherDims.mem_sKept _ _).mp h).1 (show (1 : Fin 2) ∈ ([1] : List (Fin 2)) by decide)),
      Nat.add_zero]
    unfold GatherDims.start
    rw [dif_pos hm]
    have hsi : (lineGather C K N wf).siIdx (ix2 c n) ⟨List.idxOf (1 : Fin 2) (lineGather C K N wf).startIndexMap,
        List.idxOf_lt_length_iff.2 hm⟩ = ix2 n (0 : Fin 1) := by
      funext b; refine Fin.ext ?_
      match b with
      | ⟨0, _⟩ => rfl
      | ⟨1, _⟩ => rfl
    rw [hsi]
    rfl
  unfold Host.gather
  refine congrArg x (funext fun a => Fin.ext ?_)
  match a with
  | ⟨0, _⟩ => exact h0
  | ⟨1, _⟩ => exact h1

/-! ## Two index columns joined into pairs -/

/-- The matrix [N, 2] made of two columns [N, 1] has at (n, 0) the first column's entry. -/
theorem joinCols_apply_zero {α : Type} {N : Nat} (a b : (⟨2, ![N, 1]⟩ : Shape).Idx → α)
    (h : Shape.Concatenates [(⟨2, ![N, 1]⟩ : Shape), ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n (0 : Fin 2)) = a (ix2 n (0 : Fin 1)) :=
  concatenate_pair_apply_left 1 a b h (ix2 n (0 : Fin 2)) rfl (ix2 n (0 : Fin 1))
    (fun d => by match d with | ⟨0, _⟩ => rfl | ⟨1, _⟩ => rfl)

/-- … and at (n, 1) the second column's entry. -/
theorem joinCols_apply_one {α : Type} {N : Nat} (a b : (⟨2, ![N, 1]⟩ : Shape).Idx → α)
    (h : Shape.Concatenates [(⟨2, ![N, 1]⟩ : Shape), ⟨2, ![N, 1]⟩] ⟨2, ![N, 2]⟩ 1) (n : Fin N) :
    concatenate ⟨2, ![N, 2]⟩ 1 [⟨⟨2, ![N, 1]⟩, a⟩, ⟨⟨2, ![N, 1]⟩, b⟩] h (ix2 n (1 : Fin 2)) = b (ix2 n (0 : Fin 1)) :=
  concatenate_pair_apply_right 1 a b h (ix2 n (1 : Fin 2)) rfl rfl (ix2 n (0 : Fin 1))
    (fun d hd => by match d with | ⟨0, _⟩ => rfl | ⟨1, _⟩ => exact absurd rfl hd) rfl

/-! ## Clipped words -/

/-- A signed word clipped below by a and above by b (a ≤ b as signed integers) lies between them. -/
theorem clip_toInt_bounds {w : Nat} (a b v : BitVec w) (hab : a.toInt ≤ b.toInt) :
    a.toInt ≤ (IntOp.minsi b (IntOp.maxsi a v)).toInt ∧ (IntOp.minsi b (IntOp.maxsi a v)).toInt ≤ b.toInt := by
  unfold IntOp.minsi IntOp.maxsi
  by_cases h1 : v.slt a = true
  · rw [if_pos h1]
    by_cases h2 : b.slt a = true
    · rw [if_pos h2]
      have : b.toInt < a.toInt := by simpa [BitVec.slt] using h2
      omega
    · rw [if_neg h2]
      exact ⟨le_refl _, hab⟩
  · rw [if_neg h1]
    have h1' : a.toInt ≤ v.toInt := by
      have : ¬ v.toInt < a.toInt := by simpa [BitVec.slt] using h1
      omega
    by_cases h2 : b.slt v = true
    · rw [if_pos h2]
      exact ⟨hab, le_refl _⟩
    · rw [if_neg h2]
      have : ¬ b.toInt < v.toInt := by simpa [BitVec.slt] using h2
      exact ⟨h1', by omega⟩

/-- where(v < 0, a, v) is v for a word v that is not negative as a signed integer, whatever a is. -/
theorem wrap_of_nonneg {w : Nat} (v a : BitVec w) (h : 0 ≤ v.toInt) :
    Scalar.select (IntOp.cmpi .slt v 0#w) a v = v := by
  have : IntOp.cmpi .slt v 0#w = 0#1 := by
    simp only [IntOp.cmpi, BitVec.slt, BitVec.toInt_zero]
    simp [not_lt.mpr h]
  rw [this]
  exact if_neg (by decide)

end Cert.LibGatherCells

end
-- ==== Proof.RefBlocks.lean ====
/-
  The pieces of one table sample of the reference program, read at one sample point.

  The reference looks a table up at a cell through a gather whose start indices are first passed through the usual
  "negative index counts from the end" step, where(idx < 0, idx + 300, idx).  The cells it uses are lo t and hi t,
  both clipped into 0 … 299, so that step changes nothing, and the gather's own clamp of a start index is the
  function cell of the specification.  The weights of the four (or two) entries are vectors over the points spread
  over the 24 channels: read at (channel c, point n) they are the vector's entry at n.
-/
import proofs.«179513_j69423851372724_2_alg».proof.Proof.RefRead
import proofs.«179513_j69423851372724_2_alg».proof.Proof.Spec
import proofs.«179513_j69423851372724_2_alg».proof.Proof.LibGatherCells

noncomputable section

namespace Cert.TriVM.Ref

open Cert.ReferenceIdeal Cert.ReferenceIdeal.Gen Cert.ReferenceIdeal.ReadP Idealize.ShloMosaic Idealize.ShloMosaic.ValueIdx
  Cert.LibGatherCells

/-! ## Cells -/

/-- The gather's clamp of a start index on an axis of 300 cells is the specification's cell. -/
theorem clampCell_eq_cell (a : BitVec 32) : clampCell 300 (by decide) a = cell a :=
  Fin.ext (by show min a.toInt.toNat (300 - 1) = (max 0 (min a.toInt 299)).toNat; omega)

/-- The lower cell is not negative: it is clipped below by 0. -/
theorem lo_nonneg (t : EReal) : 0 ≤ (lo t).toInt := by
  have h := (clip_toInt_bounds 0#32 299#32 (Ideal.fptosi 32 (Ideal.liftRound Int.floor (pos t))) (by decide)).1
  rwa [BitVec.toInt_zero] at h

/-- The upper cell is not negative either. -/
theorem hi_nonneg (t : EReal) : 0 ≤ (hi t).toInt := by
  have h := (clip_toInt_bounds 0#32 299#32 (IntOp.addi (lo t) 1#32) (by decide)).1
  rwa [BitVec.toInt_zero] at h

/-- where(lo t < 0, a, lo t) is lo t. -/
theorem wrap_lo (t : EReal) (a : BitVec 32) : Scalar.select (IntOp.cmpi .slt (lo t) 0#32) a (lo t) = lo t :=
  wrap_of_nonneg (lo t) a (lo_nonneg t)

/-- where(hi t < 0, a, hi t) is hi t. -/
theorem wrap_hi (t : EReal) (a : BitVec 32) : Scalar.select (IntOp.cmpi .slt (hi t) 0#32) a (hi t) = hi t :=
  wrap_of_nonneg (hi t) a (hi_nonneg t)

/-! ## Vectors over the points, as index columns and as weights over the channels -/

/-- A vector over the points made a column [N, 1]: its entry (n, 0) is the vector's entry n. -/
theorem colOf_apply {α : Type} (r : S1048576.Idx → α) (n : Fin 1048576) :
    broadcastInDim S1048576x1 ![0] bcast_S1048576_S1048576x1_0 r (ix2 n (0 : Fin 1)) = r (ix1 n) :=
  broadcastInDim_apply _ bcast_S1048576_S1048576x1_0 r (ix2 n (0 : Fin 1)) (ix1 n) (fun a => match a with
    | ⟨0, _⟩ => by show n.val = if (1048576 : Nat) = 1 then 0 else n.val; rw [if_neg (by decide)])

/-- A vector over the points spread over the 24 channels: its entry (c, n) is the vector's entry n. -/
theorem rowOf_apply {α : Type} (y : S1048576.Idx → α) (c : Fin 24) (n : Fin 1048576) :
    broadcastInDim S24x1048576 ![0, 1] bcast_S1x1048576_S24x1048576_0_1
      (broadcastInDim S1x1048576 ![1] bcast_S1048576_S1x1048576_1 y) (ix2 c n) = y (ix1 n) := by
  refine (broadcastInDim_apply _ bcast_S1x1048576_S24x1048576_0_1 _ (ix2 c n) (ix2 (0 : Fin 1) n) (fun a => match a with
    | ⟨0, _⟩ => by show 0 = if (1 : Nat) = 1 then 0 else c.val; rw [if_pos rfl]
    | ⟨1, _⟩ => by show n.val = if (1048576 : Nat) = 1 then 0 else n.val; rw [if_neg (by decide)])).trans ?_
  exact broadcastInDim_apply _ bcast_S1048576_S1x1048576_1 y (ix2 (0 : Fin 1) n) (ix1 n) (fun a => match a with
    | ⟨0, _⟩ => by show n.val = if (1048576 : Nat) = 1 then 0 else n.val; rw [if_neg (by decide)])

/-! ## The two look-ups -/

/-- A plane table looked up at the pairs (row cell r n, column cell s n): at (c, n) the entry P(c, cell (r n), cell (s n)). -/
theorem planeLookup {α : Type} (x : S24x300x300.Idx → α) (r s : S1048576.Idx → BitVec 32) (c : Fin 24) (n : Fin 1048576) :
    Host.gather gather_S24x300x300_S1048576x2_S24x1048576_0_12_n_n_12_1_2411 x
      (concatenate S1048576x2 1 [⟨S1048576x1, broadcastInDim S1048576x1 ![0] bcast_S1048576_S1048576x1_0 r⟩,
        ⟨S1048576x1, broadcastInDim S1048576x1 ![0] bcast_S1048576_S1048576x1_0 s⟩]
        concatenates_S1048576x1_S1048576x1_S1048576x2_d1) (ix2 c n)
      = x (ix3 c (cell (r (ix1 n))) (cell (s (ix1 n)))) := by
  refine (planeGather_apply (C := 24) (H := 300) (W := 300) (N := 1048576) (by decide) (by decide)
    Facts₀.gather_S24x300x300_S1048576x2_S24x1048576_0_12_n_n_12_1_2411_wf x _ c n).trans ?_
  rw [joinCols_apply_zero, joinCols_apply_one, colOf_apply, colOf_apply, clampCell_eq_cell, clampCell_eq_cell]

/-- A line table looked up at the cells r n: at (c, n) the entry L(c, cell (r n)). -/
theorem lineLookup {α : Type} (x : S24x300.Idx → α) (r : S1048576.Idx → BitVec 32) (c : Fin 24) (n : Fin 1048576) :
    Host.gather gather_S24x300_S1048576x1_S24x1048576_0_1_n_n_1_1_241 x
      (broadcastInDim S1048576x1 ![0] bcast_S1048576_S1048576x1_0 r) (ix2 c n)
      = x (ix2 c (cell (r (ix1 n)))) := by
  refine (lineGather_apply (C := 24) (K := 300) (N := 1048576) (by decide)
    Facts₀.gather_S24x300_S1048576x1_S24x1048576_0_1_n_n_1_1_241_wf x _ c n).trans ?_
  rw [colOf_apply, clampCell_eq_cell]

end Cert.TriVM.Ref

end
-- ==== Proof.RefTerm1.lean ====
/-
  The first of the reference's three terms at one sample point n: the plane table P1 sampled at the point's
  coordinates (x, y), times the line table L1 sampled at z, summed over the 24 channels.

  The stage numbers are the printed program's.  Stages 2, 4 and 6 are the three coordinate vectors over the points.
  For the plane, u is stage 2 and v is stage 4: stages 21 / 27 are the lower and upper cell of u, 24 / 30 those of v,
  32 and 34 the upper-cell weights; each of the four entries is a gather (48, 72, 95, 118) at a pair of cells that went
  through the negative-index step (39 … 114), multiplied by two weights spread over the channels (52 … 123).
  For the line, t is stage 6: cells 134 / 137, weight 139, gathers 146 and 158.  Stage 163 is the product of the two
  samples and stage 164 its sum over the channels from the initial value 0.
-/
import proofs.«179513_j69423851372724_2_alg».proof.Proof.RefRead
import proofs.«179513_j69423851372724_2_alg».proof.Proof.Spec
import proofs.«179513_j69423851372724_2_alg».proof.Proof.RefBlocks

noncomputable section

namespace Cert.TriVM.Ref

open Cert.ReferenceIdeal Cert.ReferenceIdeal.Gen Cert.ReferenceIdeal.ReadP Idealize.ShloMosaic Idealize.ShloMosaic.ValueIdx

section
variable (x0 : (⟨S1024x1024x3, .f32⟩ : BufTy).Contents (Elt Ideal))
  (x1 : (⟨S24x300x300, .f32⟩ : BufTy).Contents (Elt Ideal)) (x4 : (⟨S24x300, .f32⟩ : BufTy).Contents (Elt Ideal))

local notation "𝓤" => val_main_v2 (F := Ideal) x0
local notation "𝓥" => val_main_v4 (F := Ideal) x0
local notation "𝓣" => val_main_v6 (F := Ideal) x0

/-! ### The cells of the plane's two coordinates -/

theorem t1_lo_u (i : S1048576.Idx) : val_main_v21 (F := Ideal) x0 i = lo (𝓤 i) := rfl
theorem t1_lo_v (i : S1048576.Idx) : val_main_v24 (F := Ideal) x0 i = lo (𝓥 i) := rfl
theorem t1_hi_u (i : S1048576.Idx) : val_main_v27 (F := Ideal) x0 i = hi (𝓤 i) := rfl
theorem t1_hi_v (i : S1048576.Idx) : val_main_v30 (F := Ideal) x0 i = hi (𝓥 i) := rfl

/-! ### The start indices of the plane's four entries: the negative-index step leaves the cells as they are -/

theorem t1_i39 (i : S1048576.Idx) : val_main_v39 (F := Ideal) x0 i = lo (𝓥 i) := by
  rw [val_main_v39_apply, val_main_v36_apply, t1_lo_v]; exact wrap_lo _ _
theorem t1_i44 (i : S1048576.Idx) : val_main_v44 (F := Ideal) x0 i = lo (𝓤 i) := by
  rw [val_main_v44_apply, val_main_v41_apply, t1_lo_u]; exact wrap_lo _ _
theorem t1_i63 (i : S1048576.Idx) : val_main_v63 (F := Ideal) x0 i = lo (𝓥 i) := by
  rw [val_main_v63_apply, val_main_v60_apply, t1_lo_v]; exact wrap_lo _ _
theorem t1_i68 (i : S1048576.Idx) : val_main_v68 (F := Ideal) x0 i = hi (𝓤 i) := by
  rw [val_main_v68_apply, val_main_v65_apply, t1_hi_u]; exact wrap_hi _ _
theorem t1_i86 (i : S1048576.Idx) : val_main_v86 (F := Ideal) x0 i = hi (𝓥 i) := by
  rw [val_main_v86_apply, val_main_v83_apply, t1_hi_v]; exact wrap_hi _ _
theorem t1_i91 (i : S1048576.Idx) : val_main_v91 (F := Ideal) x0 i = lo (𝓤 i) := by
  rw [val_main_v91_apply, val_main_v88_apply, t1_lo_u]; exact wrap_lo _ _
theorem t1_i109 (i : S1048576.Idx) : val_main_v109 (F := Ideal) x0 i = hi (𝓥 i) := by
  rw [val_main_v109_apply, val_main_v106_apply, t1_hi_v]; exact wrap_hi _ _
theorem t1_i114 (i : S1048576.Idx) : val_main_v114 (F := Ideal) x0 i = hi (𝓤 i) := by
  rw [val_main_v114_apply, val_main_v111_apply, t1_hi_u]; exact wrap_hi _ _

/-! ### The four entries of the plane -/

theorem t1_g48 (c : Fin 24) (n : Fin 1048576) :
    val_main_v48 (F := Ideal) x0 x1 (ix2 c n) = x1 (ix3 c (cell (lo (𝓥 (ix1 n)))) (cell (lo (𝓤 (ix1 n))))) :=
  (planeLookup x1 (val_main_v39 (F := Ideal) x0) (val_main_v44 (F := Ideal) x0) c n).trans (by rw [t1_i39, t1_i44])
theorem t1_g72 (c : Fin 24) (n : Fin 1048576) :
    val_main_v72 (F := Ideal) x0 x1 (ix2 c n) = x1 (ix3 c (cell (lo (𝓥 (ix1 n)))) (cell (hi (𝓤 (ix1 n))))) :=
  (planeLookup x1 (val_main_v63 (F := Ideal) x0) (val_main_v68 (F := Ideal) x0) c n).trans (by rw [t1_i63, t1_i68])
theorem t1_g95 (c : Fin 24) (n : Fin 1048576) :
    val_main_v95 (F := Ideal) x0 x1 (ix2 c n) = x1 (ix3 c (cell (hi (𝓥 (ix1 n)))) (cell (lo (𝓤 (ix1 n))))) :=
  (planeLookup x1 (val_main_v86 (F := Ideal) x0) (val_main_v91 (F := Ideal) x0) c n).trans (by rw [t1_i86, t1_i91])
theorem t1_g118 (c : Fin 24) (n : Fin 1048576) :
    val_main_v118 (F := Ideal) x0 x1 (ix2 c n) = x1 (ix3 c (cell (hi (𝓥 (ix1 n)))) (cell (hi (𝓤 (ix1 n))))) :=
  (planeLookup x1 (val_main_v109 (F := Ideal) x0) (val_main_v114 (F := Ideal) x0) c n).trans (by rw [t1_i109, t1_i114])

/-! ### The weights of the plane, spread over the channels -/

theorem t1_w52 (c : Fin 24) (n : Fin 1048576) : val_main_v52 (F := Ideal) x0 (ix2 c n) = one - frac (𝓤 (ix1 n)) :=
  rowOf_apply (val_main_v50 (F := Ideal) x0) c n
theorem t1_w57 (c : Fin 24) (n : Fin 1048576) : val_main_v57 (F := Ideal) x0 (ix2 c n) = one - frac (𝓥 (ix1 n)) :=
  rowOf_apply (val_main_v55 (F := Ideal) x0) c n
theorem t1_w74 (c : Fin 24) (n : Fin 1048576) : val_main_v74 (F := Ideal) x0 (ix2 c n) = frac (𝓤 (ix1 n)) :=
  rowOf_apply (val_main_v32 (F := Ideal) x0) c n
theorem t1_w79 (c : Fin 24) (n : Fin 1048576) : val_main_v79 (F := Ideal) x0 (ix2 c n) = one - frac (𝓥 (ix1 n)) :=
  rowOf_apply (val_main_v77 (F := Ideal) x0) c n
theorem t1_w99 (c : Fin 24) (n : Fin 1048576) : val_main_v99 (F := Ideal) x0 (ix2 c n) = one - frac (𝓤 (ix1 n)) :=
  rowOf_apply (val_main_v97 (F := Ideal) x0) c n
theorem t1_w102 (c : Fin 24) (n : Fin 1048576) : val_main_v102 (F := Ideal) x0 (ix2 c n) = frac (𝓥 (ix1 n)) :=
  rowOf_apply (val_main_v34 (F := Ideal) x0) c n
theorem t1_w120 (c : Fin 24) (n : Fin 1048576) : val_main_v120 (F := Ideal) x0 (ix2 c n) = frac (𝓤 (ix1 n)) :=
  rowOf_apply (val_main_v32 (F := Ideal) x0) c n
theorem t1_w123 (c : Fin 24) (n : Fin 1048576) : val_main_v123 (F := Ideal) x0 (ix2 c n) = frac (𝓥 (ix1 n)) :=
  rowOf_apply (val_main_v34 (F := Ideal) x0) c n

/-! ### The plane sample: the four weighted entries added in the program's order -/

theorem t1_plane (c : Fin 24) (n : Fin 1048576) :
    val_main_v125 (F := Ideal) x0 x1 (ix2 c n) = rPlane x1 (𝓤 (ix1 n)) (𝓥 (ix1 n)) c := by
  rw [val_main_v125_apply, val_main_v104_apply, val_main_v81_apply, val_main_v58_apply, val_main_v53_apply,
    val_main_v80_apply, val_main_v75_apply, val_main_v103_apply, val_main_v100_apply, val_main_v124_apply,
    val_main_v121_apply, t1_g48, t1_g72, t1_g95, t1_g118, t1_w52, t1_w57, t1_w74, t1_w79, t1_w99, t1_w102, t1_w120,
    t1_w123]
  rfl

/-! ### The line sample -/

theorem t1_lo_t (i : S1048576.Idx) : val_main_v134 (F := Ideal) x0 i = lo (𝓣 i) := rfl
theorem t1_hi_t (i : S1048576.Idx) : val_main_v137 (F := Ideal) x0 i = hi (𝓣 i) := rfl

theorem t1_i144 (i : S1048576.Idx) : val_main_v144 (F := Ideal) x0 i = lo (𝓣 i) := by
  rw [val_main_v144_apply, val_main_v141_apply, t1_lo_t]; exact wrap_lo _ _
theorem t1_i156 (i : S1048576.Idx) : val_main_v156 (F := Ideal) x0 i = hi (𝓣 i) := by
  rw [val_main_v156_apply, val_main_v153_apply, t1_hi_t]; exact wrap_hi _ _

theorem t1_g146 (c : Fin 24) (n : Fin 1048576) :
    val_main_v146 (F := Ideal) x0 x4 (ix2 c n) = x4 (ix2 c (cell (lo (𝓣 (ix1 n))))) :=
  (lineLookup x4 (val_main_v144 (F := Ideal) x0) c n).trans (by rw [t1_i144])
theorem t1_g158 (c : Fin 24) (n : Fin 1048576) :
    val_main_v158 (F := Ideal) x0 x4 (ix2 c n) = x4 (ix2 c (cell (hi (𝓣 (ix1 n))))) :=
  (lineLookup x4 (val_main_v156 (F := Ideal) x0) c n).trans (by rw [t1_i156])

theorem t1_w150 (c : Fin 24) (n : Fin 1048576) : val_main_v150 (F := Ideal) x0 (ix2 c n) = one - frac (𝓣 (ix1 n)) :=
  rowOf_apply (val_main_v148 (F := Ideal) x0) c n
theorem t1_w160 (c : Fin 24) (n : Fin 1048576) : val_main_v160 (F := Ideal) x0 (ix2 c n) = frac (𝓣 (ix1 n)) :=
  rowOf_apply (val_main_v139 (F := Ideal) x0) c n

theorem t1_line (c : Fin 24) (n : Fin 1048576) :
    val_main_v162 (F := Ideal) x0 x4 (ix2 c n) = rLine x4 (𝓣 (ix1 n)) c := by
  rw [val_main_v162_apply, val_main_v151_apply, val_main_v161_apply, t1_g146, t1_g158, t1_w150, t1_w160]
  rfl

/-! ### The term: the product of the two samples summed over the channels -/

theorem term1_at (n : Fin 1048576) :
    val_main_v164 (F := Ideal) x0 x1 x4 (ix1 n) = rTerm x1 x4 (𝓤 (ix1 n)) (𝓥 (ix1 n)) (𝓣 (ix1 n)) := by
  rw [val_main_v164_apply]
  unfold rTerm
  refine congrArg₂ (· + ·) rfl (Finset.sum_congr rfl fun k _ => ?_)
  have hk : idx_main_v164 (ix1 n) k = ix2 k n :=
    funext fun a => Fin.ext (by match a with | ⟨0, _⟩ => rfl | ⟨1, _⟩ => rfl)
  rw [hk, val_main_v163_apply, t1_plane, t1_line]
  rfl

end

end Cert.TriVM.Ref

end
-- ==== Proof.RefTerm2.lean ====
/-
  The second of the reference's three terms at one sample point n: the plane table P2 sampled at the point's
  coordinates (x, z), times the line table L2 sampled at y, summed over the 24 channels.

  The stage numbers are the printed program's.  Stages 2, 4 and 6 are the three coordinate vectors over the points.
  For the plane, u is stage 2 and v is stage 6: stages 179 / 185 are the lower and upper cell of u, 182 / 188 those of
  v, 190 and 192 the upper-cell weights; each of the four entries is a gather (206, 230, 253, 276) at a pair of cells
  that went through the negative-index step (197 … 272), multiplied by two weights spread over the channels
  (210 … 281).  For the line, t is stage 4: cells 292 / 295, weight 297, gathers 304 and 316.  Stage 321 is the product
  of the two samples and stage 322 its sum over the channels from the initial value 0.
-/
import proofs.«179513_j69423851372724_2_alg».proof.Proof.RefRead
import proofs.«179513_j69423851372724_2_alg».proof.Proof.Spec
import proofs.«179513_j69423851372724_2_alg».proof.Proof.RefBlocks

noncomputable section

namespace Cert.TriVM.Ref

open Cert.ReferenceIdeal Cert.ReferenceIdeal.Gen Cert.ReferenceIdeal.ReadP Idealize.ShloMosaic Idealize.ShloMosaic.ValueIdx

section
variable (x0 : (⟨S1024x1024x3, .f32⟩ : BufTy).Contents (Elt Ideal))
  (x2 : (⟨S24x300x300, .f32⟩ : BufTy).Contents (Elt Ideal)) (x5 : (⟨S24x300, .f32⟩ : BufTy).Contents (Elt Ideal))

local notation "𝓤" => val_main_v2 (F := Ideal) x0
local notation "𝓥" => val_main_v6 (F := Ideal) x0
local notation "𝓣" => val_main_v4 (F := Ideal) x0

/-! ### The cells of the plane's two coordinates -/

theorem t2_lo_u (i : S1048576.Idx) : val_main_v179 (F := Ideal) x0 i = lo (𝓤 i) := rfl
theorem t2_lo_v (i : S1048576.Idx) : val_main_v182 (F := Ideal) x0 i = lo (𝓥 i) := rfl
theorem t2_hi_u (i : S1048576.Idx) : val_main_v185 (F := Ideal) x0 i = hi (𝓤 i) := rfl
theorem t2_hi_v (i : S1048576.Idx) : val_main_v188 (F := Ideal) x0 i = hi (𝓥 i) := rfl

/-! ### The start indices of the plane's four entries: the negative-index step leaves the cells as they are -/

theorem t2_i197 (i : S1048576.Idx) : val_main_v197 (F := Ideal) x0 i = lo (𝓥 i) := by
  rw [val_main_v197_apply, val_main_v194_apply, t2_lo_v]; exact wrap_lo _ _
theorem t2_i202 (i : S1048576.Idx) : val_main_v202 (F := Ideal) x0 i = lo (𝓤 i) := by
  rw [val_main_v202_apply, val_main_v199_apply, t2_lo_u]; exact wrap_lo _ _
theorem t2_i221 (i : S1048576.Idx) : val_main_v221 (F := Ideal) x0 i = lo (𝓥 i) := by
  rw [val_main_v221_apply, val_main_v218_apply, t2_lo_v]; exact wrap_lo _ _
theorem t2_i226 (i : S1048576.Idx) : val_main_v226 (F := Ideal) x0 i = hi (𝓤 i) := by
  rw [val_main_v226_apply, val_main_v223_apply, t2_hi_u]; exact wrap_hi _ _
theorem t2_i244 (i : S1048576.Idx) : val_main_v244 (F := Ideal) x0 i = hi (𝓥 i) := by
  rw [val_main_v244_apply, val_main_v241_apply, t2_hi_v]; exact wrap_hi _ _
theorem t2_i249 (i : S1048576.Idx) : val_main_v249 (F := Ideal) x0 i = lo (𝓤 i) := by
  rw [val_main_v249_apply, val_main_v246_apply, t2_lo_u]; exact wrap_lo _ _
theorem t2_i267 (i : S1048576.Idx) : val_main_v267 (F := Ideal) x0 i = hi (𝓥 i) := by
  rw [val_main_v267_apply, val_main_v264_apply, t2_hi_v]; exact wrap_hi _ _
theorem t2_i272 (i : S1048576.Idx) : val_main_v272 (F := Ideal) x0 i = hi (𝓤 i) := by
  rw [val_main_v272_apply, val_main_v269_apply, t2_hi_u]; exact wrap_hi _ _

/-! ### The four entries of the plane -/

theorem t2_g206 (c : Fin 24) (n : Fin 1048576) :
    val_main_v206 (F := Ideal) x0 x2 (ix2 c n) = x2 (ix3 c (cell (lo (𝓥 (ix1 n)))) (cell (lo (𝓤 (ix1 n))))) :=
  (planeLookup x2 (val_main_v197 (F := Ideal) x0) (val_main_v202 (F := Ideal) x0) c n).trans (by rw [t2_i197, t2_i202])
theorem t2_g230 (c : Fin 24) (n : Fin 1048576) :
    val_main_v230 (F := Ideal) x0 x2 (ix2 c n) = x2 (ix3 c (cell (lo (𝓥 (ix1 n)))) (cell (hi (𝓤 (ix1 n))))) :=
  (planeLookup x2 (val_main_v221 (F := Ideal) x0) (val_main_v226 (F := Ideal) x0) c n).trans (by rw [t2_i221, t2_i226])
theorem t2_g253 (c : Fin 24) (n : Fin 1048576) :
    val_main_v253 (F := Ideal) x0 x2 (ix2 c n) = x2 (ix3 c (cell (hi (𝓥 (ix1 n)))) (cell (lo (𝓤 (ix1 n))))) :=
  (planeLookup x2 (val_main_v244 (F := Ideal) x0) (val_main_v249 (F := Ideal) x0) c n).trans (by rw [t2_i244, t2_i249])
theorem t2_g276 (c : Fin 24) (n : Fin 1048576) :
    val_main_v276 (F := Ideal) x0 x2 (ix2 c n) = x2 (ix3 c (cell (hi (𝓥 (ix1 n)))) (cell (hi (𝓤 (ix1 n))))) :=
  (planeLookup x2 (val_main_v267 (F := Ideal) x0) (val_main_v272 (F := Ideal) x0) c n).trans (by rw [t2_i267, t2_i272])

/-! ### The weights of the plane, spread over the channels -/

theorem t2_w210 (c : Fin 24) (n : Fin 1048576) : val_main_v210 (F := Ideal) x0 (ix2 c n) = one - frac (𝓤 (ix1 n)) :=
  rowOf_apply (val_main_v208 (F := Ideal) x0) c n
theorem t2_w215 (c : Fin 24) (n : Fin 1048576) : val_main_v215 (F := Ideal) x0 (ix2 c n) = one - frac (𝓥 (ix1 n)) :=
  rowOf_apply (val_main_v213 (F := Ideal) x0) c n
theorem t2_w232 (c : Fin 24) (n : Fin 1048576) : val_main_v232 (F := Ideal) x0 (ix2 c n) = frac (𝓤 (ix1 n)) :=
  rowOf_apply (val_main_v190 (F := Ideal) x0) c n
theorem t2_w237 (c : Fin 24) (n : Fin 1048576) : val_main_v237 (F := Ideal) x0 (ix2 c n) = one - frac (𝓥 (ix1 n)) :=
  rowOf_apply (val_main_v235 (F := Ideal) x0) c n
theorem t2_w257 (c : Fin 24) (n : Fin 1048576) : val_main_v257 (F := Ideal) x0 (ix2 c n) = one - frac (𝓤 (ix1 n)) :=
  rowOf_apply (val_main_v255 (F := Ideal) x0) c n
theorem t2_w260 (c : Fin 24) (n : Fin 1048576) : val_main_v260 (F := Ideal) x0 (ix2 c n) = frac (𝓥 (ix1 n)) :=
  rowOf_apply (val_main_v192 (F := Ideal) x0) c n
theorem t2_w278 (c : Fin 24) (n : Fin 1048576) : val_main_v278 (F := Ideal) x0 (ix2 c n) = frac (𝓤 (ix1 n)) :=
  rowOf_apply (val_main_v190 (F := Ideal) x0) c n
theorem t2_w281 (c : Fin 24) (n : Fin 1048576) : val_main_v281 (F := Ideal) x0 (ix2 c n) = frac (𝓥 (ix1 n)) :=
  rowOf_apply (val_main_v192 (F := Ideal) x0) c n

/-! ### The plane sample: the four weighted entries added in the program's order -/

theorem t2_plane (c : Fin 24) (n : Fin 1048576) :
    val_main_v283 (F := Ideal) x0 x2 (ix2 c n) = rPlane x2 (𝓤 (ix1 n)) (𝓥 (ix1 n)) c := by
  rw [val_main_v283_apply, val_main_v262_apply, val_main_v239_apply, val_main_v216_apply, val_main_v211_apply,
    val_main_v238_apply, val_main_v233_apply, val_main_v261_apply, val_main_v258_apply, val_main_v282_apply,
    val_main_v279_apply, t2_g206, t2_g230, t2_g253, t2_g276, t2_w210, t2_w215, t2_w232, t2_w237, t2_w257, t2_w260,
    t2_w278, t2_w281]
  rfl

/-! ### The line sample -/

theorem t2_lo_t (i : S1048576.Idx) : val_main_v292 (F := Ideal) x0 i = lo (𝓣 i) := rfl
theorem t2_hi_t (i : S1048576.Idx) : val_main_v295 (F := Ideal) x0 i = hi (𝓣 i) := rfl

theorem t2_i302 (i : S1048576.Idx) : val_main_v302 (F := Ideal) x0 i = lo (𝓣 i) := by
  rw [val_main_v302_apply, val_main_v299_apply, t2_lo_t]; exact wrap_lo _ _
theorem t2_i314 (i : S1048576.Idx) : val_main_v314 (F := Ideal) x0 i = hi (𝓣 i) := by
  rw [val_main_v314_apply, val_main_v311_apply, t2_hi_t]; exact wrap_hi _ _

theorem t2_g304 (c : Fin 24) (n : Fin 1048576) :
    val_main_v304 (F := Ideal) x0 x5 (ix2 c n) = x5 (ix2 c (cell (lo (𝓣 (ix1 n))))) :=
  (lineLookup x5 (val_main_v302 (F := Ideal) x0) c n).trans (by rw [t2_i302])
theorem t2_g316 (c : Fin 24) (n : Fin 1048576) :
    val_main_v316 (F := Ideal) x0 x5 (ix2 c n) = x5 (ix2 c (cell (hi (𝓣 (ix1 n))))) :=
  (lineLookup x5 (val_main_v314 (F := Ideal) x0) c n).trans (by rw [t2_i314])

theorem t2_w308 (c : Fin 24) (n : Fin 1048576) : val_main_v308 (F := Ideal) x0 (ix2 c n) = one - frac (𝓣 (ix1 n)) :=
  rowOf_apply (val_main_v306 (F := Ideal) x0) c n
theorem t2_w318 (c : Fin 24) (n : Fin 1048576) : val_main_v318 (F := Ideal) x0 (ix2 c n) = frac (𝓣 (ix1 n)) :=
  rowOf_apply (val_main_v297 (F := Ideal) x0) c n

theorem t2_line (c : Fin 24) (n : Fin 1048576) :
    val_main_v320 (F := Ideal) x0 x5 (ix2 c n) = rLine x5 (𝓣 (ix1 n)) c := by
  rw [val_main_v320_apply, val_main_v309_apply, val_main_v319_apply, t2_g304, t2_g316, t2_w308, t2_w318]
  rfl

/-! ### The term: the product of the two samples summed over the channels -/

theorem term2_at (n : Fin 1048576) :
    val_main_v322 (F := Ideal) x0 x2 x5 (ix1 n) = rTerm x2 x5 (𝓤 (ix1 n)) (𝓥 (ix1 n)) (𝓣 (ix1 n)) := by
  rw [val_main_v322_apply]
  unfold rTerm
  refine congrArg₂ (· + ·) rfl (Finset.sum_congr rfl fun k _ => ?_)
  have hk : idx_main_v322 (ix1 n) k = ix2 k n :=
    funext fun a => Fin.ext (by match a with | ⟨0, _⟩ => rfl | ⟨1, _⟩ => rfl)
  rw [hk, val_main_v321_apply, t2_plane, t2_line]
  rfl

end

end Cert.TriVM.Ref

end
-- ==== Proof.RefTerm3.lean ====
/-
  The third of the reference's three terms at one sample point n: the plane table P3 sampled at the point's
  coordinates (y, z), times the line table L3 sampled at x, summed over the 24 channels.

  The stage numbers are the printed program's.  Stages 2, 4 and 6 are the three coordinate vectors over the points.
  For the plane, u is stage 4 and v is stage 6: stages 337 / 343 are the lower and upper cell of u, 340 / 346 those of
  v, 348 and 350 the upper-cell weights; each of the four entries is a gather (364, 388, 411, 434) at a pair of cells
  that went through the negative-index step (355 … 430), multiplied by two weights spread over the channels
  (368 … 439).  For the line, t is stage 2: cells 450 / 453, weight 455, gathers 462 and 474.  Stage 479 is the product
  of the two samples and stage 480 its sum over the channels from the initial value 0.
-/
import proofs.«179513_j69423851372724_2_alg».proof.Proof.RefRead
import proofs.«179513_j69423851372724_2_alg».proof.Proof.Spec
import proofs.«179513_j69423851372724_2_alg».proof.Proof.RefBlocks

noncomputable section

namespace Cert.TriVM.Ref

open Cert.ReferenceIdeal Cert.ReferenceIdeal.Gen Cert.ReferenceIdeal.ReadP Idealize.ShloMosaic Idealize.ShloMosaic.ValueIdx

section
variable (x0 : (⟨S1024x1024x3, .f32⟩ : BufTy).Contents (Elt Ideal))
  (x3 : (⟨S24x300x300, .f32⟩ : BufTy).Contents (Elt Ideal)) (x6 : (⟨S24x300, .f32⟩ : BufTy).Contents (Elt Ideal))

local notation "𝓤" => val_main_v4 (F := Ideal) x0
local notation "𝓥" => val_main_v6 (F := Ideal) x0
local notation "𝓣" => val_main_v2 (F := Ideal) x0

/-! ### The cells of the plane's two coordinates -/

theorem t3_lo_u (i : S1048576.Idx) : val_main_v337 (F := Ideal) x0 i = lo (𝓤 i) := rfl
theorem t3_lo_v (i : S1048576.Idx) : val_main_v340 (F := Ideal) x0 i = lo (𝓥 i) := rfl
theorem t3_hi_u (i : S1048576.Idx) : val_main_v343 (F := Ideal) x0 i = hi (𝓤 i) := rfl
theorem t3_hi_v (i : S1048576.Idx) : val_main_v346 (F := Ideal) x0 i = hi (𝓥 i) := rfl

/-! ### The start indices of the plane's four entries: the negative-index step leaves the cells as they are -/

theorem t3_i355 (i : S1048576.Idx) : val_main_v355 (F := Ideal) x0 i = lo (𝓥 i) := by
  rw [val_main_v355_apply, val_main_v352_apply, t3_lo_v]; exact wrap_lo _ _
theorem t3_i360 (i : S1048576.Idx) : val_main_v360 (F := Ideal) x0 i = lo (𝓤 i) := by
  rw [val_main_v360_apply, val_main_v357_apply, t3_lo_u]; exact wrap_lo _ _
theorem t3_i379 (i : S1048576.Idx) : val_main_v379 (F := Ideal) x0 i = lo (𝓥 i) := by
  rw [val_main_v379_apply, val_main_v376_apply, t3_lo_v]; exact wrap_lo _ _
theorem t3_i384 (i : S1048576.Idx) : val_main_v384 (F := Ideal) x0 i = hi (𝓤 i) := by
  rw [val_main_v384_apply, val_main_v381_apply, t3_hi_u]; exact wrap_hi _ _
theorem t3_i402 (i : S1048576.Idx) : val_main_v402 (F := Ideal) x0 i = hi (𝓥 i) := by
  rw [val_main_v402_apply, val_main_v399_apply, t3_hi_v]; exact wrap_hi _ _
theorem t3_i407 (i : S1048576.Idx) : val_main_v407 (F := Ideal) x0 i = lo (𝓤 i) := by
  rw [val_main_v407_apply, val_main_v404_apply, t3_lo_u]; exact wrap_lo _ _
theorem t3_i425 (i : S1048576.Idx) : val_main_v425 (F := Ideal) x0 i = hi (𝓥 i) := by
  rw [val_main_v425_apply, val_main_v422_apply, t3_hi_v]; exact wrap_hi _ _
theorem t3_i430 (i : S1048576.Idx) : val_main_v430 (F := Ideal) x0 i = hi (𝓤 i) := by
  rw [val_main_v430_apply, val_main_v427_apply, t3_hi_u]; exact wrap_hi _ _

/-! ### The four entries of the plane -/

theorem t3_g364 (c : Fin 24) (n : Fin 1048576) :
    val_main_v364 (F := Ideal) x0 x3 (ix2 c n) = x3 (ix3 c (cell (lo (𝓥 (ix1 n)))) (cell (lo (𝓤 (ix1 n))))) :=
  (planeLookup x3 (val_main_v355 (F := Ideal) x0) (val_main_v360 (F := Ideal) x0) c n).trans (by rw [t3_i355, t3_i360])
theorem t3_g388 (c : Fin 24) (n : Fin 1048576) :
    val_main_v388 (F := Ideal) x0 x3 (ix2 c n) = x3 (ix3 c (cell (lo (𝓥 (ix1 n)))) (cell (hi (𝓤 (ix1 n))))) :=
  (planeLookup x3 (val_main_v379 (F := Ideal) x0) (val_main_v384 (F := Ideal) x0) c n).trans (by rw [t3_i379, t3_i384])
theorem t3_g411 (c : Fin 24) (n : Fin 1048576) :
    val_main_v411 (F := Ideal) x0 x3 (ix2 c n) = x3 (ix3 c (cell (hi (𝓥 (ix1 n)))) (cell (lo (𝓤 (ix1 n))))) :=
  (planeLookup x3 (val_main_v402 (F := Ideal) x0) (val_main_v407 (F := Ideal) x0) c n).trans (by rw [t3_i402, t3_i407])
theorem t3_g434 (c : Fin 24) (n : Fin 1048576) :
    val_main_v434 (F := Ideal) x0 x3 (ix2 c n) = x3 (ix3 c (cell (hi (𝓥 (ix1 n)))) (cell (hi (𝓤 (ix1 n))))) :=
  (planeLookup x3 (val_main_v425 (F := Ideal) x0) (val_main_v430 (F := Ideal) x0) c n).trans (by rw [t3_i425, t3_i430])

/-! ### The weights of the plane, spread over the channels -/

theorem t3_w368 (c : Fin 24) (n : Fin 1048576) : val_main_v368 (F := Ideal) x0 (ix2 c n) = one - frac (𝓤 (ix1 n)) :=
  rowOf_apply (val_main_v366 (F := Ideal) x0) c n
theorem t3_w373 (c : Fin 24) (n : Fin 1048576) : val_main_v373 (F := Ideal) x0 (ix2 c n) = one - frac (𝓥 (ix1 n)) :=
  rowOf_apply (val_main_v371 (F := Ideal) x0) c n
theorem t3_w390 (c : Fin 24) (n : Fin 1048576) : val_main_v390 (F := Ideal) x0 (ix2 c n) = frac (𝓤 (ix1 n)) :=
  rowOf_apply (val_main_v348 (F := Ideal) x0) c n
theorem t3_w395 (c : Fin 24) (n : Fin 1048576) : val_main_v395 (F := Ideal) x0 (ix2 c n) = one - frac (𝓥 (ix1 n)) :=
  rowOf_apply (val_main_v393 (F := Ideal) x0) c n
theorem t3_w415 (c : Fin 24) (n : Fin 1048576) : val_main_v415 (F := Ideal) x0 (ix2 c n) = one - frac (𝓤 (ix1 n)) :=
  rowOf_apply (val_main_v413 (F := Ideal) x0) c n
theorem t3_w418 (c : Fin 24) (n : Fin 1048576) : val_main_v418 (F := Ideal) x0 (ix2 c n) = frac (𝓥 (ix1 n)) :=
  rowOf_apply (val_main_v350 (F := Ideal) x0) c n
theorem t3_w436 (c : Fin 24) (n : Fin 1048576) : val_main_v436 (F := Ideal) x0 (ix2 c n) = frac (𝓤 (ix1 n)) :=
  rowOf_apply (val_main_v348 (F := Ideal) x0) c n
theorem t3_w439 (c : Fin 24) (n : Fin 1048576) : val_main_v439 (F := Ideal) x0 (ix2 c n) = frac (𝓥 (ix1 n)) :=
  rowOf_apply (val_main_v350 (F := Ideal) x0) c n

/-! ### The plane sample: the four weighted entries added in the program's order -/

theorem t3_plane (c : Fin 24) (n : Fin 1048576) :
    val_main_v441 (F := Ideal) x0 x3 (ix2 c n) = rPlane x3 (𝓤 (ix1 n)) (𝓥 (ix1 n)) c := by
  rw [val_main_v441_apply, val_main_v420_apply, val_main_v397_apply, val_main_v374_apply, val_main_v369_apply,
    val_main_v396_apply, val_main_v391_apply, val_main_v419_apply, val_main_v416_apply, val_main_v440_apply,
    val_main_v437_apply, t3_g364, t3_g388, t3_g411, t3_g434, t3_w368, t3_w373, t3_w390, t3_w395, t3_w415, t3_w418,
    t3_w436, t3_w439]
  rfl

/-! ### The line sample -/

theorem t3_lo_t (i : S1048576.Idx) : val_main_v450 (F := Ideal) x0 i = lo (𝓣 i) := rfl
theorem t3_hi_t (i : S1048576.Idx) : val_main_v453 (F := Ideal) x0 i = hi (𝓣 i) := rfl

theorem t3_i460 (i : S1048576.Idx) : val_main_v460 (F := Ideal) x0 i = lo (𝓣 i) := by
  rw [val_main_v460_apply, val_main_v457_apply, t3_lo_t]; exact wrap_lo _ _
theorem t3_i472 (i : S1048576.Idx) : val_main_v472 (F := Ideal) x0 i = hi (𝓣 i) := by
  rw [val_main_v472_apply, val_main_v469_apply, t3_hi_t]; exact wrap_hi _ _

theorem t3_g462 (c : Fin 24) (n : Fin 1048576) :
    val_main_v462 (F := Ideal) x0 x6 (ix2 c n) = x6 (ix2 c (cell (lo (𝓣 (ix1 n))))) :=
  (lineLookup x6 (val_main_v460 (F := Ideal) x0) c n).trans (by rw [t3_i460])
theorem t3_g474 (c : Fin 24) (n : Fin 1048576) :
    val_main_v474 (F := Ideal) x0 x6 (ix2 c n) = x6 (ix2 c (cell (hi (𝓣 (ix1 n))))) :=
  (lineLookup x6 (val_main_v472 (F := Ideal) x0) c n).trans (by rw [t3_i472])

theorem t3_w466 (c : Fin 24) (n : Fin 1048576) : val_main_v466 (F := Ideal) x0 (ix2 c n) = one - frac (𝓣 (ix1 n)) :=
  rowOf_apply (val_main_v464 (F := Ideal) x0) c n
theorem t3_w476 (c : Fin 24) (n : Fin 1048576) : val_main_v476 (F := Ideal) x0 (ix2 c n) = frac (𝓣 (ix1 n)) :=
  rowOf_apply (val_main_v455 (F := Ideal) x0) c n

theorem t3_line (c : Fin 24) (n : Fin 1048576) :
    val_main_v478 (F := Ideal) x0 x6 (ix2 c n) = rLine x6 (𝓣 (ix1 n)) c := by
  rw [val_main_v478_apply, val_main_v467_apply, val_main_v477_apply, t3_g462, t3_g474, t3_w466, t3_w476]
  rfl

/-! ### The term: the product of the two samples summed over the channels -/

theorem term3_at (n : Fin 1048576) :
    val_main_v480 (F := Ideal) x0 x3 x6 (ix1 n) = rTerm x3 x6 (𝓤 (ix1 n)) (𝓥 (ix1 n)) (𝓣 (ix1 n)) := by
  rw [val_main_v480_apply]
  unfold rTerm
  refine congrArg₂ (· + ·) rfl (Finset.sum_congr rfl fun k _ => ?_)
  have hk : idx_main_v480 (ix1 n) k = ix2 k n :=
    funext fun a => Fin.ext (by match a with | ⟨0, _⟩ => rfl | ⟨1, _⟩ => rfl)
  rw [hk, val_main_v479_apply, t3_plane, t3_line]
  rfl

end

end Cert.TriVM.Ref

end
-- ==== Proof.RefPoint.lean ====
/-
  The reference's value at one output element.

  The output element (i, j) is point number n = 1024 · i + j of the flattened point list; the point's three coordinates
  are the entries (i, j, 0), (i, j, 1), (i, j, 2) of the input.  The reference's last stages add the three terms,
  (term 1 + term 2) + term 3, and lay the vector over the points out as the 1024 × 1024 result.
-/
import proofs.«179513_j69423851372724_2_alg».proof.Proof.RefRead
import proofs.«179513_j69423851372724_2_alg».proof.Proof.Spec
import proofs.«179513_j69423851372724_2_alg».proof.Proof.RefTerm1
import proofs.«179513_j69423851372724_2_alg».proof.Proof.RefTerm2
import proofs.«179513_j69423851372724_2_alg».proof.Proof.RefTerm3

noncomputable section

namespace Cert.TriVM

open Cert.ReferenceIdeal Cert.ReferenceIdeal.Gen Cert.ReferenceIdeal.ReadP Idealize.ShloMosaic Idealize.ShloMosaic.ValueIdx

/-- The number of the point (i, j) in the flattened list of the 1024 × 1024 points. -/
def pointNo (i j : Fin 1024) : Fin 1048576 := ⟨i.val * 1024 + j.val, by have := i.isLt; have := j.isLt; omega⟩

section
variable (x0 : (⟨S1024x1024x3, .f32⟩ : BufTy).Contents (Elt Ideal))

/-- The first coordinate vector (stage 2) at point (i, j) is the input's entry (i, j, 0). -/
theorem coord0_at (i j : Fin 1024) : val_main_v2 (F := Ideal) x0 (ix1 (pointNo i j)) = x0 (ix3 i j (0 : Fin 3)) := by
  rw [val_main_v2_apply, val_main_v1_apply, val_main_v0_apply]
  refine congrArg x0 (funext fun a => Fin.ext ?_)
  have hi := i.isLt
  have hj := j.isLt
  match a with
  | ⟨0, _⟩ => show ((i.val * 1024 + j.val) / 1 * 3 + 0) / 3072 = i.val; omega
  | ⟨1, _⟩ => show ((i.val * 1024 + j.val) / 1 * 3 + 0) / 3 % 1024 = j.val; omega
  | ⟨2, _⟩ => show ((i.val * 1024 + j.val) / 1 * 3 + 0) % 3 = 0; omega

/-- The second coordinate vector (stage 4) at point (i, j) is the input's entry (i, j, 1). -/
theorem coord1_at (i j : Fin 1024) : val_main_v4 (F := Ideal) x0 (ix1 (pointNo i j)) = x0 (ix3 i j (1 : Fin 3)) := by
  rw [val_main_v4_apply, val_main_v3_apply, val_main_v0_apply]
  refine congrArg x0 (funext fun a => Fin.ext ?_)
  have hi := i.isLt
  have hj := j.isLt
  match a with
  | ⟨0, _⟩ => show ((i.val * 1024 + j.val) / 1 * 3 + (1 + 0)) / 3072 = i.val; omega
  | ⟨1, _⟩ => show ((i.val * 1024 + j.val) / 1 * 3 + (1 + 0)) / 3 % 1024 = j.val; omega
  | ⟨2, _⟩ => show ((i.val * 1024 + j.val) / 1 * 3 + (1 + 0)) % 3 = 1; omega

/-- The third coordinate vector (stage 6) at point (i, j) is the input's entry (i, j, 2). -/
theorem coord2_at (i j : Fin 1024) : val_main_v6 (F := Ideal) x0 (ix1 (pointNo i j)) = x0 (ix3 i j (2 : Fin 3)) := by
  rw [val_main_v6_apply, val_main_v5_apply, val_main_v0_apply]
  refine congrArg x0 (funext fun a => Fin.ext ?_)
  have hi := i.isLt
  have hj := j.isLt
  match a with
  | ⟨0, _⟩ => show ((i.val * 1024 + j.val) / 1 * 3 + (2 + 0)) / 3072 = i.val; omega
  | ⟨1, _⟩ => show ((i.val * 1024 + j.val) / 1 * 3 + (2 + 0)) / 3 % 1024 = j.val; omega
  | ⟨2, _⟩ => show ((i.val * 1024 + j.val) / 1 * 3 + (2 + 0)) % 3 = 2; omega

end

/-- THE REFERENCE AT ONE ELEMENT: the three terms of the point (i, j), added in the program's order. -/
theorem ref_point (x0 : (⟨Cert.ReferenceIdeal.S1024x1024x3, .f32⟩ : BufTy).Contents (Elt Ideal))
    (x1 x2 x3 : (⟨Cert.ReferenceIdeal.S24x300x300, .f32⟩ : BufTy).Contents (Elt Ideal))
    (x4 x5 x6 : (⟨Cert.ReferenceIdeal.S24x300, .f32⟩ : BufTy).Contents (Elt Ideal)) (i j : Fin 1024) :
    Cert.ReferenceIdeal.ReadP.val_main_v483 (F := Ideal) x0 x1 x2 x3 x4 x5 x6 (ix2 i j)
      = Cert.TriVM.rOut (x0 (ix3 i j 0)) (x0 (ix3 i j 1)) (x0 (ix3 i j 2)) x1 x2 x3 x4 x5 x6 := by
  have hn : idx_main_v483 (ix2 i j) = ix1 (pointNo i j) :=
    funext fun a => Fin.ext (by match a with | ⟨0, _⟩ => rfl)
  rw [val_main_v483_apply, hn, val_main_v482_apply, val_main_v481_apply, Ref.term1_at, Ref.term2_at, Ref.term3_at,
    coord0_at, coord1_at, coord2_at]
  rfl

end Cert.TriVM

end
-- ==== Proof.KDefs.lean ====
/-
  The operation tree of one grid point's arithmetic, cut into the pieces the computation repeats, over any float
  values.

  A point block holds 1024 points of three coordinates. From one coordinate column `t` the computation forms the grid
  position `(t + 1) · ½ · 299`, its floor as a signed word clamped to 0 … 299 (`loV`), the next cell clamped again
  (`hiV`), the fractional weight (`frV`), and from these the 300 × 1024 weight matrix `wmat t`: row `g`, column `n`
  holds `1 − frac` where `g` is the lower cell of point `n`, plus `frac` where `g` is the upper cell, zero elsewhere.

  A product of a table with a weight matrix is taken three times and summed (`mm3P` for a 1200 × 300 table, `mm3L`
  for a 24 × 300 one): the plain product, the product with the weight matrix replaced by its difference with itself,
  and the product with the table so replaced. A plane table is read four channels at a time (`chunk`): the four
  channels' rows laid under each other, multiplied by the column weights, viewed again as channel × row × point,
  multiplied by the row weights and summed over the rows. Six chunks laid under each other are a plane's 24 channels
  (`plane`). One output term multiplies a plane's 24 × 1024 values with a line table's and sums over the channels
  (`term`); the output adds the three terms (`outV`).
-/
import proofs.«179513_j69423851372724_2_alg».proof.Proof.Gen.KernelIdeal

noncomputable section

namespace Cert.TriVM.K

open Idealize.ShloMosaic Cert.KernelIdeal Cert.KernelIdeal.Gen

variable {F : FTy → Type} [FloatOps F]

/-- The three coordinate columns of a block of points. -/
def col0 (v0 : Vec F S1024x3 .f32) : FVec F S1024 .f32 :=
  shapeCast S1024 (extractStridedSlice S1024x1 ![0, 0] (shapeCast S1024x3 v0 shapeCasts_S1024x3_S1024x3)
    slices_S1024x3_o0_0_S1024x1) shapeCasts_S1024x1_S1024
def col1 (v0 : Vec F S1024x3 .f32) : FVec F S1024 .f32 :=
  shapeCast S1024 (extractStridedSlice S1024x1 ![0, 1] (shapeCast S1024x3 v0 shapeCasts_S1024x3_S1024x3)
    slices_S1024x3_o0_1_S1024x1) shapeCasts_S1024x1_S1024
def col2 (v0 : Vec F S1024x3 .f32) : FVec F S1024 .f32 :=
  shapeCast S1024 (extractStridedSlice S1024x1 ![0, 2] (shapeCast S1024x3 v0 shapeCasts_S1024x3_S1024x3)
    slices_S1024x3_o0_2_S1024x1) shapeCasts_S1024x1_S1024

/-- The grid position of every point's coordinate: `(t + 1) · ½ · 299`. -/
def posV (t : FVec F S1024 .f32) : FVec F S1024 .f32 :=
  mulf (mulf (addf t (broadcast S1024 (Scalar.ofBits .f32 0x3F800000#32 : F .f32)))
      (broadcast S1024 (Scalar.ofBits .f32 0x3F000000#32 : F .f32)))
    (broadcast S1024 (Scalar.ofBits .f32 0x43958000#32 : F .f32))

/-- The lower cell: the floor of the position as a signed word, clamped to 0 … 299. -/
def loV (t : FVec F S1024 .f32) : IVec S1024 32 :=
  minsi (broadcast S1024 299#32) (maxsi (broadcast S1024 0#32) (fptosi 32 (floor (posV t))))

/-- The upper cell: the lower cell plus one, clamped again. -/
def hiV (t : FVec F S1024 .f32) : IVec S1024 32 :=
  minsi (broadcast S1024 299#32) (maxsi (broadcast S1024 0#32) (addi (loV t) (broadcast S1024 1#32)))

/-- The weight of the upper cell: the position less the lower cell. -/
def frV (t : FVec F S1024 .f32) : FVec F S1024 .f32 := subf (posV t) (sitofp .f32 (loV t))

/-- The weight matrix of a coordinate column. -/
def wmat (t : FVec F S1024 .f32) : FVec F S300x1024 .f32 :=
  addf
    (select
      (cmpi .eq (iota .tc S300x1024 32 [0] iota_S300x1024_d0_w32)
        (broadcastTo S300x1024 (shapeCast S1x1024 (loV t) shapeCasts_S1024_S1x1024) broadcasts_S1x1024_S300x1024))
      (broadcastTo S300x1024
        (shapeCast S1x1024
          (subf (broadcast S1x1024 (Scalar.ofBits .f32 0x3F800000#32 : F .f32))
            (shapeCast S1x1024 (frV t) shapeCasts_S1024_S1x1024))
          shapeCasts_S1x1024_S1x1024)
        broadcasts_S1x1024_S300x1024)
      (broadcast S300x1024 (Scalar.ofBits .f32 0x00000000#32 : F .f32)))
    (select
      (cmpi .eq (iota .tc S300x1024 32 [0] iota_S300x1024_d0_w32)
        (broadcastTo S300x1024 (shapeCast S1x1024 (hiV t) shapeCasts_S1024_S1x1024) broadcasts_S1x1024_S300x1024))
      (broadcastTo S300x1024
        (shapeCast S1x1024 (shapeCast S1x1024 (frV t) shapeCasts_S1024_S1x1024) shapeCasts_S1x1024_S1x1024)
        broadcasts_S1x1024_S300x1024)
      (broadcast S300x1024 (Scalar.ofBits .f32 0x00000000#32 : F .f32)))

/-- The product of a 1200 × 300 table with a weight matrix, taken three times. -/
def mm3P (a : FVec F S1200x300 .f32) (w : FVec F S300x1024 .f32) : FVec F S1200x1024 .f32 :=
  addf
    (addf
      (matmul dot_S1200x300_S300x1024_S1200x1024_1_0_0_1_n_n none (truncf .bf16 a bitsLt_bf16_f32)
        (truncf .bf16 w bitsLt_bf16_f32) (constant S1200x1024 .f32 0x00000000#32))
      (matmul dot_S1200x300_S300x1024_S1200x1024_1_0_0_1_n_n none (truncf .bf16 a bitsLt_bf16_f32)
        (truncf .bf16 (subf w w) bitsLt_bf16_f32) (constant S1200x1024 .f32 0x00000000#32)))
    (matmul dot_S1200x300_S300x1024_S1200x1024_1_0_0_1_n_n none (truncf .bf16 (subf a a) bitsLt_bf16_f32)
      (truncf .bf16 w bitsLt_bf16_f32) (constant S1200x1024 .f32 0x00000000#32))

/-- The product of a 24 × 300 table with a weight matrix, taken three times. -/
def mm3L (a : Vec F S24x300 .f32) (w : FVec F S300x1024 .f32) : FVec F S24x1024 .f32 :=
  addf
    (addf
      (matmul dot_S24x300_S300x1024_S24x1024_1_0_0_1_n_n none (truncf .bf16 a bitsLt_bf16_f32)
        (truncf .bf16 w bitsLt_bf16_f32) (constant S24x1024 .f32 0x00000000#32))
      (matmul dot_S24x300_S300x1024_S24x1024_1_0_0_1_n_n none (truncf .bf16 a bitsLt_bf16_f32)
        (truncf .bf16 (subf w w) bitsLt_bf16_f32) (constant S24x1024 .f32 0x00000000#32)))
    (matmul dot_S24x300_S300x1024_S24x1024_1_0_0_1_n_n none (truncf .bf16 (subf a a) bitsLt_bf16_f32)
      (truncf .bf16 w bitsLt_bf16_f32) (constant S24x1024 .f32 0x00000000#32))

/-- Four channels of a plane table: column weights `ww`, row weights `hw`. -/
def chunk (ww hw : FVec F S300x1024 .f32) (blk : Vec F S4x300x300 .f32) : FVec F S4x1024 .f32 :=
  multiReduction .add [1] S4x1024
    (mulf
      (shapeCast S4x300x1024 (mm3P (shapeCast S1200x300 blk shapeCasts_S4x300x300_S1200x300) ww)
        shapeCasts_S1200x1024_S4x300x1024)
      (broadcastTo S4x300x1024 (shapeCast S1x300x1024 hw shapeCasts_S300x1024_S1x300x1024)
        broadcasts_S1x300x1024_S4x300x1024))
    0x00000000#32 reduces_S4x300x1024_S4x1024 (.inl rfl) rfl

/-- The 24 channels of a plane table, from its six blocks of four channels. -/
def plane (ww hw : FVec F S300x1024 .f32) (b0 b1 b2 b3 b4 b5 : Vec F S4x300x300 .f32) : FVec F S24x1024 .f32 :=
  concatenate S24x1024 0
    [⟨S4x1024, chunk ww hw b0⟩, ⟨S4x1024, chunk ww hw b1⟩, ⟨S4x1024, chunk ww hw b2⟩, ⟨S4x1024, chunk ww hw b3⟩,
      ⟨S4x1024, chunk ww hw b4⟩, ⟨S4x1024, chunk ww hw b5⟩]
    concatenates_S4x1024_S4x1024_S4x1024_S4x1024_S4x1024_S4x1024_S24x1024_d0

/-- One output term: plane values times line values, summed over the channels. -/
def term (pl ln : FVec F S24x1024 .f32) : FVec F S1024 .f32 :=
  multiReduction .add [0] S1024 (mulf pl ln) 0x00000000#32 reduces_S24x1024_S1024 (.inl rfl) rfl

/-- The output block of one grid point from the block of points, the three plane tables' blocks and the three line
    tables. -/
def outV (v0 : Vec F S1024x3 .f32)
    (p0 p1 p2 p3 p4 p5 q0 q1 q2 q3 q4 q5 r0 r1 r2 r3 r4 r5 : Vec F S4x300x300 .f32)
    (l1 l2 l3 : Vec F S24x300 .f32) : FVec F S1024 .f32 :=
  addf
    (addf
      (term (plane (wmat (col0 v0)) (wmat (col1 v0)) p0 p1 p2 p3 p4 p5) (mm3L l1 (wmat (col2 v0))))
      (term (plane (wmat (col0 v0)) (wmat (col2 v0)) q0 q1 q2 q3 q4 q5) (mm3L l2 (wmat (col1 v0)))))
    (term (plane (wmat (col1 v0)) (wmat (col2 v0)) r0 r1 r2 r3 r4 r5) (mm3L l3 (wmat (col0 v0))))

end Cert.TriVM.K

end
-- ==== Proof.KSkel.lean ====
/-
  Every piece of the generated body is one of the repeated pieces: the body cuts the same arithmetic at different
  places (a weight matrix built in one piece or in five, a four-channel chunk built in one piece, in two, or from
  operands prepared earlier), and each cut, put back together, is the same operation tree. All by unfolding.
-/
import proofs.«179513_j69423851372724_2_alg».proof.Proof.KDefs
import proofs.«179513_j69423851372724_2_alg».proof.Proof.Gen.KernelIdeal.Skeleton

noncomputable section

namespace Cert.TriVM.K

open Idealize.ShloMosaic Cert.KernelIdeal Cert.KernelIdeal.Gen

variable {F : FTy → Type} [FloatOps F]

/-! ## The columns and the weight matrices -/

theorem pay3_eq (v0 : Vec F S1024x3 .f32) : k0_pay3 v0 = col1 v0 := rfl
theorem pay4_eq (v0 : Vec F S1024x3 .f32) : k0_pay4 v0 = col2 v0 := rfl

/-- The first column's weight matrix, built from five pieces. -/
theorem pay12_eq (v0 : Vec F S1024x3 .f32) :
    k0_pay12 (k0_pay8 v0) (k0_pay9 v0) (k0_pay10 v0) (k0_pay11 (F := F)) = wmat (col0 v0) := rfl

/-- The second column's, built in one piece. -/
theorem pay13_eq (t : FVec F S1024 .f32) : k0_pay13 t = wmat t := rfl

/-- The third column's, built in two pieces with the last factor passed in. -/
theorem pay15_eq (t : FVec F S1024 .f32) :
    k0_pay15 (k0_pay14 t) (Scalar.ofBits .f32 0x43958000#32) = wmat t := rfl

/-! ## The four-channel chunks -/

variable (ww hw : FVec F S300x1024 .f32) (blk : Vec F S4x300x300 .f32)

theorem pay22_eq :
    k0_pay22 hw (k0_pay17 blk) (k0_pay18 blk) (k0_pay19 ww) (k0_pay20 ww) (k0_pay21 ww blk)
      (constant S1200x1024 .f32 0x00000000#32) = chunk ww hw blk := rfl
theorem pay23_eq : k0_pay23 ww hw blk = chunk ww hw blk := rfl
theorem pay25_eq : k0_pay25 hw (k0_pay24 ww blk) = chunk ww hw blk := rfl
theorem pay26_eq : k0_pay26 ww hw blk = chunk ww hw blk := rfl
theorem pay27_eq : k0_pay27 ww hw blk = chunk ww hw blk := rfl
theorem pay29_eq : k0_pay29 ww hw blk = chunk ww hw blk := rfl
theorem pay32_eq : k0_pay32 ww hw (k0_pay30 blk) (k0_pay31 blk) = chunk ww hw blk := rfl
theorem pay33_eq : k0_pay33 ww hw blk = chunk ww hw blk := rfl
theorem pay39_eq :
    k0_pay39 hw (k0_pay35 blk) (k0_pay36 blk) (k0_pay37 ww) (k0_pay38 ww) = chunk ww hw blk := rfl
theorem pay40_eq : k0_pay40 ww hw blk = chunk ww hw blk := rfl
theorem pay46_eq : k0_pay46 ww hw blk = chunk ww hw blk := rfl
theorem pay49_eq : k0_pay49 (k0_pay47 ww blk) (k0_pay48 hw) = chunk ww hw blk := rfl
theorem pay50_eq : k0_pay50 ww hw blk = chunk ww hw blk := rfl
theorem pay51_eq : k0_pay51 ww hw blk = chunk ww hw blk := rfl

/-! ## The planes: six chunks laid under each other, the last ones built inside the concatenating piece -/

theorem pay28_eq (b0 b1 b2 b3 b4 b5 : Vec F S4x300x300 .f32) :
    k0_pay28 ww hw (chunk ww hw b0) (chunk ww hw b1) (chunk ww hw b2) (chunk ww hw b3) (chunk ww hw b4) b5
      = plane ww hw b0 b1 b2 b3 b4 b5 := rfl

theorem pay45_eq (b0 b1 b2 b3 b4 b5 : Vec F S4x300x300 .f32) :
    k0_pay45 hw (chunk ww hw b0) (chunk ww hw b1) (chunk ww hw b2) (chunk ww hw b3) (chunk ww hw b4)
        (k0_pay42 b5) (k0_pay43 ww) (k0_pay44 ww b5)
      = plane ww hw b0 b1 b2 b3 b4 b5 := rfl

theorem pay52_eq (b0 b1 b2 b3 b4 b5 : Vec F S4x300x300 .f32) :
    k0_pay52 ww hw (chunk ww hw b0) (chunk ww hw b1) (chunk ww hw b2) (chunk ww hw b3) b4 b5
      = plane ww hw b0 b1 b2 b3 b4 b5 := rfl

/-! ## The three terms and their sum -/

/-- The third term. -/
theorem pay55_eq (w : FVec F S300x1024 .f32) (pl : FVec F S24x1024 .f32) (l : Vec F S24x300 .f32) :
    k0_pay55 w pl l = term pl (mm3L l w) := rfl

/-- The first two terms, added. -/
theorem pay56_eq (w1 w2 : FVec F S300x1024 .f32) (pl1 pl2 : FVec F S24x1024 .f32) (l1 l2 : Vec F S24x300 .f32) :
    k0_pay56 w1 w2 pl1 pl2 (k0_pay53 l1) (k0_pay54 l1) l2
      = addf (term pl1 (mm3L l1 w2)) (term pl2 (mm3L l2 w1)) := rfl

/-- The last addition. -/
theorem pay1_eq (a b : FVec F S1024 .f32) : k0_pay1 a b = addf b a := rfl

end Cert.TriVM.K

end
-- ==== Proof.KOut.lean ====
/-
  What the body leaves in the output block is the clean output function of the loaded blocks: the generated term
  names the same pieces many times over, and each is rewritten to its clean form.
-/
import proofs.«179513_j69423851372724_2_alg».proof.Proof.KSkel
import proofs.«179513_j69423851372724_2_alg».proof.Proof.Gen.KernelIdeal.Frame

noncomputable section

namespace Cert.TriVM.K

open Idealize.ShloMosaic Cert.KernelIdeal Cert.KernelIdeal.Gen

variable {F : FTy → Type} [FloatOps F]

theorem out0_7_eq (x0 : Vec F S1024x3 .f32) (x1 x2 x3 : Vec F S24x300x300 .f32) (x4 x5 x6 : Vec F S24x300 .f32) :
    out0_7 x0 x1 x2 x3 x4 x5 x6
      = View.canon [⟨r0_8, outV (View.ld x0 r0_0)
          (View.ld x1 r0_1) (View.ld x1 r0_2) (View.ld x1 r0_3) (View.ld x1 r0_4) (View.ld x1 r0_5) (View.ld x1 r0_6)
          (View.ld x2 r0_1) (View.ld x2 r0_2) (View.ld x2 r0_3) (View.ld x2 r0_4) (View.ld x2 r0_5) (View.ld x2 r0_6)
          (View.ld x3 r0_1) (View.ld x3 r0_2) (View.ld x3 r0_3) (View.ld x3 r0_4) (View.ld x3 r0_5) (View.ld x3 r0_6)
          (View.ld x4 r0_7) (View.ld x5 r0_7) (View.ld x6 r0_7)⟩] := by
  unfold out0_7
  simp only [pay3_eq, pay4_eq, pay12_eq, pay13_eq, pay15_eq, pay22_eq, pay23_eq, pay25_eq, pay26_eq, pay27_eq, pay29_eq,
    pay32_eq, pay33_eq, pay39_eq, pay40_eq, pay46_eq, pay49_eq, pay50_eq, pay51_eq, pay28_eq, pay45_eq, pay52_eq,
    pay55_eq, pay56_eq, pay1_eq]
  rfl

end Cert.TriVM.K

end
-- ==== Proof.KWeights.lean ====
/-
  The columns of the points and the weight matrix of a column, read at one entry on the extended reals.

  Column `j` of the block of points at point `n` is the entry `(n, j)`. The weight matrix of a column `t` at row `g`
  and point `n` is the weight `oh (t n) g` of cell `g` for the coordinate `t n`: `1 − frac` if `g` is the lower cell,
  plus `frac` if `g` is the upper cell. Every operation involved acts entry by entry, except the row counter (which
  reads its row number), the one-row broadcasts (which read their one row) and the casts between a vector and a
  one-row matrix (which keep the position).
-/
import proofs.«179513_j69423851372724_2_alg».proof.Proof.KDefs
import proofs.«179513_j69423851372724_2_alg».proof.Proof.Spec
import Idealize.ShloMosaic.Lib.ValueLayout

noncomputable section

namespace Cert.TriVM.K

open Idealize.ShloMosaic Idealize.ShloMosaic.ValueIdx Cert.KernelIdeal Cert.KernelIdeal.Gen

/-! ## The columns -/

/-- A [1024, 1] column cast to a vector keeps its entries. -/
theorem colCast_apply (v : FVec Ideal S1024x1 .f32) (n : Fin 1024) :
    shapeCast S1024 v shapeCasts_S1024x1_S1024 (ix1 n) = v (ix2 n (0 : Fin 1)) :=
  shapeCast_apply v _ (ix1 n) (ix2 n (0 : Fin 1)) (by
    rw [Shape.rowMajor_val_two, Shape.rowMajor_val_one]
    show n.val * 1 + 0 = n.val
    omega)

theorem col0_apply (v0 : Vec Ideal S1024x3 .f32) (n : Fin 1024) : col0 v0 (ix1 n) = v0 (ix2 n (0 : Fin 3)) := by
  unfold col0
  rw [colCast_apply, shapeCast_self]
  exact slice2_axis1_apply 0 v0 _ n (0 : Fin 1) (0 : Fin 3) rfl

theorem col1_apply (v0 : Vec Ideal S1024x3 .f32) (n : Fin 1024) : col1 v0 (ix1 n) = v0 (ix2 n (1 : Fin 3)) := by
  unfold col1
  rw [colCast_apply, shapeCast_self]
  exact slice2_axis1_apply 1 v0 _ n (0 : Fin 1) (1 : Fin 3) rfl

theorem col2_apply (v0 : Vec Ideal S1024x3 .f32) (n : Fin 1024) : col2 v0 (ix1 n) = v0 (ix2 n (2 : Fin 3)) := by
  unfold col2
  rw [colCast_apply, shapeCast_self]
  exact slice2_axis1_apply 2 v0 _ n (0 : Fin 1) (2 : Fin 3) rfl

/-! ## Position, cells and fraction: entry by entry -/

variable (t : FVec Ideal S1024 .f32) (n : Fin 1024)

theorem posV_apply : posV t (ix1 n) = pos (t (ix1 n)) := rfl
theorem loV_apply : loV t (ix1 n) = lo (t (ix1 n)) := rfl
theorem hiV_apply : hiV t (ix1 n) = hi (t (ix1 n)) := rfl
theorem frV_apply : frV t (ix1 n) = frac (t (ix1 n)) := rfl

/-! ## The weight matrix -/

theorem wmat_apply (g : Fin 300) : wmat t (ix2 g n) = oh (t (ix1 n)) g := by
  have hI : iota .tc S300x1024 32 [0] iota_S300x1024_d0_w32 (ix2 g n) = BitVec.ofNat 32 g.val :=
    iota_single_apply _ _ _ _ _ _
  have hB : ∀ {α : Type} (v : S1x1024.Idx → α),
      broadcastTo S300x1024 v broadcasts_S1x1024_S300x1024 (ix2 g n) = v (ix2 (0 : Fin 1) n) :=
    fun v => broadcastTo_1b_ab_apply v _ g n
  have hC : ∀ {α : Type} (x : S1024.Idx → α),
      shapeCast S1x1024 x shapeCasts_S1024_S1x1024 (ix2 (0 : Fin 1) n) = x (ix1 n) :=
    fun x => shapeCast_a_1a_apply x _ 0 n
  unfold wmat
  rw [addf_apply, select_apply, select_apply]
  show Scalar.select
        (IntOp.cmpi .eq (iota .tc S300x1024 32 [0] iota_S300x1024_d0_w32 (ix2 g n))
          (broadcastTo S300x1024 (shapeCast S1x1024 (loV t) shapeCasts_S1024_S1x1024) broadcasts_S1x1024_S300x1024
            (ix2 g n)))
        (broadcastTo S300x1024
          (shapeCast S1x1024
            (subf (broadcast S1x1024 (Scalar.ofBits .f32 0x3F800000#32 : Ideal .f32))
              (shapeCast S1x1024 (frV t) shapeCasts_S1024_S1x1024))
            shapeCasts_S1x1024_S1x1024)
          broadcasts_S1x1024_S300x1024 (ix2 g n))
        (Scalar.ofBits .f32 0x00000000#32 : Ideal .f32)
      + Scalar.select
        (IntOp.cmpi .eq (iota .tc S300x1024 32 [0] iota_S300x1024_d0_w32 (ix2 g n))
          (broadcastTo S300x1024 (shapeCast S1x1024 (hiV t) shapeCasts_S1024_S1x1024) broadcasts_S1x1024_S300x1024
            (ix2 g n)))
        (broadcastTo S300x1024
          (shapeCast S1x1024 (shapeCast S1x1024 (frV t) shapeCasts_S1024_S1x1024) shapeCasts_S1x1024_S1x1024)
          broadcasts_S1x1024_S300x1024 (ix2 g n))
        (Scalar.ofBits .f32 0x00000000#32 : Ideal .f32)
      = oh (t (ix1 n)) g
  rw [hI, hB, hB, hB, hB, shapeCast_self, shapeCast_self, subf_apply, hC, hC, hC]
  rfl

end Cert.TriVM.K

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.LibColReduce.lean ====
/-
  Reductions down the rows of a matrix, read at one column on the extended reals. For an [R, C] matrix reduced along
  its first axis, the sum at column n is the sum over the rows of the entries of that column, and the maximum at
  column n is the fold of max, from the starting word's value, over the rows of the entries of that column. Both hold
  at any extents R and C; the indices are written by coordinates so that a caller meets no hidden index arithmetic.
-/
import Idealize.ShloMosaic.PureOps.Ideal.Laws
import Idealize.ShloMosaic.Lib.ValueIdx

noncomputable section

open scoped BigOperators

namespace Cert.Lib

open Idealize.ShloMosaic Idealize.ShloMosaic.ValueIdx

/-- A sum down the rows of an [R, C] matrix, at column n, is the sum over the rows of the entries of that column. -/
theorem colAdd_apply {R C : Nat} (src : FVec Ideal ⟨2, ![R, C]⟩ .f32)
    (h : Shape.Reduces (⟨2, ![R, C]⟩ : Shape) [0] ⟨1, ![C]⟩) (hφ : FKind.Formats .f32)
    (hacc : (0x00000000#32 : BitVec 32) = FKind.add.neutral .f32 hφ) (n : Fin C) :
    multiReduction .add [0] ⟨1, ![C]⟩ src 0x00000000#32 h hφ hacc (ix1 n) = ∑ a : Fin R, src (ix2 a n) :=
  (Ideal.multiReduction_add_single src _ h hφ hacc (ix1 n)).trans
    (Finset.sum_congr rfl fun a _ => congrArg src (funext fun d => Fin.ext (by
      match d with
      | ⟨0, _⟩ => rfl
      | ⟨1, _⟩ => rfl)))

/-- A maximum down the rows of an [R, C] matrix, at column n, is the fold of max, from the starting word's value, over
    the rows of the entries of that column. -/
theorem colMax_apply {R C : Nat} (src : FVec Ideal ⟨2, ![R, C]⟩ .f32) (acc : BitVec 32)
    (h : Shape.Reduces (⟨2, ![R, C]⟩ : Shape) [0] ⟨1, ![C]⟩) (hφ : FKind.Formats .f32)
    (hacc : acc = FKind.maximumf.neutral .f32 hφ) (n : Fin C) :
    multiReduction .maximumf [0] ⟨1, ![C]⟩ src acc h hφ hacc (ix1 n)
      = (Finset.univ : Finset (Fin R)).fold max (Ideal.ofBits .f32 acc) (fun a => src (ix2 a n)) :=
  (Ideal.multiReduction_maximumf_single src acc h hφ hacc (ix1 n)).trans
    (congrArg (fun f => Finset.fold max (Ideal.ofBits .f32 acc) f (Finset.univ : Finset (Fin R)))
      (funext fun a => congrArg src (funext fun d => Fin.ext (by
        match d with
        | ⟨0, _⟩ => rfl
        | ⟨1, _⟩ => rfl))))

end Cert.Lib

end
-- ==== Proof.KProducts.lean ====
/-
  The three-fold products, one output term and the channel sum, read at one entry on the extended reals.

  A matrix product into the zero matrix at entry (p, n) is the sum over the 300 contracted positions of the products
  of the entries (p, k) and (k, n); a change of float format is the identity on the extended reals. So the three-fold
  product of a table `a` with a weight matrix `w` at (p, n) is `dot3` of row `p` of `a` and column `n` of `w`. A sum down
  the 24 channels at point `n` is the sum over the channels of the entries (c, n).
-/
import proofs.«179513_j69423851372724_2_alg».proof.Proof.KDefs
import proofs.«179513_j69423851372724_2_alg».proof.Proof.Spec
import proofs.«179513_j69423851372724_2_alg».proof.Proof.LibMatmulZero
import proofs.«179513_j69423851372724_2_alg».proof.Proof.LibColReduce

noncomputable section

namespace Cert.TriVM.K

open Idealize.ShloMosaic Idealize.ShloMosaic.ValueIdx Cert.KernelIdeal Cert.KernelIdeal.Gen

/-- The dimension numbers of the plane products and of the line products. -/
abbrev DP : DotDims S1200x300 S300x1024 S1200x1024 := dot_S1200x300_S300x1024_S1200x1024_1_0_0_1_n_n
abbrev DL : DotDims S24x300 S300x1024 S24x1024 := dot_S24x300_S300x1024_S24x1024_1_0_0_1_n_n

/-- The result's row is the left operand's row, its column the right operand's column. -/
theorem DP_l0 (i : S1200x1024.Idx) (c : DP.contr.Idx) : (DP.lhsIdx i c 0).val = (i 0).val := by
  unfold DotDims.lhsIdx
  rw [dif_neg (show ¬(0 : Fin _) ∈ DP.lhsBatch by decide), dif_pos (show (0 : Fin _) ∈ DP.lhsNonContracting by decide)]
  rfl
theorem DP_r1 (i : S1200x1024.Idx) (c : DP.contr.Idx) : (DP.rhsIdx i c 1).val = (i 1).val := by
  unfold DotDims.rhsIdx
  rw [dif_neg (show ¬(1 : Fin _) ∈ DP.rhsBatch by decide), dif_pos (show (1 : Fin _) ∈ DP.rhsNonContracting by decide)]
  rfl
theorem DL_l0 (i : S24x1024.Idx) (c : DL.contr.Idx) : (DL.lhsIdx i c 0).val = (i 0).val := by
  unfold DotDims.lhsIdx
  rw [dif_neg (show ¬(0 : Fin _) ∈ DL.lhsBatch by decide), dif_pos (show (0 : Fin _) ∈ DL.lhsNonContracting by decide)]
  rfl
theorem DL_r1 (i : S24x1024.Idx) (c : DL.contr.Idx) : (DL.rhsIdx i c 1).val = (i 1).val := by
  unfold DotDims.rhsIdx
  rw [dif_neg (show ¬(1 : Fin _) ∈ DL.rhsBatch by decide), dif_pos (show (1 : Fin _) ∈ DL.rhsNonContracting by decide)]
  rfl

/-- The three-fold product of a 1200 × 300 table with a weight matrix, at one entry. -/
theorem mm3P_apply (a : FVec Ideal S1200x300 .f32) (w : FVec Ideal S300x1024 .f32) (p : Fin 1200) (n : Fin 1024) :
    mm3P a w (ix2 p n) = dot3 (fun k : Fin 300 => a (ix2 p k)) (fun k : Fin 300 => w (ix2 k n)) := by
  have e := fun (l : FVec Ideal S1200x300 .bf16) (r : FVec Ideal S300x1024 .bf16) =>
    Cert.LibMatmulZero.matmul_zero_ix2 DP rfl rfl rfl rfl DP_l0 DP_r1 none l r p n
  unfold mm3P
  rw [addf_apply, addf_apply, e, e, e]
  rfl

/-- The three-fold product of a 24 × 300 table with a weight matrix, at one entry. -/
theorem mm3L_apply (a : Vec Ideal S24x300 .f32) (w : FVec Ideal S300x1024 .f32) (c : Fin 24) (n : Fin 1024) :
    mm3L a w (ix2 c n) = dot3 (fun k : Fin 300 => a (ix2 c k)) (fun k : Fin 300 => w (ix2 k n)) := by
  have e := fun (l : FVec Ideal S24x300 .bf16) (r : FVec Ideal S300x1024 .bf16) =>
    Cert.LibMatmulZero.matmul_zero_ix2 DL rfl rfl rfl rfl DL_l0 DL_r1 none l r c n
  unfold mm3L
  rw [addf_apply, addf_apply, e, e, e]
  rfl

/-- One output term at a point: the sum over the channels of plane value times line value. -/
theorem term_apply (pl ln : FVec Ideal S24x1024 .f32) (n : Fin 1024) :
    term pl ln (ix1 n) = ∑ c : Fin 24, pl (ix2 c n) * ln (ix2 c n) := by
  unfold term
  exact Cert.Lib.colAdd_apply (mulf pl ln) _ _ _ n

end Cert.TriVM.K

end
-- ==== Proof.KChunk.lean ====
/-
  A four-channel chunk and a plane's 24 channels, read at one entry on the extended reals.

  The four channels' rows lie under each other: row `c · 300 + h` of the 1200 × 300 table is row `h` of channel `c`, and
  the same for the 1200 × 1024 product viewed as channel × row × point. The row weights are one 300 × 1024 matrix
  shared by the four channels. The sum over the middle axis is the sum over the 300 rows. So the chunk at channel `c`
  and point `n` is the sum over the rows `h` of (the three-fold product of row `h` of channel `c` with column `n` of the
  column weights) times the row weight at (h, n).

  Six chunks lie under each other in the plane: channel `4 · j + c` of the plane is channel `c` of chunk `j`.
-/
import proofs.«179513_j69423851372724_2_alg».proof.Proof.KProducts
import Idealize.ShloMosaic.Lib.ValueLayout

noncomputable section

namespace Cert.TriVM.K

open Idealize.ShloMosaic Idealize.ShloMosaic.ValueIdx Cert.KernelIdeal Cert.KernelIdeal.Gen

/-- A block of four channels laid out as 1200 rows: row `c · 300 + h` is row `h` of channel `c`. -/
theorem rows_apply (blk : Vec Ideal S4x300x300 .f32) (c : Fin 4) (h : Fin 300) (k : Fin 300) :
    shapeCast S1200x300 blk shapeCasts_S4x300x300_S1200x300 (ix2 (⟨c.val * 300 + h.val, by omega⟩ : Fin 1200) k)
      = blk (ix3 c h k) :=
  shapeCast_apply blk _ _ (ix3 c h k) (by
    rw [Shape.rowMajor_val_three, Shape.rowMajor_val_two]
    show (c.val * 300 + h.val) * 300 + k.val = (c.val * 300 + h.val) * 300 + k.val
    rfl)

/-- The 1200 × 1024 product viewed as channel × row × point. -/
theorem unrows_apply (m : FVec Ideal S1200x1024 .f32) (c : Fin 4) (h : Fin 300) (n : Fin 1024) :
    shapeCast S4x300x1024 m shapeCasts_S1200x1024_S4x300x1024 (ix3 c h n)
      = m (ix2 (⟨c.val * 300 + h.val, by omega⟩ : Fin 1200) n) :=
  shapeCast_apply m _ (ix3 c h n) _ (by
    rw [Shape.rowMajor_val_three, Shape.rowMajor_val_two]
    show (c.val * 300 + h.val) * 1024 + n.val = (c.val * 300 + h.val) * 1024 + n.val
    rfl)

/-- The row weights shared by the four channels. -/
theorem shared_apply (hw : FVec Ideal S300x1024 .f32) (c : Fin 4) (h : Fin 300) (n : Fin 1024) :
    broadcastTo S4x300x1024 (shapeCast S1x300x1024 hw shapeCasts_S300x1024_S1x300x1024)
        broadcasts_S1x300x1024_S4x300x1024 (ix3 c h n) = hw (ix2 h n) := by
  refine (broadcastTo_apply _ _ (ix3 c h n) (ix3 (0 : Fin 1) h n) fun ax => ?_).trans
    (shapeCast_ab_1ab_apply hw _ 0 h n)
  match ax with
  | ⟨0, _⟩ => rfl
  | ⟨1, _⟩ => rfl
  | ⟨2, _⟩ => rfl

/-- A chunk at channel `c` and point `n`. -/
theorem chunk_apply (ww hw : FVec Ideal S300x1024 .f32) (blk : Vec Ideal S4x300x300 .f32) (c : Fin 4) (n : Fin 1024) :
    chunk ww hw blk (ix2 c n)
      = ∑ h : Fin 300, dot3 (fun k : Fin 300 => blk (ix3 c h k)) (fun k : Fin 300 => ww (ix2 k n)) * hw (ix2 h n) := by
  unfold chunk
  refine (Ideal.multiReduction_add_single _ _ reduces_S4x300x1024_S4x1024 _ _ (ix2 c n)).trans ?_
  refine Finset.sum_congr rfl fun (h : Fin 300) _ => ?_
  have hidx : reduces_S4x300x1024_S4x1024.lift (ix2 c n) h = ix3 c h n :=
    funext fun d => Fin.ext (by
      match d with
      | ⟨0, _⟩ => rfl
      | ⟨1, _⟩ => rfl
      | ⟨2, _⟩ => rfl)
  rw [hidx, mulf_apply, unrows_apply, shared_apply, mm3P_apply]
  congr 2
  funext k
  exact rows_apply blk c h k

/-- One of six things, by number. -/
def pick6 {α : Type} (a0 a1 a2 a3 a4 a5 : α) : Fin 6 → α
  | 0 => a0 | 1 => a1 | 2 => a2 | 3 => a3 | 4 => a4 | 5 => a5

/-- Channel `4 · j + c` of a plane is channel `c` of its chunk `j`. -/
theorem plane_apply (ww hw : FVec Ideal S300x1024 .f32) (b0 b1 b2 b3 b4 b5 : Vec Ideal S4x300x300 .f32)
    (j : Fin 6) (c : Fin 4) (n : Fin 1024) :
    plane ww hw b0 b1 b2 b3 b4 b5 (ix2 (⟨4 * j.val + c.val, by omega⟩ : Fin 24) n)
      = chunk ww hw (pick6 b0 b1 b2 b3 b4 b5 j) (ix2 c n) := by
  unfold plane
  have hi : ∀ b : Fin S4x1024.rank, b.cast (rfl : S4x1024.rank = S24x1024.rank) ≠ (0 : Fin S24x1024.rank) →
      ((ix2 c n : S4x1024.Idx) b).val = ((ix2 (⟨4 * j.val + c.val, by omega⟩ : Fin 24) n : S24x1024.Idx) (b.cast rfl)).val := by
    intro b hb
    match b with
    | ⟨0, _⟩ => exact absurd rfl hb
    | ⟨1, _⟩ => rfl
  fin_cases j
  · refine concatenate_apply_piece (t := S24x1024) 0 _ _ _ 0 ?_ S4x1024 _ ?_ rfl 0 ?_ (ix2 c n) ?_ ?_
    · show 0 < 6
      omega
    · rfl
    · rfl
    · exact hi
    · show 0 + c.val = 4 * 0 + c.val
      omega
  · refine concatenate_apply_piece (t := S24x1024) 0 _ _ _ 1 ?_ S4x1024 _ ?_ rfl 4 ?_ (ix2 c n) ?_ ?_
    · show 1 < 6
      omega
    · rfl
    · rfl
    · exact hi
    · show 4 + c.val = 4 * 1 + c.val
      omega
  · refine concatenate_apply_piece (t := S24x1024) 0 _ _ _ 2 ?_ S4x1024 _ ?_ rfl 8 ?_ (ix2 c n) ?_ ?_
    · show 2 < 6
      omega
    · rfl
    · rfl
    · exact hi
    · show 8 + c.val = 4 * 2 + c.val
      omega
  · refine concatenate_apply_piece (t := S24x1024) 0 _ _ _ 3 ?_ S4x1024 _ ?_ rfl 12 ?_ (ix2 c n) ?_ ?_
    · show 3 < 6
      omega
    · rfl
    · rfl
    · exact hi
    · show 12 + c.val = 4 * 3 + c.val
      omega
  · refine concatenate_apply_piece (t := S24x1024) 0 _ _ _ 4 ?_ S4x1024 _ ?_ rfl 16 ?_ (ix2 c n) ?_ ?_
    · show 4 < 6
      omega
    · rfl
    · rfl
    · exact hi
    · show 16 + c.val = 4 * 4 + c.val
      omega
  · refine concatenate_apply_piece (t := S24x1024) 0 _ _ _ 5 ?_ S4x1024 _ ?_ rfl 20 ?_ (ix2 c n) ?_ ?_
    · show 5 < 6
      omega
    · rfl
    · rfl
    · exact hi
    · show 20 + c.val = 4 * 5 + c.val
      omega

end Cert.TriVM.K

end
-- ==== Proof.KernelPoint.lean ====
/-
  One element of the output block, on the extended reals.

  The output block is the one store's payload; the blocks of points and the line tables are loaded whole, and block `j`
  of a plane table holds the channels `4 · j … 4 · j + 3`. Reading the clean output function at point `n`: the three
  terms are sums over the 24 channels of plane value times line value; a plane value is the sum over the rows of the
  three-fold product of the table row with the column weights, times the row weight; a line value is the three-fold
  product of the table row with the weights; and each weight is `oh` of the point's coordinate. That is `kOut`, term
  by term.
-/
import proofs.«179513_j69423851372724_2_alg».proof.Proof.KOut
import proofs.«179513_j69423851372724_2_alg».proof.Proof.KWeights
import proofs.«179513_j69423851372724_2_alg».proof.Proof.KChunk

noncomputable section

namespace Cert.TriVM.K

open Idealize.ShloMosaic Idealize.ShloMosaic.ValueIdx Cert.KernelIdeal Cert.KernelIdeal.Gen

/-- A block of four channels loaded from a plane table at channel offset `off`: channel `c` of the block is channel
    `off + c` of the table. -/
theorem ld_block (x : Vec Ideal S24x300x300 .f32) (off : Nat) (hoff : off + 4 ≤ 24)
    (inb : ∀ a, (![off, 0, 0] : Fin 3 → Nat) a + S4x300x300.size a ≤ S24x300x300.size a)
    (c : Fin 4) (h k : Fin 300) :
    View.ld x (Rect.unit (s := S24x300x300) ![off, 0, 0] S4x300x300.size inb) (ix3 c h k)
      = x (ix3 (⟨off + c.val, by omega⟩ : Fin 24) h k) := by
  show x ((Rect.unit (s := S24x300x300) ![off, 0, 0] S4x300x300.size inb).idx (ix3 c h k)) = _
  refine congrArg x (funext fun a => Fin.ext ?_)
  match a with
  | ⟨0, _⟩ => show off + 1 * c.val = off + c.val; omega
  | ⟨1, _⟩ => show 0 + 1 * h.val = h.val; omega
  | ⟨2, _⟩ => show 0 + 1 * k.val = k.val; omega

/-- A plane's value at channel `c` and point `n`, from the table itself. -/
theorem plane_ld (ww hw : FVec Ideal S300x1024 .f32) (x : Vec Ideal S24x300x300 .f32) (c : Fin 24) (n : Fin 1024) :
    plane ww hw (View.ld x r0_1) (View.ld x r0_2) (View.ld x r0_3) (View.ld x r0_4) (View.ld x r0_5) (View.ld x r0_6)
        (ix2 c n)
      = ∑ h : Fin 300, dot3 (fun k : Fin 300 => x (ix3 c h k)) (fun k : Fin 300 => ww (ix2 k n)) * hw (ix2 h n) := by
  obtain ⟨j, c4, rfl⟩ : ∃ (j : Fin 6) (c4 : Fin 4), c = (⟨4 * j.val + c4.val, by omega⟩ : Fin 24) :=
    ⟨⟨c.val / 4, by omega⟩, ⟨c.val % 4, by omega⟩, Fin.ext (by show c.val = 4 * (c.val / 4) + c.val % 4; omega)⟩
  rw [plane_apply, chunk_apply]
  refine Finset.sum_congr rfl fun h _ => ?_
  congr 2
  funext k
  fin_cases j
  · exact (ld_block x 0 (by omega) inb_S24x300x300_S4x300x300_0_0_0 c4 h k).trans
      (congrArg (fun a => x (ix3 a h k)) (Fin.ext (by show 0 + c4.val = 4 * 0 + c4.val; omega)))
  · exact (ld_block x 4 (by omega) inb_S24x300x300_S4x300x300_4_0_0 c4 h k).trans
      (congrArg (fun a => x (ix3 a h k)) (Fin.ext (by show 4 + c4.val = 4 * 1 + c4.val; omega)))
  · exact (ld_block x 8 (by omega) inb_S24x300x300_S4x300x300_8_0_0 c4 h k).trans
      (congrArg (fun a => x (ix3 a h k)) (Fin.ext (by show 8 + c4.val = 4 * 2 + c4.val; omega)))
  · exact (ld_block x 12 (by omega) inb_S24x300x300_S4x300x300_12_0_0 c4 h k).trans
      (congrArg (fun a => x (ix3 a h k)) (Fin.ext (by show 12 + c4.val = 4 * 3 + c4.val; omega)))
  · exact (ld_block x 16 (by omega) inb_S24x300x300_S4x300x300_16_0_0 c4 h k).trans
      (congrArg (fun a => x (ix3 a h k)) (Fin.ext (by show 16 + c4.val = 4 * 4 + c4.val; omega)))
  · exact (ld_block x 20 (by omega) inb_S24x300x300_S4x300x300_20_0_0 c4 h k).trans
      (congrArg (fun a => x (ix3 a h k)) (Fin.ext (by show 20 + c4.val = 4 * 5 + c4.val; omega)))

end Cert.TriVM.K

namespace Cert.TriVM

open Idealize.ShloMosaic Idealize.ShloMosaic.ValueIdx Cert.KernelIdeal Cert.KernelIdeal.Gen Cert.TriVM.K

/-- The output block of a grid point at point `n` is `kOut` of the point's three coordinates and the six tables. -/
theorem out_point (pts : Vec Ideal S1024x3 .f32) (x1 x2 x3 : Vec Ideal S24x300x300 .f32)
    (x4 x5 x6 : Vec Ideal S24x300 .f32) (n : Fin 1024) :
    Cert.KernelIdeal.Gen.out0_7 (F := Ideal) pts x1 x2 x3 x4 x5 x6 (ix1 n)
      = kOut (pts (ix2 n 0)) (pts (ix2 n 1)) (pts (ix2 n 2)) x1 x2 x3 x4 x5 x6 := by
  have hz1 : (![0] : Fin 1 → Nat) = fun _ => 0 := by
    funext a
    match a with
    | ⟨0, _⟩ => rfl
  have hz2 : (![0, 0] : Fin 2 → Nat) = fun _ => 0 := by
    funext a
    match a with
    | ⟨0, _⟩ => rfl
    | ⟨1, _⟩ => rfl
  rw [out0_7_eq, View.canon_unit_zero hz1]
  simp only [View.ld_unit_zero (S := S1024x3) hz2, View.ld_unit_zero (S := S24x300) hz2]
  unfold outV
  rw [addf_apply, addf_apply, term_apply, term_apply, term_apply]
  simp only [plane_ld, mm3L_apply, wmat_apply, col0_apply, col1_apply, col2_apply]
  rfl

end Cert.TriVM

end
-- ==== Proof.KernelArray.lean ====
/-
  From the kernel's blocks to its result array.

  The kernel runs on a grid of 1024 points; point `t` reads rows `1024 t … 1024 t + 1023` of the point list (a
  [1048576, 3] array, the argument viewed row by row), the six tables whole, and writes elements `1024 t … 1024 t + 1023`
  of a vector of 1048576 numbers, which the program then views as a 1024 × 1024 matrix. Element `n` of what a point
  writes depends on row `n` of its block of points only (`out_point`), so the vector ends holding, at `N`, the
  function `kOut` of row `N` of the point list and of the tables: each block is a restriction of that one function, and
  the blocks cover the vector. Viewed as a matrix, entry `(i, j)` is element `1024 i + j`, whose row of the point list
  is the argument's `(i, j, ·)`.
-/
import proofs.«179513_j69423851372724_2_alg».proof.Proof.Gen.KernelIdeal.Frame
import proofs.«179513_j69423851372724_2_alg».proof.Proof.Spec
import Idealize.ShloMosaic.Lib.Pipeline.Value
import Idealize.ShloMosaic.Lib.ValueIdx
import Idealize.ShloMosaic.Lib.StableHlo.Run

noncomputable section

namespace Cert.TriVM.KArr

open Idealize.ShloMosaic Idealize.ShloMosaic.TcCoe Idealize.SL.Sem Idealize.ShloMosaic.ValueIdx
open Cert.KernelIdeal Cert.KernelIdeal.Gen Cert.TriVM
open Idealize.ShloMosaic.Pipeline (Dat)

variable (m : (ℓ : Loc nD τ sig) → Buf (Elt Ideal) ℓ) (ρ : Dev nD → PrngReg)

/-- The vector the kernel fills, as one function of the point list and the tables. -/
def GK (A0 : S1048576x3.Idx → EReal) (P1 P2 P3 : S24x300x300.Idx → EReal) (L1 L2 L3 : S24x300.Idx → EReal) :
    S1048576.Idx → EReal := fun i =>
  kOut (A0 (ix2 (⟨(i 0).val, (i 0).isLt⟩ : Fin 1048576) (0 : Fin 3))) (A0 (ix2 (⟨(i 0).val, (i 0).isLt⟩ : Fin 1048576) (1 : Fin 3)))
    (A0 (ix2 (⟨(i 0).val, (i 0).isLt⟩ : Fin 1048576) (2 : Fin 3))) P1 P2 P3 L1 L2 L3

theorem kOut_congr {x y z x' y' z' : EReal} {P1 P2 P3 P1' P2' P3' : SP.Idx → EReal} {L1 L2 L3 L1' L2' L3' : SL.Idx → EReal}
    (hx : x = x') (hy : y = y') (hz : z = z') (h1 : P1 = P1') (h2 : P2 = P2') (h3 : P3 = P3') (h4 : L1 = L1')
    (h5 : L2 = L2') (h6 : L3 = L3') : kOut x y z P1 P2 P3 L1 L2 L3 = kOut x' y' z' P1' P2' P3' L1' L2' L3' := by
  subst hx hy hz h1 h2 h3 h4 h5 h6; rfl

/-- The printed index maps over the grid: point `t` takes block `t` of the points and of the result, block 0 of each table. -/
theorem idx_facts : ∀ t : Fin cfg0.N, win0_0.index t (0 : Fin 2) = t.val ∧ win0_0.index t (1 : Fin 2) = 0
    ∧ win0_7.index t (0 : Fin 1) = t.val
    ∧ (∀ a : Fin 3, win0_1.index t a = 0) ∧ (∀ a : Fin 3, win0_2.index t a = 0) ∧ (∀ a : Fin 3, win0_3.index t a = 0)
    ∧ (∀ a : Fin 2, win0_4.index t a = 0) ∧ (∀ a : Fin 2, win0_5.index t a = 0) ∧ (∀ a : Fin 2, win0_6.index t a = 0) :=
  (by decide +kernel : ∀ t : Fin grid0.N, _)

/-- What one point leaves in its block of the result, element by element (the kernel's value at an element). -/
def PointLaw : Prop :=
  ∀ (pts : Vec Ideal S1024x3 .f32) (x1 x2 x3 : Vec Ideal S24x300x300 .f32) (x4 x5 x6 : Vec Ideal S24x300 .f32) (n : Fin 1024),
    out0_7 (F := Ideal) pts x1 x2 x3 x4 x5 x6 (ix1 n) = kOut (pts (ix2 n 0)) (pts (ix2 n 1)) (pts (ix2 n 2)) x1 x2 x3 x4 x5 x6

/-! A table's window is the whole table at every point. -/

theorem iblk1 (c : Dev nD) (t : Fin cfg0.N) : (iblk m c 1 t : S24x300x300.Idx → EReal) = V m c main_arg1 := by
  obtain ⟨-, -, -, e, -⟩ := idx_facts t
  funext j
  show V m c main_arg1 (((cfg0.win 1).blk t).view.emb j) = V m c main_arg1 j
  refine congrArg (V m c main_arg1) (funext fun a => Fin.ext ?_)
  match a with
  | ⟨0, _⟩ => show win0_1.index t (0 : Fin 3) * 24 + 1 * (j 0).val = (j 0).val; rw [e 0]; omega
  | ⟨1, _⟩ => show win0_1.index t (1 : Fin 3) * 300 + 1 * (j 1).val = (j 1).val; rw [e 1]; omega
  | ⟨2, _⟩ => show win0_1.index t (2 : Fin 3) * 300 + 1 * (j 2).val = (j 2).val; rw [e 2]; omega

theorem iblk2 (c : Dev nD) (t : Fin cfg0.N) : (iblk m c 2 t : S24x300x300.Idx → EReal) = V m c main_arg2 := by
  obtain ⟨-, -, -, -, e, -⟩ := idx_facts t
  funext j
  show V m c main_arg2 (((cfg0.win 2).blk t).view.emb j) = V m c main_arg2 j
  refine congrArg (V m c main_arg2) (funext fun a => Fin.ext ?_)
  match a with
  | ⟨0, _⟩ => show win0_2.index t (0 : Fin 3) * 24 + 1 * (j 0).val = (j 0).val; rw [e 0]; omega
  | ⟨1, _⟩ => show win0_2.index t (1 : Fin 3) * 300 + 1 * (j 1).val = (j 1).val; rw [e 1]; omega
  | ⟨2, _⟩ => show win0_2.index t (2 : Fin 3) * 300 + 1 * (j 2).val = (j 2).val; rw [e 2]; omega

theorem iblk3 (c : Dev nD) (t : Fin cfg0.N) : (iblk m c 3 t : S24x300x300.Idx → EReal) = V m c main_arg3 := by
  obtain ⟨-, -, -, -, -, e, -⟩ := idx_facts t
  funext j
  show V m c main_arg3 (((cfg0.win 3).blk t).view.emb j) = V m c main_arg3 j
  refine congrArg (V m c main_arg3) (funext fun a => Fin.ext ?_)
  match a with
  | ⟨0, _⟩ => show win0_3.index t (0 : Fin 3) * 24 + 1 * (j 0).val = (j 0).val; rw [e 0]; omega
  | ⟨1, _⟩ => show win0_3.index t (1 : Fin 3) * 300 + 1 * (j 1).val = (j 1).val; rw [e 1]; omega
  | ⟨2, _⟩ => show win0_3.index t (2 : Fin 3) * 300 + 1 * (j 2).val = (j 2).val; rw [e 2]; omega

theorem iblk4 (c : Dev nD) (t : Fin cfg0.N) : (iblk m c 4 t : S24x300.Idx → EReal) = V m c main_arg4 := by
  obtain ⟨-, -, -, -, -, -, e, -⟩ := idx_facts t
  funext j
  show V m c main_arg4 (((cfg0.win 4).blk t).view.emb j) = V m c main_arg4 j
  refine congrArg (V m c main_arg4) (funext fun a => Fin.ext ?_)
  match a with
  | ⟨0, _⟩ => show win0_4.index t (0 : Fin 2) * 24 + 1 * (j 0).val = (j 0).val; rw [e 0]; omega
  | ⟨1, _⟩ => show win0_4.index t (1 : Fin 2) * 300 + 1 * (j 1).val = (j 1).val; rw [e 1]; omega

theorem iblk5 (c : Dev nD) (t : Fin cfg0.N) : (iblk m c 5 t : S24x300.Idx → EReal) = V m c main_arg5 := by
  obtain ⟨-, -, -, -, -, -, -, e, -⟩ := idx_facts t
  funext j
  show V m c main_arg5 (((cfg0.win 5).blk t).view.emb j) = V m c main_arg5 j
  refine congrArg (V m c main_arg5) (funext fun a => Fin.ext ?_)
  match a with
  | ⟨0, _⟩ => show win0_5.index t (0 : Fin 2) * 24 + 1 * (j 0).val = (j 0).val; rw [e 0]; omega
  | ⟨1, _⟩ => show win0_5.index t (1 : Fin 2) * 300 + 1 * (j 1).val = (j 1).val; rw [e 1]; omega

theorem iblk6 (c : Dev nD) (t : Fin cfg0.N) : (iblk m c 6 t : S24x300.Idx → EReal) = V m c main_arg6 := by
  obtain ⟨-, -, -, -, -, -, -, -, e⟩ := idx_facts t
  funext j
  show V m c main_arg6 (((cfg0.win 6).blk t).view.emb j) = V m c main_arg6 j
  refine congrArg (V m c main_arg6) (funext fun a => Fin.ext ?_)
  match a with
  | ⟨0, _⟩ => show win0_6.index t (0 : Fin 2) * 24 + 1 * (j 0).val = (j 0).val; rw [e 0]; omega
  | ⟨1, _⟩ => show win0_6.index t (1 : Fin 2) * 300 + 1 * (j 1).val = (j 1).val; rw [e 1]; omega

/-- Row `n` of point `t`'s block of points is row `1024 t + n` of the point list. -/
theorem iblk0 (c : Dev nD) (t : Fin cfg0.N) (n : Fin 1024) (k : Fin 3) (N : Fin 1048576) (hN : N.val = t.val * 1024 + n.val) :
    (iblk m c 0 t : S1024x3.Idx → EReal) (ix2 n k) = V m c main_v0 (ix2 N k) := by
  obtain ⟨e0, e1, -⟩ := idx_facts t
  show V m c main_v0 (((cfg0.win 0).blk t).view.emb (ix2 n k)) = V m c main_v0 (ix2 N k)
  refine congrArg (V m c main_v0) (funext fun a => Fin.ext ?_)
  match a with
  | ⟨0, _⟩ => show win0_0.index t (0 : Fin 2) * 1024 + 1 * n.val = N.val; rw [e0]; omega
  | ⟨1, _⟩ => show win0_0.index t (1 : Fin 2) * 3 + 1 * k.val = k.val; rw [e1]; omega

/-- WHAT POINT `t` WRITES BACK is block `t` of the one function `GK` of the arrays as the region finds them. -/
theorem flushed7_eq (hpt : PointLaw) (c : Dev nD) (t : Fin cfg0.N) :
    (dats m 0 c).flushed 7 t = ((cfg0.win 7).blk t).view.read (Elt Ideal)
      (GK (V m c main_v0) (V m c main_arg1) (V m c main_arg2) (V m c main_arg3) (V m c main_arg4) (V m c main_arg5) (V m c main_arg6)) := by
  show (cfg0.win 7).cut (grid0.coords t) ((dats m 0 c).after 7 t) = _
  rw [after0_7]
  obtain ⟨-, -, e7, -⟩ := idx_facts t
  have ht : t.val < 1024 := lt_of_lt_of_eq t.isLt (N_0 : cfg0.N = 1024)
  funext j
  obtain ⟨n, rfl⟩ : ∃ n : Fin 1024, j = ix1 n := ⟨j 0, eq_ix1 j⟩
  refine (hpt (iblk m c 0 t) (iblk m c 1 t) (iblk m c 2 t) (iblk m c 3 t) (iblk m c 4 t) (iblk m c 5 t) (iblk m c 6 t) n).trans ?_
  have hE : ((((cfg0.win 7).blk t).view.emb (ix1 n)) 0).val = t.val * 1024 + n.val := by
    show win0_7.index t (0 : Fin 1) * 1024 + 1 * n.val = _; rw [e7]; omega
  show _ = GK _ _ _ _ _ _ _ (((cfg0.win 7).blk t).view.emb (ix1 n))
  unfold GK
  exact kOut_congr (iblk0 m c t n 0 _ hE) (iblk0 m c t n 1 _ hE) (iblk0 m c t n 2 _ hE)
    (iblk1 m c t) (iblk2 m c t) (iblk3 m c t) (iblk4 m c t) (iblk5 m c t) (iblk6 m c t)

/-- An element of the result vector is in point `t`'s block iff it lies in `1024 t … 1024 t + 1023`. -/
theorem mem_blk7 (t : Fin cfg0.N) (i : S1048576.Idx) :
    i ∈ ((cfg0.win 7).blk t).view.set ↔ ∀ a : Fin 1, win0_7.index t a * S1024.size a ≤ (i a).val ∧ (i a).val < win0_7.index t a * S1024.size a + S1024.size a := by
  show i ∈ ((View.whole main_v1).slice (win0_7.rect t)).set ↔ _
  rw [View.set_slice_whole, Rect.mem_set_unit]
  exact Iff.rfl

/-- Every element is in the block of the point `i / 1024`. -/
theorem cover7 (i : S1048576.Idx) : ∃ t : Fin cfg0.N, (cfg0.win 7).flush t = true ∧ i ∈ ((cfg0.win 7).blk t).view.set := by
  have hi : (i 0).val < 1048576 := (i 0).isLt
  have hN : cfg0.N = 1024 := N_0
  let t : Fin cfg0.N := ⟨(i 0).val / 1024, by rw [hN]; omega⟩
  obtain ⟨-, -, e7, -⟩ := idx_facts t
  refine ⟨t, flush0_7 t, ?_⟩
  rw [mem_blk7]
  intro a
  match a with
  | ⟨0, _⟩ =>
    show win0_7.index t (0 : Fin 1) * 1024 ≤ (i 0).val ∧ (i 0).val < win0_7.index t (0 : Fin 1) * 1024 + 1024
    rw [e7]
    show (i 0).val / 1024 * 1024 ≤ (i 0).val ∧ (i 0).val < (i 0).val / 1024 * 1024 + 1024
    omega

/-- THE VECTOR after the run. -/
theorem final7 (hpt : PointLaw) (c : Dev nD) : (dats m 0 c).arrAt 7 cfg0.N
    = GK (V m c main_v0) (V m c main_arg1) (V m c main_arg2) (V m c main_arg3) (V m c main_arg4) (V m c main_arg5) (V m c main_arg6) :=
  (dats m 0 c).arrAt_eq_of_cover 7 _ (fun t _ => flushed7_eq m hpt c t) cover7

/-- The point list the region finds is the argument viewed row by row. -/
theorem V_main_v0 (c : Dev nD) : (V m c main_v0 : S1048576x3.Idx → EReal)
    = shapeCast S1048576x3 (m ((c : Thread nD τ).loc main_arg0)) shapeCasts_S1024x1024x3_S1048576x3 := by
  show StableHlo.after hostOps0 (fun b => m (c, b)) (Proc.devRef .tc main_v0) = _
  after_results
  rfl

/-- Row `1024 i + j` of the point list is the argument's `(i, j, ·)`. -/
theorem V_main_v0_apply (c : Dev nD) (i j : Fin 1024) (k : Fin 3) (N : Fin 1048576) (hN : N.val = i.val * 1024 + j.val) :
    (V m c main_v0 : S1048576x3.Idx → EReal) (ix2 N k) = m ((c : Thread nD τ).loc main_arg0) (ix3 i j k) := by
  rw [V_main_v0]
  generalize m ((c : Thread nD τ).loc main_arg0) = y
  exact shapeCast_apply y shapeCasts_S1024x1024x3_S1048576x3 (ix2 N k) (ix3 i j k)
    (by show (S1024x1024x3.rowMajor (ix3 i j k)).val = (S1048576x3.rowMajor (ix2 N k)).val
        rewrite [Shape.rowMajor_val_three, Shape.rowMajor_val_two]
        show (i.val * 1024 + j.val) * 3 + k.val = N.val * 3 + k.val
        omega)

/-- The host line after the region views the vector as a matrix. -/
theorem tail_v2 (c : Dev nD) :
    Pipeline.afterTail₀ cfgs (dats m) 0 (V0 m) [hostOps1] c main_v2
      = shapeCast S1024x1024 ((dats m 0 c).arrAt 7 cfg0.N) shapeCasts_S1048576_S1024x1024 := by
  unfold Pipeline.afterTail₀
  show StableHlo.after hostOps1 _ (Proc.devRef .tc main_v2) = _
  after_results
  rw [Pipeline.withArrays_arr spec0 launch0.win.arr_inj c _ _ 7]
  rfl

/-- The kernel's result: the matrix view of the vector `GK` of the arrays as launched. -/
def KRes (c : Dev nD) : S1024x1024.Idx → EReal :=
  shapeCast S1024x1024 (GK (V m c main_v0) (V m c main_arg1) (V m c main_arg2) (V m c main_arg3) (V m c main_arg4) (V m c main_arg5) (V m c main_arg6))
    shapeCasts_S1048576_S1024x1024

/-- Entry `(i, j)` of the kernel's result is `kOut` of the argument's point `(i, j)` and the tables. -/
theorem KRes_apply (c : Dev nD) (i j : Fin 1024) :
    KRes m c (ix2 i j) = kOut (m ((c : Thread nD τ).loc main_arg0) (ix3 i j 0)) (m ((c : Thread nD τ).loc main_arg0) (ix3 i j 1))
      (m ((c : Thread nD τ).loc main_arg0) (ix3 i j 2)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  have hij : i.val * 1024 + j.val < 1048576 := by have := i.isLt; have := j.isLt; omega
  unfold KRes
  generalize hg : GK (V m c main_v0) (V m c main_arg1) (V m c main_arg2) (V m c main_arg3) (V m c main_arg4) (V m c main_arg5) (V m c main_arg6) = g
  rw [shapeCast_apply g shapeCasts_S1048576_S1024x1024 (ix2 i j) (ix1 (⟨i.val * 1024 + j.val, hij⟩ : Fin 1048576))
    (by rewrite [Shape.rowMajor_val_one, Shape.rowMajor_val_two]; rfl)]
  subst hg
  unfold GK
  exact kOut_congr (V_main_v0_apply m c i j 0 _ rfl) (V_main_v0_apply m c i j 1 _ rfl) (V_main_v0_apply m c i j 2 _ rfl)
    (V_main_arg1 m c) (V_main_arg2 m c) (V_main_arg3 m c) (V_main_arg4 m c) (V_main_arg5 m c) (V_main_arg6 m c)

/-- The kernel's run, read: the result matrix is `KRes`, the arguments end as launched. -/
theorem run (hpt : PointLaw) : θ_run defs (onTc (τ := τ) (main (F := Ideal))) ⟨m, fun _ => 0, ρ⟩ (fun r => ∀ c : Dev nD,
      r.2.mem ((c.tc : Thread nD τ).loc main_v2) = KRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(((h c).2 main_v2 (Pipeline.mem_restRefs_of main_v2 (by decide) (by decide))).trans
        ((tail_v2 m c).trans (by rw [final7 m hpt c]; rfl))),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩) (run_main m ρ)

end Cert.TriVM.KArr

end
-- ==== Proof.Blend.lean ====
/-
  The arithmetic behind the comparison, for finite numbers.

  * The three float literals 1, ½ and 299 are real numbers, so for a real coordinate `t` the position `pos t` and the
    weight `frac t` are real.
  * The two cells `lo t` and `hi t` are words between 0 and 299 (they are clamped), so each names a cell `cell _` of the
    300, and the word of a cell number `g` equals such a word exactly when `g` is that cell.
  * Hence the weight vector `oh t` is the real vector with `1 − frac t` at `cell (lo t)`, `frac t` at `cell (hi t)`
    (their sum where the two coincide) and `0` elsewhere.
  * On real vectors the three-fold product `dot3` is the plain product: a real minus itself is `0`.
  * A real vector times such a weight vector is the blend `a (lo) · (1 − f) + a (hi) · f`: the sum over all cells of
    `a g · ([g = lo] (1 − f) + [g = hi] f)` splits into two sums with one non-zero term each.
-/
import proofs.«179513_j69423851372724_2_alg».proof.Proof.Spec

noncomputable section

namespace Cert.TriVM

open Idealize.ShloMosaic Idealize.ShloMosaic.ValueIdx

/-! ## The literals -/

theorem one_eq : one = ((1 : ℝ) : EReal) := by
  unfold one; simp [Ideal.ofBits, Ideal.ieee, -EReal.coe_mul]; norm_num

theorem zer_eq : zer = 0 := by
  unfold zer; simp [Ideal.ofBits, Ideal.ieee]

theorem half_real : ∃ r : ℝ, half = (r : EReal) := by
  unfold half; simp [Ideal.ofBits, Ideal.ieee, -EReal.coe_mul]

theorem span_real : ∃ r : ℝ, span = (r : EReal) := by
  unfold span; simp [Ideal.ofBits, Ideal.ieee, -EReal.coe_mul]

/-! ## The cells -/

/-- A word clamped to 0 … 299 is between 0 and 299 as a signed integer. -/
theorem clamp_range (w : BitVec 32) :
    0 ≤ (IntOp.minsi 299#32 (IntOp.maxsi 0#32 w)).toInt ∧ (IntOp.minsi 299#32 (IntOp.maxsi 0#32 w)).toInt ≤ 299 := by
  have h299 : (299#32 : BitVec 32).toInt = 299 := by decide
  have h0 : (0#32 : BitVec 32).toInt = 0 := by decide
  unfold IntOp.minsi IntOp.maxsi
  simp only [BitVec.slt, decide_eq_true_eq]
  split_ifs <;> omega

theorem lo_range (t : EReal) : 0 ≤ (lo t).toInt ∧ (lo t).toInt ≤ 299 := clamp_range _
theorem hi_range (t : EReal) : 0 ≤ (hi t).toInt ∧ (hi t).toInt ≤ 299 := clamp_range _

/-- The word of a cell number equals a word in range exactly when the number is the word's cell. -/
theorem ofNat_eq_iff (g : Fin 300) (a : BitVec 32) (ha : 0 ≤ a.toInt ∧ a.toInt ≤ 299) :
    BitVec.ofNat 32 g.val = a ↔ g = cell a := by
  have hg := g.isLt
  have hcond := BitVec.toInt_eq_toNat_cond a
  have hlt := a.isLt
  constructor
  · intro h
    apply Fin.ext
    subst h
    simp only [cell]
    have : (BitVec.ofNat 32 g.val).toInt = g.val := by
      rw [BitVec.toInt_eq_toNat_cond, BitVec.toNat_ofNat]
      have : g.val % 2 ^ 32 = g.val := Nat.mod_eq_of_lt (by omega)
      rw [this]; split_ifs <;> omega
    rw [this]; omega
  · intro h
    apply BitVec.eq_of_toNat_eq
    rw [BitVec.toNat_ofNat, h]
    simp only [cell]
    split_ifs at hcond <;> omega

/-- So the comparison the weight vector makes is the test "this is the cell". -/
theorem select_cell {α : Type} (g : Fin 300) (a : BitVec 32) (ha : 0 ≤ a.toInt ∧ a.toInt ≤ 299) (A B : α) :
    Scalar.select (IntOp.cmpi .eq (BitVec.ofNat 32 g.val) a) A B = if g = cell a then A else B := by
  unfold Scalar.select IntOp.cmpi
  by_cases h : g = cell a
  · have e := (ofNat_eq_iff g a ha).mpr h
    rw [if_pos h, e]; simp
  · have e : ¬ BitVec.ofNat 32 g.val = a := fun e => h ((ofNat_eq_iff g a ha).mp e)
    have e' : (BitVec.ofNat 32 g.val == a) = false := by simpa using e
    rw [if_neg h, e']; simp

/-! ## Positions and weights of a real coordinate are real -/

theorem pos_real {t : EReal} (ht : ∃ r : ℝ, t = (r : EReal)) : ∃ r : ℝ, pos t = (r : EReal) := by
  obtain ⟨r, rfl⟩ := ht
  obtain ⟨a, ha⟩ := half_real
  obtain ⟨b, hb⟩ := span_real
  exact ⟨(r + 1) * a * b, by unfold pos; rw [one_eq, ha, hb, ← EReal.coe_add, ← EReal.coe_mul, ← EReal.coe_mul]⟩

theorem frac_real {t : EReal} (ht : ∃ r : ℝ, t = (r : EReal)) : ∃ f : ℝ, frac t = (f : EReal) := by
  obtain ⟨p, hp⟩ := pos_real ht
  exact ⟨p - ((lo t).toInt : ℝ), by unfold frac; rw [hp, ← EReal.coe_sub]⟩

/-- The real weight vector with `p` at the cell `i0` and `q` at the cell `i1`. -/
def wt (i0 i1 : Fin 300) (p q : ℝ) (g : Fin 300) : ℝ := (if g = i0 then p else 0) + (if g = i1 then q else 0)

theorem oh_eq {t : EReal} {f : ℝ} (hf : frac t = (f : EReal)) (g : Fin 300) :
    oh t g = ((wt (cell (lo t)) (cell (hi t)) (1 - f) f g : ℝ) : EReal) := by
  unfold oh wt
  rw [select_cell g (lo t) (lo_range t), select_cell g (hi t) (hi_range t), hf, one_eq, zer_eq, ← EReal.coe_sub,
    EReal.coe_add]
  split_ifs <;> simp

/-! ## Sums of reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On real vectors the three-fold product is the product. -/
theorem dot3_coe {K : ℕ} (a b : Fin K → ℝ) :
    dot3 (fun k => (a k : EReal)) (fun k => (b k : EReal)) = ((∑ k, a k * b k : ℝ) : EReal) := by
  unfold dot3
  have h1 : ∀ k, ((a k : EReal) * ((b k : EReal) - (b k : EReal))) = 0 := fun k => by
    rw [← EReal.coe_sub, sub_self, EReal.coe_zero, mul_zero]
  have h2 : ∀ k, (((a k : EReal) - (a k : EReal)) * (b k : EReal)) = 0 := fun k => by
    rw [← EReal.coe_sub, sub_self, EReal.coe_zero, zero_mul]
  simp only [h1, h2, Finset.sum_const_zero, add_zero]
  rw [coe_sum]; simp only [EReal.coe_mul]

/-- A real vector against a weight vector: the blend of its two entries. -/
theorem sum_wt (a : Fin 300 → ℝ) (i0 i1 : Fin 300) (p q : ℝ) :
    ∑ g, a g * wt i0 i1 p q g = a i0 * p + a i1 * q := by
  unfold wt
  simp [mul_add, Finset.sum_add_distrib, mul_ite, Finset.sum_ite_eq']

/-! ## The two readings of a table agree on finite numbers -/

theorem kLine_eq (L : SL.Idx → EReal) (hL : ∀ i, ∃ r : ℝ, L i = (r : EReal)) {t : EReal}
    (ht : ∃ r : ℝ, t = (r : EReal)) (c : Fin 24) : kLine L t c = rLine L t c := by
  choose Lr hLr using hL
  obtain ⟨f, hf⟩ := frac_real ht
  unfold kLine rLine
  have e1 : (fun l : Fin 300 => L (ix2 c l)) = fun l => ((Lr (ix2 c l) : ℝ) : EReal) := funext fun l => hLr _
  have e2 : oh t = fun g => ((wt (cell (lo t)) (cell (hi t)) (1 - f) f g : ℝ) : EReal) := funext (oh_eq hf)
  rw [e1, e2, dot3_coe]
  simp only [sum_wt]
  rw [hLr, hLr, hf, one_eq, ← EReal.coe_sub, ← EReal.coe_mul, ← EReal.coe_mul, ← EReal.coe_add]

theorem kPlane_eq (P : SP.Idx → EReal) (hP : ∀ i, ∃ r : ℝ, P i = (r : EReal)) {u v : EReal}
    (hu : ∃ r : ℝ, u = (r : EReal)) (hv : ∃ r : ℝ, v = (r : EReal)) (c : Fin 24) :
    kPlane P u v c = rPlane P u v c := by
  choose Pr hPr using hP
  obtain ⟨fu, hfu⟩ := frac_real hu
  obtain ⟨fv, hfv⟩ := frac_real hv
  unfold kPlane rPlane
  have e2 : oh u = fun g => ((wt (cell (lo u)) (cell (hi u)) (1 - fu) fu g : ℝ) : EReal) := funext (oh_eq hfu)
  have step : ∀ h : Fin 300, dot3 (fun w => P (ix3 c h w)) (oh u) * oh v h
      = (((Pr (ix3 c h (cell (lo u))) * (1 - fu) + Pr (ix3 c h (cell (hi u))) * fu)
          * wt (cell (lo v)) (cell (hi v)) (1 - fv) fv h : ℝ) : EReal) := by
    intro h
    have e1 : (fun w : Fin 300 => P (ix3 c h w)) = fun w => ((Pr (ix3 c h w) : ℝ) : EReal) := funext fun w => hPr _
    rw [e1, e2, dot3_coe, oh_eq hfv, ← EReal.coe_mul]
    simp only [sum_wt]
  simp only [step]
  rw [← coe_sum]
  simp only [sum_wt]
  simp only [hPr, hfu, hfv, one_eq, ← EReal.coe_sub, ← EReal.coe_mul, ← EReal.coe_add]
  congr 1; ring

/-! ## One output element -/

theorem kTerm_eq (P : SP.Idx → EReal) (hP : ∀ i, ∃ r : ℝ, P i = (r : EReal)) (L : SL.Idx → EReal)
    (hL : ∀ i, ∃ r : ℝ, L i = (r : EReal)) {u v t : EReal} (hu : ∃ r : ℝ, u = (r : EReal))
    (hv : ∃ r : ℝ, v = (r : EReal)) (ht : ∃ r : ℝ, t = (r : EReal)) : kTerm P L u v t = rTerm P L u v t := by
  unfold kTerm rTerm
  rw [zer_eq, zero_add]
  exact Finset.sum_congr rfl fun c _ => by rw [kPlane_eq P hP hu hv c, kLine_eq L hL ht c]

/-- For finite tables and a finite point the two sides give one number. -/
theorem kOut_eq {x y z : EReal} (hx : ∃ r : ℝ, x = (r : EReal)) (hy : ∃ r : ℝ, y = (r : EReal))
    (hz : ∃ r : ℝ, z = (r : EReal)) (P1 P2 P3 : SP.Idx → EReal) (L1 L2 L3 : SL.Idx → EReal)
    (h1 : ∀ i, ∃ r : ℝ, P1 i = (r : EReal)) (h2 : ∀ i, ∃ r : ℝ, P2 i = (r : EReal))
    (h3 : ∀ i, ∃ r : ℝ, P3 i = (r : EReal)) (h4 : ∀ i, ∃ r : ℝ, L1 i = (r : EReal))
    (h5 : ∀ i, ∃ r : ℝ, L2 i = (r : EReal)) (h6 : ∀ i, ∃ r : ℝ, L3 i = (r : EReal)) :
    kOut x y z P1 P2 P3 L1 L2 L3 = rOut x y z P1 P2 P3 L1 L2 L3 := by
  unfold kOut rOut
  rw [kTerm_eq P1 h1 L1 h4 hx hy hz, kTerm_eq P2 h2 L2 h5 hx hz hy, kTerm_eq P3 h3 L3 h6 hy hz hx]

end Cert.TriVM

end
-- ==== Proof.FiniteArgs.lean ====
/-
  The precondition says that every entry of every argument array is a finite number.

  It is printed as a conjunction of seven tests, one per array: the array's absolute value compared with +∞, element by
  element, and the comparisons reduced by `and` to one bit. The conjunction being 1, every one of the seven reductions
  is 1, so every comparison is 1: `max x (−x) < ⊤`, which leaves `x` neither `⊤` nor `⊥`, that is, a real number.
-/
import proofs.«179513_j69423851372724_2_alg».proof.Pre_finite_inputs
import Idealize.ShloMosaic.Lib.ReduceAll
import Idealize.ShloMosaic.Lib.ValueIdx
import Idealize.ShloMosaic.PureOps.Ideal

noncomputable section

namespace Cert.TriVM

open Idealize.ShloMosaic Idealize.ShloMosaic.ValueIdx Cert.Pre_finite_inputs

instance : Subsingleton Cert.Pre_finite_inputs.S_.Idx := ⟨fun a b => funext fun d => d.elim0⟩

/-- The pattern of +∞ denotes `⊤`. -/
theorem inf_eq : Ideal.ofBits .f32 0x7F800000#32 = (⊤ : EReal) := by
  simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  rw [inf_eq] at h
  induction x using EReal.rec with
  | bot => simp [Ideal.cmp] at h
  | top => simp [Ideal.cmp] at h
  | coe r => exact ⟨r, rfl⟩

/-- One array's test: the reduction by `and` of its comparisons being 1, each entry is real. -/
theorem real_of_all {s : Shape} {axes : List (Fin s.rank)} (x : FVec Ideal s .f32)
    (hb : S_.BroadcastsInDim s ![]) (hr : s.ReducesTo axes S_) (hu : 0 < S_.numel)
    (e : Host.reduce IntOp.andi (cmpf .olt (Host.absf x) (broadcastInDim s ![] hb (constant (F := Ideal) S_ .f32 0x7F800000#32)))
          (constantI S_ 1 1#1) hr hu ix0 = 1#1) (i : s.Idx) : ∃ r : ℝ, x i = (r : EReal) :=
  real_of_abs_lt (x i) (Host.reduce_andi_all _ _ hr hu ix0 e i)

/-- The precondition, read back: every entry of the seven argument arrays is a real number. -/
theorem real_of_pre [Cert.Pre_finite_inputs.Facts] (x0 : FVec Ideal S1024x1024x3 .f32) (x1 x2 x3 : FVec Ideal S24x300x300 .f32)
    (x4 x5 x6 : FVec Ideal S24x300 .f32) (h : fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) := by
  have h0 := congrFun h ix0
  dsimp only [fn, fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all x0 _ _ _ e0, real_of_all x1 _ _ _ e1, real_of_all x2 _ _ _ e2, real_of_all x3 _ _ _ e3,
    real_of_all x4 _ _ _ e4, real_of_all x5 _ _ _ e5, real_of_all x6 _ _ _ e6⟩

end Cert.TriVM

end
-- ==== Proof.lean ====
/-
  A sampled tri-plane field: for each of 1024 × 1024 points (x, y, z) the sum over 24 channels of
  plane₁(x, y) · line₁(z) + plane₂(x, z) · line₂(y) + plane₃(y, z) · line₃(x), every table read with bilinear
  weights at the two cells around the point's grid position on an axis of 300 cells.

  The reference reads each table at the two cells (four entries of a plane) and blends them. The kernel turns every
  coordinate into a weight vector over the 300 cells, zero but at the two cells, and multiplies the tables by the weight
  vectors — each product three times, as the sum a·b + a·(b − b) + (a − a)·b that stands for a product of numbers split
  into a high and a low half. On finite numbers the two are one function (module Blend): a − a = 0 and the weighted
  sum over all cells is the blend. The precondition gives the finiteness (FiniteArgs). What each program's result
  holds, entry by entry, is read off the programs: the kernel's element from its body (KernelPoint), its blocks put
  together and viewed as a matrix (KernelArray); the reference's entry from its operations (RefPoint) over its run.

  `preserves`: the idealized kernel differs from the kernel by forty-two round trips f32 → bf16 → f32 removed, each the
  identity on extended reals.
-/
import proofs.«179513_j69423851372724_2_alg».proof.Defs
import proofs.«179513_j69423851372724_2_alg».proof.Proof.Gen.Kernel
import proofs.«179513_j69423851372724_2_alg».proof.Proof.Gen.Kernel.Skeleton
import proofs.«179513_j69423851372724_2_alg».proof.Proof.Gen.Kernel.Launch
import proofs.«179513_j69423851372724_2_alg».proof.Proof.Gen.Kernel.Points
import proofs.«179513_j69423851372724_2_alg».proof.Proof.Gen.Kernel.Frame
import proofs.«179513_j69423851372724_2_alg».proof.Proof.Gen.KernelIdeal
import proofs.«179513_j69423851372724_2_alg».proof.Proof.Gen.KernelIdeal.Skeleton
import proofs.«179513_j69423851372724_2_alg».proof.Proof.Gen.KernelIdeal.Launch
import proofs.«179513_j69423851372724_2_alg».proof.Proof.Gen.KernelIdeal.Points
import proofs.«179513_j69423851372724_2_alg».proof.Proof.Gen.KernelIdeal.Frame
import proofs.«179513_j69423851372724_2_alg».proof.Proof.Gen.ReferenceIdeal
import proofs.«179513_j69423851372724_2_alg».proof.Proof.Gen.Pre_finite_inputs
import proofs.«179513_j69423851372724_2_alg».proof.Proof.RefWinRun
import proofs.«179513_j69423851372724_2_alg».proof.Proof.RefPoint
import proofs.«179513_j69423851372724_2_alg».proof.Proof.KernelPoint
import proofs.«179513_j69423851372724_2_alg».proof.Proof.KernelArray
import proofs.«179513_j69423851372724_2_alg».proof.Proof.Blend
import proofs.«179513_j69423851372724_2_alg».proof.Proof.FiniteArgs
import Idealize.ShloMosaic.Adequacy
import Idealize.ShloMosaic.Init

noncomputable section

namespace Cert.Proof

open Idealize.ShloMosaic Idealize.ShloMosaic.TcCoe Idealize.SL.Sem Idealize.ShloMosaic.ValueIdx Cert.TriVM

section Claims

variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueW.run (F := Ideal) m ρ)

/-- Each removed round trip through bf16 is the identity at the extended reals. -/
theorem preserves : Cert.preserves_Kernel_KernelIdeal :=
  ⟨IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16,
    IdealRules.truncf_extf.statement _ .f32 .bf16⟩

/-- On finite arguments the reference's result matrix, entry by entry, is the kernel's. -/
theorem results_eq (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.ReadP.val_main_v483 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = KArr.KRes m c := by
  obtain ⟨h0, h1, h2, h3, h4, h5, h6⟩ := real_of_pre _ _ _ _ _ _ _ (hpre c)
  funext idx
  obtain ⟨i, j, rfl⟩ : ∃ (i j : Fin 1024), idx = ix2 i j := ⟨idx 0, idx 1, eq_ix2 idx⟩
  rw [ref_point, KArr.KRes_apply]
  exact (kOut_eq (h0 _) (h0 _) (h0 _) _ _ _ _ _ _ h1 h2 h3 h4 h5 h6).symm

/-- Both programs run; the kernel's result is `KRes` of its arguments, the reference's its last stage of arguments that
    agree with them, and the two are one matrix. -/
theorem algebraic : Cert.algebraic_KernelIdeal_ReferenceIdeal := by
  intro m ρ m' ρ' hpre hagree
  refine ⟨fun c => KArr.KRes m c, KArr.run m ρ out_point, ?_⟩
  refine (θ_run Cert.ReferenceIdeal.defs _ _).mono (fun _ h c => ⟨(h c).1.trans ?_, (h c).2⟩)
    (Cert.ReferenceIdeal.ValueW.run (F := Ideal) m' ρ')
  rw [(hagree c).1, (hagree c).2.1, (hagree c).2.2.1, (hagree c).2.2.2.1,
    (hagree c).2.2.2.2.1, (hagree c).2.2.2.2.2.1, (hagree c).2.2.2.2.2.2]
  exact results_eq m hpre c

end Claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
